-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v82)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v82) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v154) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S20000x64 : Shape := ⟨2, ![20000, 64]⟩
abbrev S64x64 : Shape := ⟨2, ![64, 64]⟩
abbrev S20000x1 : Shape := ⟨2, ![20000, 1]⟩
abbrev S64x256 : Shape := ⟨2, ![64, 256]⟩
abbrev S256 : Shape := ⟨1, ![256]⟩
abbrev S256x128 : Shape := ⟨2, ![256, 128]⟩
abbrev S128 : Shape := ⟨1, ![128]⟩
abbrev S128x1 : Shape := ⟨2, ![128, 1]⟩
abbrev S1 : Shape := ⟨1, ![1]⟩
abbrev S2x1000000 : Shape := ⟨2, ![2, 1000000]⟩
abbrev S1000000 : Shape := ⟨1, ![1000000]⟩
abbrev S32768x64 : Shape := ⟨2, ![32768, 64]⟩
abbrev S32768 : Shape := ⟨1, ![32768]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S20000x64 : S_.BroadcastsInDim S20000x64 (![] : Fin 0 → Fin S20000x64.rank)
  reducesTo_S20000x64_S_d0_1 : S20000x64.ReducesTo [0, 1] S_
  bcast_S_S64x64 : S_.BroadcastsInDim S64x64 (![] : Fin 0 → Fin S64x64.rank)
  reducesTo_S64x64_S_d0_1 : S64x64.ReducesTo [0, 1] S_
  bcast_S_S20000x1 : S_.BroadcastsInDim S20000x1 (![] : Fin 0 → Fin S20000x1.rank)
  reducesTo_S20000x1_S_d0_1 : S20000x1.ReducesTo [0, 1] S_
  bcast_S_S64x256 : S_.BroadcastsInDim S64x256 (![] : Fin 0 → Fin S64x256.rank)
  reducesTo_S64x256_S_d0_1 : S64x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S1000000 : S_.BroadcastsInDim S1000000 (![] : Fin 0 → Fin S1000000.rank)
  reducesTo_S1000000_S_d0 : S1000000.ReducesTo [0] S_
  bcast_S_S32768x64 : S_.BroadcastsInDim S32768x64 (![] : Fin 0 → Fin S32768x64.rank)
  reducesTo_S32768x64_S_d0_1 : S32768x64.ReducesTo [0, 1] S_

variable [Facts]

def fn_part4 {F : FTy → Type} [FloatOps F] (main_arg18 : FVec F S32768x64 .f32) (main_v63 : IVec S_ 1) (main_v67 : IVec S_ 1) : IVec S_ 1 :=
  let main_v68 : IVec S_ 1 := andi main_v63 main_v67
  let main_v69 : FVec F S32768x64 .f32 := Host.absf main_arg18
  let main_cst_26 : FVec F S_ .f32 := constant S_ .f32 0x7F800000#32
  let main_v70 : FVec F S32768x64 .f32 := broadcastInDim S32768x64 ![] bcast_S_S32768x64 main_cst_26
  let main_v71 : IVec S32768x64 1 := cmpf .olt main_v69 main_v70
  let main_c_27 : IVec S_ 1 := constantI S_ 1 1#1
  let main_v72 : IVec S_ 1 := (fun x v => Host.reduce IntOp.andi x v reducesTo_S32768x64_S_d0_1 h_S_) main_v71 main_c_27
  let main_v73 : IVec S_ 1 := andi main_v68 main_v72
  main_v73

def fn_part3 {F : FTy → Type} [FloatOps F] (main_arg13 : FVec F S1000000 .f32) (main_arg15 : FVec F S1000000 .f32) (main_arg17 : FVec F S1000000 .f32) (main_arg18 : FVec F S32768x64 .f32) (main_v48 : IVec S_ 1) (main_v49 : FVec F S1000000 .f32) (main_v50 : FVec F S1000000 .f32) : IVec S_ 1 :=
  let main_v51 : IVec S1000000 1 := cmpf .olt main_v49 main_v50
  let main_c_19 : IVec S_ 1 := constantI S_ 1 1#1
  let main_v52 : IVec S_ 1 := (fun x v => Host.reduce IntOp.andi x v reducesTo_S1000000_S_d0 h_S_) main_v51 main_c_19
  let main_v53 : IVec S_ 1 := andi main_v48 main_v52
  let main_v54 : FVec F S1000000 .f32 := Host.absf main_arg13
  let main_cst_20 : FVec F S_ .f32 := constant S_ .f32 0x7F800000#32
  let main_v55 : FVec F S1000000 .f32 := broadcastInDim S1000000 ![] bcast_S_S1000000 main_cst_20
  let main_v56 : IVec S1000000 1 := cmpf .olt main_v54 main_v55
  let main_c_21 : IVec S_ 1 := constantI S_ 1 1#1
  let main_v57 : IVec S_ 1 := (fun x v => Host.reduce IntOp.andi x v reducesTo_S1000000_S_d0 h_S_) main_v56 main_c_21
  let main_v58 : IVec S_ 1 := andi main_v53 main_v57
  let main_v59 : FVec F S1000000 .f32 := Host.absf main_arg15
  let main_cst_22 : FVec F S_ .f32 := constant S_ .f32 0x7F800000#32
  let main_v60 : FVec F S1000000 .f32 := broadcastInDim S1000000 ![] bcast_S_S1000000 main_cst_22
  let main_v61 : IVec S1000000 1 := cmpf .olt main_v59 main_v60
  let main_c_23 : IVec S_ 1 := constantI S_ 1 1#1
  let main_v62 : IVec S_ 1 := (fun x v => Host.reduce IntOp.andi x v reducesTo_S1000000_S_d0 h_S_) main_v61 main_c_23
  let main_v63 : IVec S_ 1 := andi main_v58 main_v62
  let main_v64 : FVec F S1000000 .f32 := Host.absf main_arg17
  let main_cst_24 : FVec F S_ .f32 := constant S_ .f32 0x7F800000#32
  let main_v65 : FVec F S1000000 .f32 := broadcastInDim S1000000 ![] bcast_S_S1000000 main_cst_24
  let main_v66 : IVec S1000000 1 := cmpf .olt main_v64 main_v65
  let main_c_25 : IVec S_ 1 := constantI S_ 1 1#1
  let main_v67 : IVec S_ 1 := (fun x v => Host.reduce IntOp.andi x v reducesTo_S1000000_S_d0 h_S_) main_v66 main_c_25
  fn_part4 (F := F) main_arg18 main_v63 main_v67

def fn_part2 {F : FTy → Type} [FloatOps F] (main_arg7 : FVec F S128 .f32) (main_arg8 : FVec F S128x1 .f32) (main_arg9 : FVec F S1 .f32) (main_arg11 : FVec F S1000000 .f32) (main_arg13 : FVec F S1000000 .f32) (main_arg15 : FVec F S1000000 .f32) (main_arg17 : FVec F S1000000 .f32) (main_arg18 : FVec F S32768x64 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x1 .f32 := Host.absf main_arg8
  let main_cst_14 : FVec F S_ .f32 := constant S_ .f32 0x7F800000#32
  let main_v40 : FVec F S128x1 .f32 := broadcastInDim S128x1 ![] bcast_S_S128x1 main_cst_14
  let main_v41 : IVec S128x1 1 := cmpf .olt main_v39 main_v40
  let main_c_15 : IVec S_ 1 := constantI S_ 1 1#1
  let main_v42 : IVec S_ 1 := (fun x v => Host.reduce IntOp.andi x v reducesTo_S128x1_S_d0_1 h_S_) main_v41 main_c_15
  let main_v43 : IVec S_ 1 := andi main_v38 main_v42
  let main_v44 : FVec F S1 .f32 := Host.absf main_arg9
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  let main_v49 : FVec F S1000000 .f32 := Host.absf main_arg11
  let main_cst_18 : FVec F S_ .f32 := constant S_ .f32 0x7F800000#32
  let main_v50 : FVec F S1000000 .f32 := broadcastInDim S1000000 ![] bcast_S_S1000000 main_cst_18
  fn_part3 (F := F) main_arg13 main_arg15 main_arg17 main_arg18 main_v48 main_v49 main_v50

def fn_part1 {F : FTy → Type} [FloatOps F] (main_arg4 : FVec F S64x256 .f32) (main_arg5 : FVec F S256 .f32) (main_arg6 : FVec F S256x128 .f32) (main_arg7 : FVec F S128 .f32) (main_arg8 : FVec F S128x1 .f32) (main_arg9 : FVec F S1 .f32) (main_arg11 : FVec F S1000000 .f32) (main_arg13 : FVec F S1000000 .f32) (main_arg15 : FVec F S1000000 .f32) (main_arg17 : FVec F S1000000 .f32) (main_arg18 : FVec F S32768x64 .f32) (main_v13 : IVec S_ 1) (main_v16 : IVec S20000x1 1) : IVec S_ 1 :=
  let main_c_5 : IVec S_ 1 := constantI S_ 1 1#1
  let main_v17 : IVec S_ 1 := (fun x v => Host.reduce IntOp.andi x v reducesTo_S20000x1_S_d0_1 h_S_) main_v16 main_c_5
  let main_v18 : IVec S_ 1 := andi main_v13 main_v17
  let main_v19 : FVec F S64x256 .f32 := Host.absf main_arg4
  let main_cst_6 : FVec F S_ .f32 := constant S_ .f32 0x7F800000#32
  let main_v20 : FVec F S64x256 .f32 := broadcastInDim S64x256 ![] bcast_S_S64x256 main_cst_6
  let main_v21 : IVec S64x256 1 := cmpf .olt main_v19 main_v20
  let main_c_7 : IVec S_ 1 := constantI S_ 1 1#1
  let main_v22 : IVec S_ 1 := (fun x v => Host.reduce IntOp.andi x v reducesTo_S64x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x128 .f32 := Host.absf main_arg6
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg7 main_arg8 main_arg9 main_arg11 main_arg13 main_arg15 main_arg17 main_arg18 main_v33

def fn {F : FTy → Type} [FloatOps F] (main_arg0 : FVec F S50000x64 .f32) (main_arg1 : FVec F S20000x64 .f32) (main_arg2 : FVec F S64x64 .f32) (main_arg3 : FVec F S20000x1 .f32) (main_arg4 : FVec F S64x256 .f32) (main_arg5 : FVec F S256 .f32) (main_arg6 : FVec F S256x128 .f32) (main_arg7 : FVec F S128 .f32) (main_arg8 : FVec F S128x1 .f32) (main_arg9 : FVec F S1 .f32) (main_arg10 : IVec S2x1000000 32) (main_arg11 : FVec F S1000000 .f32) (main_arg12 : IVec S2x1000000 32) (main_arg13 : FVec F S1000000 .f32) (main_arg14 : IVec S2x1000000 32) (main_arg15 : FVec F S1000000 .f32) (main_arg16 : IVec S2x1000000 32) (main_arg17 : FVec F S1000000 .f32) (main_arg18 : FVec F S32768x64 .f32) (main_arg19 : IVec S32768 32) (main_arg20 : IVec S32768 32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S20000x64 .f32 := Host.absf main_arg1
  let main_cst_0 : FVec F S_ .f32 := constant S_ .f32 0x7F800000#32
  let main_v5 : FVec F S20000x64 .f32 := broadcastInDim S20000x64 ![] bcast_S_S20000x64 main_cst_0
  let main_v6 : IVec S20000x64 1 := cmpf .olt main_v4 main_v5
  let main_c_1 : IVec S_ 1 := constantI S_ 1 1#1
  let main_v7 : IVec S_ 1 := (fun x v => Host.reduce IntOp.andi x v reducesTo_S20000x64_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S20000x1 .f32 := Host.absf main_arg3
  let main_cst_4 : FVec F S_ .f32 := constant S_ .f32 0x7F800000#32
  let main_v15 : FVec F S20000x1 .f32 := broadcastInDim S20000x1 ![] bcast_S_S20000x1 main_cst_4
  let main_v16 : IVec S20000x1 1 := cmpf .olt main_v14 main_v15
  fn_part1 (F := F) main_arg4 main_arg5 main_arg6 main_arg7 main_arg8 main_arg9 main_arg11 main_arg13 main_arg15 main_arg17 main_arg18 main_v13 main_v16
-- ==== Kernel.lean ====
abbrev S50000x64 : Shape := ⟨2, ![50000, 64]⟩
abbrev S20000x64 : Shape := ⟨2, ![20000, 64]⟩
abbrev S64x64 : Shape := ⟨2, ![64, 64]⟩
abbrev S20000x1 : Shape := ⟨2, ![20000, 1]⟩
abbrev S64x256 : Shape := ⟨2, ![64, 256]⟩
abbrev S256 : Shape := ⟨1, ![256]⟩
abbrev S256x128 : Shape := ⟨2, ![256, 128]⟩
abbrev S128 : Shape := ⟨1, ![128]⟩
abbrev S128x1 : Shape := ⟨2, ![128, 1]⟩
abbrev S1 : Shape := ⟨1, ![1]⟩
abbrev S2x1000000 : Shape := ⟨2, ![2, 1000000]⟩
abbrev S1000000 : Shape := ⟨1, ![1000000]⟩
abbrev S32768x64 : Shape := ⟨2, ![32768, 64]⟩
abbrev S32768 : Shape := ⟨1, ![32768]⟩
abbrev S5000x64 : Shape := ⟨2, ![5000, 64]⟩
abbrev S1x1000000 : Shape := ⟨2, ![1, 1000000]⟩
abbrev S2000000 : Shape := ⟨1, ![2000000]⟩
abbrev S2000000x1 : Shape := ⟨2, ![2000000, 1]⟩
abbrev S_ : Shape := ⟨0, ![]⟩
abbrev S2000000x64 : Shape := ⟨2, ![2000000, 64]⟩
abbrev S32768x1 : Shape := ⟨2, ![32768, 1]⟩
abbrev S1x256 : Shape := ⟨2, ![1, 256]⟩
abbrev S1x128 : Shape := ⟨2, ![1, 128]⟩
abbrev S1x1 : Shape := ⟨2, ![1, 1]⟩
abbrev S2048x64 : Shape := ⟨2, ![2048, 64]⟩
abbrev S2048x1 : Shape := ⟨2, ![2048, 1]⟩
abbrev S2048x256 : Shape := ⟨2, ![2048, 256]⟩
abbrev S2048x128 : Shape := ⟨2, ![2048, 128]⟩

abbrev nBuf : Space → Nat
  | .hbm => 118
  | .vmem => 26
  | .smem => 0
  | _ => 0

abbrev bufTy : (tb : Table) → Fin (tcTables nBuf tb) → BufTy
  | .hbm, ⟨0, _⟩ => ⟨S50000x64, .f32⟩
  | .hbm, ⟨1, _⟩ => ⟨S20000x64, .f32⟩
  | .hbm, ⟨2, _⟩ => ⟨S64x64, .f32⟩
  | .hbm, ⟨3, _⟩ => ⟨S20000x1, .f32⟩
  | .hbm, ⟨4, _⟩ => ⟨S64x256, .f32⟩
  | .hbm, ⟨5, _⟩ => ⟨S256, .f32⟩
  | .hbm, ⟨6, _⟩ => ⟨S256x128, .f32⟩
  | .hbm, ⟨7, _⟩ => ⟨S128, .f32⟩
  | .hbm, ⟨8, _⟩ => ⟨S128x1, .f32⟩
  | .hbm, ⟨9, _⟩ => ⟨S1, .f32⟩
  | .hbm, ⟨10, _⟩ => ⟨S2x1000000, .i32⟩
  | .hbm, ⟨11, _⟩ => ⟨S1000000, .f32⟩
  | .hbm, ⟨12, _⟩ => ⟨S2x1000000, .i32⟩
  | .hbm, ⟨13, _⟩ => ⟨S1000000, .f32⟩
  | .hbm, ⟨14, _⟩ => ⟨S2x1000000, .i32⟩
  | .hbm, ⟨15, _⟩ => ⟨S1000000, .f32⟩
  | .hbm, ⟨16, _⟩ => ⟨S2x1000000, .i32⟩
  | .hbm, ⟨17, _⟩ => ⟨S1000000, .f32⟩
  | .hbm, ⟨18, _⟩ => ⟨S32768x64, .f32⟩
  | .hbm, ⟨19, _⟩ => ⟨S32768, .i32⟩
  | .hbm, ⟨20, _⟩ => ⟨S32768, .i32⟩
  | .hbm, ⟨21, _⟩ => ⟨S64x64, .f32⟩
  | .hbm, ⟨22, _⟩ => ⟨S50000x64, .f32⟩
  | .hbm, ⟨23, _⟩ => ⟨S20000x64, .f32⟩
  | .hbm, ⟨24, _⟩ => ⟨S1x1000000, .i32⟩
  | .hbm, ⟨25, _⟩ => ⟨S1000000, .i32⟩
  | .hbm, ⟨26, _⟩ => ⟨S1x1000000, .i32⟩
  | .hbm, ⟨27, _⟩ => ⟨S1000000, .i32⟩
  | .hbm, ⟨28, _⟩ => ⟨S2000000, .i32⟩
  | .hbm, ⟨29, _⟩ => ⟨S1x1000000, .i32⟩
  | .hbm, ⟨30, _⟩ => ⟨S1000000, .i32⟩
  | .hbm, ⟨31, _⟩ => ⟨S1x1000000, .i32⟩
  | .hbm, ⟨32, _⟩ => ⟨S1000000, .i32⟩
  | .hbm, ⟨33, _⟩ => ⟨S2000000, .i32⟩
  | .hbm, ⟨34, _⟩ => ⟨S2000000, .f32⟩
  | .hbm, ⟨35, _⟩ => ⟨S2000000x1, .f32⟩
  | .hbm, ⟨36, _⟩ => ⟨S_, .i32⟩
  | .hbm, ⟨37, _⟩ => ⟨S2000000, .i32⟩
  | .hbm, ⟨38, _⟩ => ⟨S2000000, .i1⟩
  | .hbm, ⟨39, _⟩ => ⟨S_, .i32⟩
  | .hbm, ⟨40, _⟩ => ⟨S2000000, .i32⟩
  | .hbm, ⟨41, _⟩ => ⟨S2000000, .i32⟩
  | .hbm, ⟨42, _⟩ => ⟨S2000000, .i32⟩
  | .hbm, ⟨43, _⟩ => ⟨S2000000x1, .i32⟩
  | .hbm, ⟨44, _⟩ => ⟨S2000000x64, .f32⟩
  | .hbm, ⟨45, _⟩ => ⟨S2000000x64, .f32⟩
  | .hbm, ⟨46, _⟩ => ⟨S2000000x64, .f32⟩
  | .hbm, ⟨47, _⟩ => ⟨S_, .f32⟩
  | .hbm, ⟨48, _⟩ => ⟨S50000x64, .f32⟩
  | .hbm, ⟨49, _⟩ => ⟨S2000000x1, .i32⟩
  | .hbm, ⟨50, _⟩ => ⟨S50000x64, .f32⟩
  | .hbm, ⟨51, _⟩ => ⟨S50000x64, .f32⟩
  | .hbm, ⟨52, _⟩ => ⟨S_, .f32⟩
  | .hbm, ⟨53, _⟩ => ⟨S50000x64, .f32⟩
  | .hbm, ⟨54, _⟩ => ⟨S50000x64, .f32⟩
  | .hbm, ⟨55, _⟩ => ⟨S1x1000000, .i32⟩
  | .hbm, ⟨56, _⟩ => ⟨S1000000, .i32⟩
  | .hbm, ⟨57, _⟩ => ⟨S1x1000000, .i32⟩
  | .hbm, ⟨58, _⟩ => ⟨S1000000, .i32⟩
  | .hbm, ⟨59, _⟩ => ⟨S2000000, .i32⟩
  | .hbm, ⟨60, _⟩ => ⟨S1x1000000, .i32⟩
  | .hbm, ⟨61, _⟩ => ⟨S1000000, .i32⟩
  | .hbm, ⟨62, _⟩ => ⟨S1x1000000, .i32⟩
  | .hbm, ⟨63, _⟩ => ⟨S1000000, .i32⟩
  | .hbm, ⟨64, _⟩ => ⟨S2000000, .i32⟩
  | .hbm, ⟨65, _⟩ => ⟨S2000000, .f32⟩
  | .hbm, ⟨66, _⟩ => ⟨S2000000x1, .f32⟩
  | .hbm, ⟨67, _⟩ => ⟨S_, .i32⟩
  | .hbm, ⟨68, _⟩ => ⟨S2000000, .i32⟩
  | .hbm, ⟨69, _⟩ => ⟨S2000000, .i1⟩
  | .hbm, ⟨70, _⟩ => ⟨S_, .i32⟩
  | .hbm, ⟨71, _⟩ => ⟨S2000000, .i32⟩
  | .hbm, ⟨72, _⟩ => ⟨S2000000, .i32⟩
  | .hbm, ⟨73, _⟩ => ⟨S2000000, .i32⟩
  | .hbm, ⟨74, _⟩ => ⟨S2000000x1, .i32⟩
  | .hbm, ⟨75, _⟩ => ⟨S2000000x64, .f32⟩
  | .hbm, ⟨76, _⟩ => ⟨S2000000x64, .f32⟩
  | .hbm, ⟨77, _⟩ => ⟨S2000000x64, .f32⟩
  | .hbm, ⟨78, _⟩ => ⟨S_, .f32⟩
  | .hbm, ⟨79, _⟩ => ⟨S20000x64, .f32⟩
  | .hbm, ⟨80, _⟩ => ⟨S2000000x1, .i32⟩
  | .hbm, ⟨81, _⟩ => ⟨S20000x64, .f32⟩
  | .hbm, ⟨82, _⟩ => ⟨S20000x64, .f32⟩
  | .hbm, ⟨83, _⟩ => ⟨S_, .f32⟩
  | .hbm, ⟨84, _⟩ => ⟨S20000x64, .f32⟩
  | .hbm, ⟨85, _⟩ => ⟨S20000x64, .f32⟩
  | .hbm, ⟨86, _⟩ => ⟨S_, .i32⟩
  | .hbm, ⟨87, _⟩ => ⟨S32768, .i32⟩
  | .hbm, ⟨88, _⟩ => ⟨S32768, .i1⟩
  | .hbm, ⟨89, _⟩ => ⟨S_, .i32⟩
  | .hbm, ⟨90, _⟩ => ⟨S32768, .i32⟩
  | .hbm, ⟨91, _⟩ => ⟨S32768, .i32⟩
  | .hbm, ⟨92, _⟩ => ⟨S32768, .i32⟩
  | .hbm, ⟨93, _⟩ => ⟨S32768x1, .i32⟩
  | .hbm, ⟨94, _⟩ => ⟨S32768x64, .f32⟩
  | .hbm, ⟨95, _⟩ => ⟨S_, .i32⟩
  | .hbm, ⟨96, _⟩ => ⟨S32768, .i32⟩
  | .hbm, ⟨97, _⟩ => ⟨S32768, .i1⟩
  | .hbm, ⟨98, _⟩ => ⟨S_, .i32⟩
  | .hbm, ⟨99, _⟩ => ⟨S32768, .i32⟩
  | .hbm, ⟨100, _⟩ => ⟨S32768, .i32⟩
  | .hbm, ⟨101, _⟩ => ⟨S32768, .i32⟩
  | .hbm, ⟨102, _⟩ => ⟨S32768x1, .i32⟩
  | .hbm, ⟨103, _⟩ => ⟨S32768x64, .f32⟩
  | .hbm, ⟨104, _⟩ => ⟨S_, .i32⟩
  | .hbm, ⟨105, _⟩ => ⟨S32768, .i32⟩
  | .hbm, ⟨106, _⟩ => ⟨S32768, .i1⟩
  | .hbm, ⟨107, _⟩ => ⟨S_, .i32⟩
  | .hbm, ⟨108, _⟩ => ⟨S32768, .i32⟩
  | .hbm, ⟨109, _⟩ => ⟨S32768, .i32⟩
  | .hbm, ⟨110, _⟩ => ⟨S32768, .i32⟩
  | .hbm, ⟨111, _⟩ => ⟨S32768x1, .i32⟩
  | .hbm, ⟨112, _⟩ => ⟨S32768x1, .f32⟩
  | .hbm, ⟨113, _⟩ => ⟨S1x256, .f32⟩
  | .hbm, ⟨114, _⟩ => ⟨S1x128, .f32⟩
  | .hbm, ⟨115, _⟩ => ⟨S1x1, .f32⟩
  | .hbm, ⟨116, _⟩ => ⟨S32768x1, .f32⟩
  | .hbm, ⟨117, _⟩ => ⟨S32768, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S64x64, .f32⟩
  | .local _ .vmem, ⟨8, _⟩ => ⟨S5000x64, .f32⟩
  | .local _ .vmem, ⟨9, _⟩ => ⟨S5000x64, .f32⟩
  | .local _ .vmem, ⟨10, _⟩ => ⟨S2048x64, .f32⟩
  | .local _ .vmem, ⟨11, _⟩ => ⟨S2048x64, .f32⟩
  | .local _ .vmem, ⟨12, _⟩ => ⟨S2048x64, .f32⟩
  | .local _ .vmem, ⟨13, _⟩ => ⟨S2048x64, .f32⟩
  | .local _ .vmem, ⟨14, _⟩ => ⟨S2048x64, .f32⟩
  | .local _ .vmem, ⟨15, _⟩ => ⟨S2048x64, .f32⟩
  | .local _ .vmem, ⟨16, _⟩ => ⟨S2048x1, .f32⟩
  | .local _ .vmem, ⟨17, _⟩ => ⟨S2048x1, .f32⟩
  | .local _ .vmem, ⟨18, _⟩ => ⟨S64x256, .f32⟩
  | .local _ .vmem, ⟨19, _⟩ => ⟨S1x256, .f32⟩
  | .local _ .vmem, ⟨20, _⟩ => ⟨S256x128, .f32⟩
  | .local _ .vmem, ⟨21, _⟩ => ⟨S1x128, .f32⟩
  | .local _ .vmem, ⟨22, _⟩ => ⟨S128x1, .f32⟩
  | .local _ .vmem, ⟨23, _⟩ => ⟨S1x1, .f32⟩
  | .local _ .vmem, ⟨24, _⟩ => ⟨S2048x1, .f32⟩
  | .local _ .vmem, ⟨25, _⟩ => ⟨S2048x1, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_c : Ref sig .tc := ⟨.hbm, 36, rfl⟩
abbrev main_v15 : Ref sig .tc := ⟨.hbm, 37, rfl⟩
abbrev main_v16 : Ref sig .tc := ⟨.hbm, 38, rfl⟩
abbrev main_c_0 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_cst : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_cst_1 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_c_2 : Ref sig .tc := ⟨.hbm, 67, rfl⟩
abbrev main_v42 : Ref sig .tc := ⟨.hbm, 68, rfl⟩
abbrev main_v43 : Ref sig .tc := ⟨.hbm, 69, rfl⟩
abbrev main_c_3 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_cst_4 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_cst_5 : Ref sig .tc := ⟨.hbm, 83, rfl⟩
abbrev main_v55 : Ref sig .tc := ⟨.hbm, 84, rfl⟩
abbrev main_v56 : Ref sig .tc := ⟨.hbm, 85, rfl⟩
abbrev main_c_6 : Ref sig .tc := ⟨.hbm, 86, rfl⟩
abbrev main_v57 : Ref sig .tc := ⟨.hbm, 87, rfl⟩
abbrev main_v58 : Ref sig .tc := ⟨.hbm, 88, rfl⟩
abbrev main_c_7 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_c_8 : Ref sig .tc := ⟨.hbm, 95, rfl⟩
abbrev main_v64 : Ref sig .tc := ⟨.hbm, 96, rfl⟩
abbrev main_v65 : Ref sig .tc := ⟨.hbm, 97, rfl⟩
abbrev main_c_9 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_c_10 : Ref sig .tc := ⟨.hbm, 104, rfl⟩
abbrev main_v71 : Ref sig .tc := ⟨.hbm, 105, rfl⟩
abbrev main_v72 : Ref sig .tc := ⟨.hbm, 106, rfl⟩
abbrev main_c_11 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg3_1 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg6_0 : Ref sig .tc := ⟨.vmem, 20, rfl⟩
abbrev cc2_stg7_0 : Ref sig .tc := ⟨.vmem, 21, rfl⟩
abbrev cc2_stg8_0 : Ref sig .tc := ⟨.vmem, 22, rfl⟩
abbrev cc2_stg9_0 : Ref sig .tc := ⟨.vmem, 23, rfl⟩
abbrev cc2_stg10_0 : Ref sig .tc := ⟨.vmem, 24, rfl⟩
abbrev cc2_stg10_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15
abbrev cc2_sem3_0 : DmaSem sig := 16
abbrev cc2_sem3_1 : DmaSem sig := 17
abbrev cc2_sem4_0 : DmaSem sig := 18
abbrev cc2_sem5_0 : DmaSem sig := 19
abbrev cc2_sem6_0 : DmaSem sig := 20
abbrev cc2_sem7_0 : DmaSem sig := 21
abbrev cc2_sem8_0 : DmaSem sig := 22
abbrev cc2_sem9_0 : DmaSem sig := 23
abbrev cc2_sem10_0 : DmaSem sig := 24
abbrev cc2_sem10_1 : DmaSem sig := 25

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2048x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2048x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2048x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S64x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S256x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S128x1 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x1 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 2 → Memref sig .tc .vmem S2048x1 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

class Facts₀ : Prop where
  transposes_S64x64_S64x64_1_0 : S64x64.Transposes [1, 0] S64x64
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  slices_S2x1000000_S1x1000000_0_0 : S2x1000000.Slices ![0, 0] S1x1000000
  shapeCasts_S1x1000000_S1000000 : S1x1000000.ShapeCasts S1000000
  concatenates_S1000000_S1000000_S2000000_d0 : Shape.Concatenates [S1000000, S1000000] S2000000 0
  slices_S2x1000000_S1x1000000_1_0 : S2x1000000.Slices ![1, 0] S1x1000000
  bcast_S2000000_S2000000x1_0 : S2000000.BroadcastsInDim S2000000x1 (![0] : Fin 1 → Fin S2000000x1.rank)
  bcast_S_S2000000 : S_.BroadcastsInDim S2000000 (![] : Fin 0 → Fin S2000000.rank)
  bcast_S2000000x1_S2000000x64_0_1 : S2000000x1.BroadcastsInDim S2000000x64 (![0, 1] : Fin 2 → Fin S2000000x64.rank)
  bcast_S_S50000x64 : S_.BroadcastsInDim S50000x64 (![] : Fin 0 → Fin S50000x64.rank)
  bcast_S_S20000x64 : S_.BroadcastsInDim S20000x64 (![] : Fin 0 → Fin S20000x64.rank)
  bcast_S_S32768 : S_.BroadcastsInDim S32768 (![] : Fin 0 → Fin S32768.rank)
  bcast_S32768_S32768x1_0 : S32768.BroadcastsInDim S32768x1 (![0] : Fin 1 → Fin S32768x1.rank)
  shapeCasts_S256_S1x256 : S256.ShapeCasts S1x256
  shapeCasts_S128_S1x128 : S128.ShapeCasts S1x128
  shapeCasts_S1_S1x1 : S1.ShapeCasts S1x1
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  broadcasts_S2048x1_S2048x64 : S2048x1.Broadcasts S2048x64
  inb_S64x256_S64x256_0_0 : ∀ a, (![0, 0] : Fin 2 → Nat) a + S64x256.size a ≤ S64x256.size a
  h_S64x256 : 0 < S64x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2048x1 : S1x1.Broadcasts S2048x1
  shapeCasts_S32768x1_S32768 : S32768x1.ShapeCasts S32768
  dot_S5000x64_S64x64_S5000x64_1_0_0_1_n_n_wf : DotDims.WF S5000x64 S64x64 S5000x64 [1] [0] [0] [1] [] []
  gather_S20000x64_S2000000x1_S2000000x64_1_0_n_n_0_1_164_wf : GatherDims.WF S20000x64 S2000000x1 S2000000x64 [1] [0] [] [0] [] 1 ![1, 64]
  scatter_S50000x64_S2000000x1_S2000000x64_1_0_0_1_wf : ScatterDims.WF S50000x64 S2000000x1 S2000000x64 [1] [0] [0] 1
  gather_S50000x64_S2000000x1_S2000000x64_1_0_n_n_0_1_164_wf : GatherDims.WF S50000x64 S2000000x1 S2000000x64 [1] [0] [] [0] [] 1 ![1, 64]
  scatter_S20000x64_S2000000x1_S2000000x64_1_0_0_1_wf : ScatterDims.WF S20000x64 S2000000x1 S2000000x64 [1] [0] [0] 1
  gather_S50000x64_S32768x1_S32768x64_1_0_n_n_0_1_164_wf : GatherDims.WF S50000x64 S32768x1 S32768x64 [1] [0] [] [0] [] 1 ![1, 64]
  gather_S20000x64_S32768x1_S32768x64_1_0_n_n_0_1_164_wf : GatherDims.WF S20000x64 S32768x1 S32768x64 [1] [0] [] [0] [] 1 ![1, 64]
  gather_S20000x1_S32768x1_S32768x1_1_0_n_n_0_1_11_wf : GatherDims.WF S20000x1 S32768x1 S32768x1 [1] [0] [] [0] [] 1 ![1, 1]
  dot_S2048x64_S64x256_S2048x256_1_0_0_1_n_n_wf : DotDims.WF S2048x64 S64x256 S2048x256 [1] [0] [0] [1] [] []
  dot_S2048x256_S256x128_S2048x128_1_0_0_1_n_n_wf : DotDims.WF S2048x256 S256x128 S2048x128 [1] [0] [0] [1] [] []
  dot_S2048x128_S128x1_S2048x1_1_0_0_1_n_n_wf : DotDims.WF S2048x128 S128x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .f32 = 32 ∨ (Rect.block (s := S50000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S20000x64.size a
  hwx1_0 : ∀ i : grid1.Coords, EltTy.bits .f32 = 32 ∨ (Rect.block (s := S20000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S20000x64.size a
  hwx1_2 : ∀ i : grid1.Coords, EltTy.bits .f32 = 32 ∨ (Rect.block (s := S20000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x64.size a ≤ S32768x64.size a
  hwx2_0 : ∀ i : grid2.Coords, EltTy.bits .f32 = 32 ∨ (Rect.block (s := S32768x64) S2048x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x64.size a ≤ S32768x64.size a
  hwx2_1 : ∀ i : grid2.Coords, EltTy.bits .f32 = 32 ∨ (Rect.block (s := S32768x64) S2048x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x64.size a ≤ S32768x64.size a
  hwx2_2 : ∀ i : grid2.Coords, EltTy.bits .f32 = 32 ∨ (Rect.block (s := S32768x64) S2048x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2048x1.size a ≤ S32768x1.size a
  hwx2_3 : ∀ i : grid2.Coords, EltTy.bits .f32 = 32 ∨ (Rect.block (s := S32768x1) S2048x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x256.size a ≤ S64x256.size a
  hwx2_4 : ∀ i : grid2.Coords, EltTy.bits .f32 = 32 ∨ (Rect.block (s := S64x256) S64x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x256.size a ≤ S1x256.size a
  hwx2_5 : ∀ i : grid2.Coords, EltTy.bits .f32 = 32 ∨ (Rect.block (s := S1x256) S1x256.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S256x128.size a ≤ S256x128.size a
  hwx2_6 : ∀ i : grid2.Coords, EltTy.bits .f32 = 32 ∨ (Rect.block (s := S256x128) S256x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S128x1.size a ≤ S128x1.size a
  hwx2_8 : ∀ i : grid2.Coords, EltTy.bits .f32 = 32 ∨ (Rect.block (s := S128x1) S128x1.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x1.size a ≤ S1x1.size a
  hwx2_9 : ∀ i : grid2.Coords, EltTy.bits .f32 = 32 ∨ (Rect.block (s := S1x1) S1x1.size (cc2_transform_9 i) (hinb2_9 i)).WholeWords (EltTy.packing .f32)
  hstage2_10 : ∀ j, (stage2_10 j).IsWhole
  nbuf2_10 : grid2.bufCount reads2_10 false = 2
  hreads2_10 : ∀ i i' : grid2.Coords, (∀ a, reads2_10 a = true → i a = i' a) → cc2_transform_10 i = cc2_transform_10 i'
  hinb2_10 : ∀ (i : grid2.Coords) a, (cc2_transform_10 i a + 1) * S2048x1.size a ≤ S32768x1.size a
  hwx2_10 : ∀ i : grid2.Coords, EltTy.bits .f32 = 32 ∨ (Rect.block (s := S32768x1) S2048x1.size (cc2_transform_10 i) (hinb2_10 i)).WholeWords (EltTy.packing .f32)

variable [Facts₀]

def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S20000x64_S2000000x1_S2000000x64_1_0_n_n_0_1_164 : GatherDims S20000x64 S2000000x1 S2000000x64 where
  offsetDims := [1]
  collapsedSliceDims := [0]
  operandBatchingDims := []
  startIndicesBatchingDims := []
  startIndexMap := [0]
  indexVectorDim := 1
  sliceSizes := ![1, 64]
  wf := gather_S20000x64_S2000000x1_S2000000x64_1_0_n_n_0_1_164_wf
def scatter_S50000x64_S2000000x1_S2000000x64_1_0_0_1 : ScatterDims S50000x64 S2000000x1 S2000000x64 where
  updateWindowDims := [1]
  insertedWindowDims := [0]
  scatterDimsToOperandDims := [0]
  indexVectorDim := 1
  wf := scatter_S50000x64_S2000000x1_S2000000x64_1_0_0_1_wf
def gather_S50000x64_S2000000x1_S2000000x64_1_0_n_n_0_1_164 : GatherDims S50000x64 S2000000x1 S2000000x64 where
  offsetDims := [1]
  collapsedSliceDims := [0]
  operandBatchingDims := []
  startIndicesBatchingDims := []
  startIndexMap := [0]
  indexVectorDim := 1
  sliceSizes := ![1, 64]
  wf := gather_S50000x64_S2000000x1_S2000000x64_1_0_n_n_0_1_164_wf
def scatter_S20000x64_S2000000x1_S2000000x64_1_0_0_1 : ScatterDims S20000x64 S2000000x1 S2000000x64 where
  updateWindowDims := [1]
  insertedWindowDims := [0]
  scatterDimsToOperandDims := [0]
  indexVectorDim := 1
  wf := scatter_S20000x64_S2000000x1_S2000000x64_1_0_0_1_wf
def gather_S50000x64_S32768x1_S32768x64_1_0_n_n_0_1_164 : GatherDims S50000x64 S32768x1 S32768x64 where
  offsetDims := [1]
  collapsedSliceDims := [0]
  operandBatchingDims := []
  startIndicesBatchingDims := []
  startIndexMap := [0]
  indexVectorDim := 1
  sliceSizes := ![1, 64]
  wf := gather_S50000x64_S32768x1_S32768x64_1_0_n_n_0_1_164_wf
def gather_S20000x64_S32768x1_S32768x64_1_0_n_n_0_1_164 : GatherDims S20000x64 S32768x1 S32768x64 where
  offsetDims := [1]
  collapsedSliceDims := [0]
  operandBatchingDims := []
  startIndicesBatchingDims := []
  startIndexMap := [0]
  indexVectorDim := 1
  sliceSizes := ![1, 64]
  wf := gather_S20000x64_S32768x1_S32768x64_1_0_n_n_0_1_164_wf
def gather_S20000x1_S32768x1_S32768x1_1_0_n_n_0_1_11 : GatherDims S20000x1 S32768x1 S32768x1 where
  offsetDims := [1]
  collapsedSliceDims := [0]
  operandBatchingDims := []
  startIndicesBatchingDims := []
  startIndexMap := [0]
  indexVectorDim := 1
  sliceSizes := ![1, 1]
  wf := gather_S20000x1_S32768x1_S32768x1_1_0_n_n_0_1_11_wf
def dot_S2048x64_S64x256_S2048x256_1_0_0_1_n_n : DotDims S2048x64 S64x256 S2048x256 where
  lhsContracting := [1]
  rhsContracting := [0]
  lhsNonContracting := [0]
  rhsNonContracting := [1]
  lhsBatch := []
  rhsBatch := []
  wf := dot_S2048x64_S64x256_S2048x256_1_0_0_1_n_n_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf
def dot_S2048x128_S128x1_S2048x1_1_0_0_1_n_n : DotDims S2048x128 S128x1 S2048x1 where
  lhsContracting := [1]
  rhsContracting := [0]
  lhsNonContracting := [0]
  rhsNonContracting := [1]
  lhsBatch := []
  rhsBatch := []
  wf := dot_S2048x128_S128x1_S2048x1_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v63) S2048x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v70) S2048x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg18) S2048x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v77) S2048x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_arg4) S64x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v78) S1x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg6) S256x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v79) S1x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_arg8) S128x1.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v80) S1x1.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v81) S2048x1.size cc2_transform_10 reads2_10 true false 2 stage2_10 sem2_10
    hrank2 hreads2_10 hinb2_10 nbuf2_10 (Memref.isWhole_whole _) hwx2_10 hstage2_10

abbrev win2 : Fin 11 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | ⟨_ + 11, h⟩ => absurd h (Nat.not_lt.2 (Nat.le_add_left _ _))
abbrev spec2 : Fin 11 → Pipeline.WinSpec sig grid2.rank := fun w => (win2 w).toWinSpec

class Facts : Prop extends Facts₀ where

variable [Facts]
-- ==== ReferenceIdeal.lean ====
abbrev S50000x64 : Shape := ⟨2, ![50000, 64]⟩
abbrev S20000x64 : Shape := ⟨2, ![20000, 64]⟩
abbrev S64x64 : Shape := ⟨2, ![64, 64]⟩
abbrev S20000x1 : Shape := ⟨2, ![20000, 1]⟩
abbrev S64x256 : Shape := ⟨2, ![64, 256]⟩
abbrev S256 : Shape := ⟨1, ![256]⟩
abbrev S256x128 : Shape := ⟨2, ![256, 128]⟩
abbrev S128 : Shape := ⟨1, ![128]⟩
abbrev S128x1 : Shape := ⟨2, ![128, 1]⟩
abbrev S1 : Shape := ⟨1, ![1]⟩
abbrev S2x1000000 : Shape := ⟨2, ![2, 1000000]⟩
abbrev S1000000 : Shape := ⟨1, ![1000000]⟩
abbrev S32768x64 : Shape := ⟨2, ![32768, 64]⟩
abbrev S32768 : Shape := ⟨1, ![32768]⟩
abbrev S_ : Shape := ⟨0, ![]⟩
abbrev S1000000x1 : Shape := ⟨2, ![1000000, 1]⟩
abbrev S1x1000000 : Shape := ⟨2, ![1, 1000000]⟩
abbrev S1000000x64 : Shape := ⟨2, ![1000000, 64]⟩
abbrev S32768x1 : Shape := ⟨2, ![32768, 1]⟩
abbrev S32768x256 : Shape := ⟨2, ![32768, 256]⟩
abbrev S1x256 : Shape := ⟨2, ![1, 256]⟩
abbrev S32768x128 : Shape := ⟨2, ![32768, 128]⟩
abbrev S1x128 : Shape := ⟨2, ![1, 128]⟩
abbrev S1x1 : Shape := ⟨2, ![1, 1]⟩

abbrev nBuf : Space → Nat
  | .hbm => 214
  | .vmem => 0
  | .smem => 0
  | _ => 0

abbrev hbmTy0_0 (i : Nat) : BufTy := match i % 128 with
  | 0 => ⟨S50000x64, .f32⟩
  | 1 => ⟨S20000x64, .f32⟩
  | 2 => ⟨S64x64, .f32⟩
  | 3 => ⟨S20000x1, .f32⟩
  | 4 => ⟨S64x256, .f32⟩
  | 5 => ⟨S256, .f32⟩
  | 6 => ⟨S256x128, .f32⟩
  | 7 => ⟨S128, .f32⟩
  | 8 => ⟨S128x1, .f32⟩
  | 9 => ⟨S1, .f32⟩
  | 10 => ⟨S2x1000000, .i32⟩
  | 11 => ⟨S1000000, .f32⟩
  | 12 => ⟨S2x1000000, .i32⟩
  | 13 => ⟨S1000000, .f32⟩
  | 14 => ⟨S2x1000000, .i32⟩
  | 15 => ⟨S1000000, .f32⟩
  | 16 => ⟨S2x1000000, .i32⟩
  | 17 => ⟨S1000000, .f32⟩
  | 18 => ⟨S32768x64, .f32⟩
  | 19 => ⟨S32768, .i32⟩
  | 20 => ⟨S32768, .i32⟩
  | 21 => ⟨S50000x64, .f32⟩
  | 22 => ⟨S50000x64, .f32⟩
  | 23 => ⟨S50000x64, .f32⟩
  | 24 => ⟨S_, .f32⟩
  | 25 => ⟨S50000x64, .f32⟩
  | 26 => ⟨S50000x64, .f32⟩
  | 27 => ⟨S_, .f32⟩
  | 28 => ⟨S50000x64, .f32⟩
  | 29 => ⟨S50000x64, .f32⟩
  | 30 => ⟨S20000x64, .f32⟩
  | 31 => ⟨S20000x64, .f32⟩
  | 32 => ⟨S20000x64, .f32⟩
  | 33 => ⟨S_, .f32⟩
  | 34 => ⟨S20000x64, .f32⟩
  | 35 => ⟨S20000x64, .f32⟩
  | 36 => ⟨S_, .f32⟩
  | 37 => ⟨S20000x64, .f32⟩
  | 38 => ⟨S20000x64, .f32⟩
  | 39 => ⟨S20000x1, .f32⟩
  | 40 => ⟨S20000x1, .f32⟩
  | 41 => ⟨S_, .f32⟩
  | 42 => ⟨S20000x1, .f32⟩
  | 43 => ⟨S20000x1, .f32⟩
  | 44 => ⟨S_, .f32⟩
  | 45 => ⟨S20000x1, .f32⟩
  | 46 => ⟨S20000x1, .f32⟩
  | 47 => ⟨S1000000x1, .f32⟩
  | 48 => ⟨S1x1000000, .i32⟩
  | 49 => ⟨S1000000, .i32⟩
  | 50 => ⟨S_, .i32⟩
  | 51 => ⟨S1000000, .i32⟩
  | 52 => ⟨S1000000, .i1⟩
  | 53 => ⟨S_, .i32⟩
  | 54 => ⟨S1000000, .i32⟩
  | 55 => ⟨S1000000, .i32⟩
  | 56 => ⟨S1000000, .i32⟩
  | 57 => ⟨S1000000x1, .i32⟩
  | 58 => ⟨S1000000x64, .f32⟩
  | 59 => ⟨S1000000x64, .f32⟩
  | 60 => ⟨S1000000x64, .f32⟩
  | 61 => ⟨S1x1000000, .i32⟩
  | 62 => ⟨S1000000, .i32⟩
  | 63 => ⟨S_, .f32⟩
  | 64 => ⟨S50000x64, .f32⟩
  | 65 => ⟨S1000000x1, .i32⟩
  | 66 => ⟨S50000x64, .f32⟩
  | 67 => ⟨S50000x64, .f32⟩
  | 68 => ⟨S1000000x1, .f32⟩
  | 69 => ⟨S1x1000000, .i32⟩
  | 70 => ⟨S1000000, .i32⟩
  | 71 => ⟨S_, .i32⟩
  | 72 => ⟨S1000000, .i32⟩
  | 73 => ⟨S1000000, .i1⟩
  | 74 => ⟨S_, .i32⟩
  | 75 => ⟨S1000000, .i32⟩
  | 76 => ⟨S1000000, .i32⟩
  | 77 => ⟨S1000000, .i32⟩
  | 78 => ⟨S1000000x1, .i32⟩
  | 79 => ⟨S1000000x64, .f32⟩
  | 80 => ⟨S1000000x64, .f32⟩
  | 81 => ⟨S1000000x64, .f32⟩
  | 82 => ⟨S1x1000000, .i32⟩
  | 83 => ⟨S1000000, .i32⟩
  | 84 => ⟨S_, .f32⟩
  | 85 => ⟨S50000x64, .f32⟩
  | 86 => ⟨S1000000x1, .i32⟩
  | 87 => ⟨S50000x64, .f32⟩
  | 88 => ⟨S50000x64, .f32⟩
  | 89 => ⟨S_, .f32⟩
  | 90 => ⟨S50000x64, .f32⟩
  | 91 => ⟨S50000x64, .f32⟩
  | 92 => ⟨S1000000x1, .f32⟩
  | 93 => ⟨S1x1000000, .i32⟩
  | 94 => ⟨S1000000, .i32⟩
  | 95 => ⟨S_, .i32⟩
  | 96 => ⟨S1000000, .i32⟩
  | 97 => ⟨S1000000, .i1⟩
  | 98 => ⟨S_, .i32⟩
  | 99 => ⟨S1000000, .i32⟩
  | 100 => ⟨S1000000, .i32⟩
  | 101 => ⟨S1000000, .i32⟩
  | 102 => ⟨S1000000x1, .i32⟩
  | 103 => ⟨S1000000x64, .f32⟩
  | 104 => ⟨S1000000x64, .f32⟩
  | 105 => ⟨S1000000x64, .f32⟩
  | 106 => ⟨S1x1000000, .i32⟩
  | 107 => ⟨S1000000, .i32⟩
  | 108 => ⟨S_, .f32⟩
  | 109 => ⟨S20000x64, .f32⟩
  | 110 => ⟨S1000000x1, .i32⟩
  | 111 => ⟨S20000x64, .f32⟩
  | 112 => ⟨S20000x64, .f32⟩
  | 113 => ⟨S1000000x1, .f32⟩
  | 114 => ⟨S1x1000000, .i32⟩
  | 115 => ⟨S1000000, .i32⟩
  | 116 => ⟨S_, .i32⟩
  | 117 => ⟨S1000000, .i32⟩
  | 118 => ⟨S1000000, .i1⟩
  | 119 => ⟨S_, .i32⟩
  | 120 => ⟨S1000000, .i32⟩
  | 121 => ⟨S1000000, .i32⟩
  | 122 => ⟨S1000000, .i32⟩
  | 123 => ⟨S1000000x1, .i32⟩
  | 124 => ⟨S1000000x64, .f32⟩
  | 125 => ⟨S1000000x64, .f32⟩
  | 126 => ⟨S1000000x64, .f32⟩
  | 127 => ⟨S1x1000000, .i32⟩
  | _ => ⟨S50000x64, .f32⟩

abbrev hbmTy0_1 (i : Nat) : BufTy := match i % 128 with
  | 0 => ⟨S1000000, .i32⟩
  | 1 => ⟨S_, .f32⟩
  | 2 => ⟨S20000x64, .f32⟩
  | 3 => ⟨S1000000x1, .i32⟩
  | 4 => ⟨S20000x64, .f32⟩
  | 5 => ⟨S20000x64, .f32⟩
  | 6 => ⟨S_, .f32⟩
  | 7 => ⟨S20000x64, .f32⟩
  | 8 => ⟨S20000x64, .f32⟩
  | 9 => ⟨S_, .i32⟩
  | 10 => ⟨S32768, .i32⟩
  | 11 => ⟨S32768, .i1⟩
  | 12 => ⟨S_, .i32⟩
  | 13 => ⟨S32768, .i32⟩
  | 14 => ⟨S32768, .i32⟩
  | 15 => ⟨S32768, .i32⟩
  | 16 => ⟨S32768x1, .i32⟩
  | 17 => ⟨S32768x1, .f32⟩
  | 18 => ⟨S_, .i32⟩
  | 19 => ⟨S32768, .i32⟩
  | 20 => ⟨S32768, .i1⟩
  | 21 => ⟨S_, .i32⟩
  | 22 => ⟨S32768, .i32⟩
  | 23 => ⟨S32768, .i32⟩
  | 24 => ⟨S32768, .i32⟩
  | 25 => ⟨S32768x1, .i32⟩
  | 26 => ⟨S32768x64, .f32⟩
  | 27 => ⟨S_, .i32⟩
  | 28 => ⟨S32768, .i32⟩
  | 29 => ⟨S32768, .i1⟩
  | 30 => ⟨S_, .i32⟩
  | 31 => ⟨S32768, .i32⟩
  | 32 => ⟨S32768, .i32⟩
  | 33 => ⟨S32768, .i32⟩
  | 34 => ⟨S32768x1, .i32⟩
  | 35 => ⟨S32768x64, .f32⟩
  | 36 => ⟨S32768x64, .f32⟩
  | 37 => ⟨S32768x64, .f32⟩
  | 38 => ⟨S32768x64, .f32⟩
  | 39 => ⟨S32768x64, .f32⟩
  | 40 => ⟨S_, .f32⟩
  | 41 => ⟨S64x256, .f32⟩
  | 42 => ⟨S64x256, .f32⟩
  | 43 => ⟨S32768x256, .f32⟩
  | 44 => ⟨S1x256, .f32⟩
  | 45 => ⟨S32768x256, .f32⟩
  | 46 => ⟨S32768x256, .f32⟩
  | 47 => ⟨S32768x256, .f32⟩
  | 48 => ⟨S32768x256, .f32⟩
  | 49 => ⟨S_, .f32⟩
  | 50 => ⟨S32768x256, .f32⟩
  | 51 => ⟨S32768x256, .f32⟩
  | 52 => ⟨S_, .f32⟩
  | 53 => ⟨S32768x256, .f32⟩
  | 54 => ⟨S32768x256, .f32⟩
  | 55 => ⟨S_, .f32⟩
  | 56 => ⟨S256x128, .f32⟩
  | 57 => ⟨S256x128, .f32⟩
  | 58 => ⟨S32768x128, .f32⟩
  | 59 => ⟨S1x128, .f32⟩
  | 60 => ⟨S32768x128, .f32⟩
  | 61 => ⟨S32768x128, .f32⟩
  | 62 => ⟨S32768x128, .f32⟩
  | 63 => ⟨S32768x128, .f32⟩
  | 64 => ⟨S_, .f32⟩
  | 65 => ⟨S32768x128, .f32⟩
  | 66 => ⟨S32768x128, .f32⟩
  | 67 => ⟨S_, .f32⟩
  | 68 => ⟨S32768x128, .f32⟩
  | 69 => ⟨S32768x128, .f32⟩
  | 70 => ⟨S_, .f32⟩
  | 71 => ⟨S128x1, .f32⟩
  | 72 => ⟨S128x1, .f32⟩
  | 73 => ⟨S32768x1, .f32⟩
  | 74 => ⟨S1x1, .f32⟩
  | 75 => ⟨S32768x1, .f32⟩
  | 76 => ⟨S32768x1, .f32⟩
  | 77 => ⟨S32768x1, .f32⟩
  | 78 => ⟨S32768x1, .f32⟩
  | 79 => ⟨S_, .f32⟩
  | 80 => ⟨S32768x1, .f32⟩
  | 81 => ⟨S32768x1, .f32⟩
  | 82 => ⟨S_, .f32⟩
  | 83 => ⟨S32768x1, .f32⟩
  | 84 => ⟨S32768x1, .f32⟩
  | 85 => ⟨S32768, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_cst : Ref sig .tc := ⟨.hbm, 24, rfl⟩
abbrev main_v3 : Ref sig .tc := ⟨.hbm, 25, rfl⟩
abbrev main_v4 : Ref sig .tc := ⟨.hbm, 26, rfl⟩
abbrev main_cst_0 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_cst_1 : Ref sig .tc := ⟨.hbm, 33, rfl⟩
abbrev main_v10 : Ref sig .tc := ⟨.hbm, 34, rfl⟩
abbrev main_v11 : Ref sig .tc := ⟨.hbm, 35, rfl⟩
abbrev main_cst_2 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_cst_3 : Ref sig .tc := ⟨.hbm, 41, rfl⟩
abbrev main_v16 : Ref sig .tc := ⟨.hbm, 42, rfl⟩
abbrev main_v17 : Ref sig .tc := ⟨.hbm, 43, rfl⟩
abbrev main_cst_4 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_c : Ref sig .tc := ⟨.hbm, 50, rfl⟩
abbrev main_v23 : Ref sig .tc := ⟨.hbm, 51, rfl⟩
abbrev main_v24 : Ref sig .tc := ⟨.hbm, 52, rfl⟩
abbrev main_c_5 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_cst_6 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_c_7 : Ref sig .tc := ⟨.hbm, 71, rfl⟩
abbrev main_v41 : Ref sig .tc := ⟨.hbm, 72, rfl⟩
abbrev main_v42 : Ref sig .tc := ⟨.hbm, 73, rfl⟩
abbrev main_c_8 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_cst_9 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_10 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_c_11 : Ref sig .tc := ⟨.hbm, 95, rfl⟩
abbrev main_v61 : Ref sig .tc := ⟨.hbm, 96, rfl⟩
abbrev main_v62 : Ref sig .tc := ⟨.hbm, 97, rfl⟩
abbrev main_c_12 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_cst_13 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_c_14 : Ref sig .tc := ⟨.hbm, 116, rfl⟩
abbrev main_v79 : Ref sig .tc := ⟨.hbm, 117, rfl⟩
abbrev main_v80 : Ref sig .tc := ⟨.hbm, 118, rfl⟩
abbrev main_c_15 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_cst_16 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_cst_17 : Ref sig .tc := ⟨.hbm, 134, rfl⟩
abbrev main_v94 : Ref sig .tc := ⟨.hbm, 135, rfl⟩
abbrev main_v95 : Ref sig .tc := ⟨.hbm, 136, rfl⟩
abbrev main_c_18 : Ref sig .tc := ⟨.hbm, 137, rfl⟩
abbrev main_v96 : Ref sig .tc := ⟨.hbm, 138, rfl⟩
abbrev main_v97 : Ref sig .tc := ⟨.hbm, 139, rfl⟩
abbrev main_c_19 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_c_20 : Ref sig .tc := ⟨.hbm, 146, rfl⟩
abbrev main_v103 : Ref sig .tc := ⟨.hbm, 147, rfl⟩
abbrev main_v104 : Ref sig .tc := ⟨.hbm, 148, rfl⟩
abbrev main_c_21 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_c_22 : Ref sig .tc := ⟨.hbm, 155, rfl⟩
abbrev main_v110 : Ref sig .tc := ⟨.hbm, 156, rfl⟩
abbrev main_v111 : Ref sig .tc := ⟨.hbm, 157, rfl⟩
abbrev main_c_23 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_call0_cst : Ref sig .tc := ⟨.hbm, 168, rfl⟩
abbrev main_call0_v0 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_cst_24 : Ref sig .tc := ⟨.hbm, 177, rfl⟩
abbrev main_v128 : Ref sig .tc := ⟨.hbm, 178, rfl⟩
abbrev main_v129 : Ref sig .tc := ⟨.hbm, 179, rfl⟩
abbrev main_cst_25 : Ref sig .tc := ⟨.hbm, 180, rfl⟩
abbrev main_v130 : Ref sig .tc := ⟨.hbm, 181, rfl⟩
abbrev main_v131 : Ref sig .tc := ⟨.hbm, 182, rfl⟩
abbrev main_call1_cst : Ref sig .tc := ⟨.hbm, 183, rfl⟩
abbrev main_call1_v0 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev main_v137 : Ref sig .tc := ⟨.hbm, 190, rfl⟩
abbrev main_v138 : Ref sig .tc := ⟨.hbm, 191, rfl⟩
abbrev main_cst_26 : Ref sig .tc := ⟨.hbm, 192, rfl⟩
abbrev main_v139 : Ref sig .tc := ⟨.hbm, 193, rfl⟩
abbrev main_v140 : Ref sig .tc := ⟨.hbm, 194, rfl⟩
abbrev main_cst_27 : Ref sig .tc := ⟨.hbm, 195, rfl⟩
abbrev main_v141 : Ref sig .tc := ⟨.hbm, 196, rfl⟩
abbrev main_v142 : Ref sig .tc := ⟨.hbm, 197, rfl⟩
abbrev main_call2_cst : Ref sig .tc := ⟨.hbm, 198, rfl⟩
abbrev main_call2_v0 : Ref sig .tc := ⟨.hbm, 199, rfl⟩
abbrev main_v143 : Ref sig .tc := ⟨.hbm, 200, rfl⟩
abbrev main_v144 : Ref sig .tc := ⟨.hbm, 201, rfl⟩
abbrev main_v145 : Ref sig .tc := ⟨.hbm, 202, rfl⟩
abbrev main_v146 : Ref sig .tc := ⟨.hbm, 203, rfl⟩
abbrev main_v147 : Ref sig .tc := ⟨.hbm, 204, rfl⟩
abbrev main_v148 : Ref sig .tc := ⟨.hbm, 205, rfl⟩
abbrev main_v149 : Ref sig .tc := ⟨.hbm, 206, rfl⟩
abbrev main_cst_28 : Ref sig .tc := ⟨.hbm, 207, rfl⟩
abbrev main_v150 : Ref sig .tc := ⟨.hbm, 208, rfl⟩
abbrev main_v151 : Ref sig .tc := ⟨.hbm, 209, rfl⟩
abbrev main_cst_29 : Ref sig .tc := ⟨.hbm, 210, rfl⟩
abbrev main_v152 : Ref sig .tc := ⟨.hbm, 211, rfl⟩
abbrev main_v153 : Ref sig .tc := ⟨.hbm, 212, rfl⟩
abbrev main_v154 : Ref sig .tc := ⟨.hbm, 213, rfl⟩

abbrev nD : Nat := 1
abbrev τ : Topo := Topo.v7x

variable {F : FTy → Type} [FloatOps F]

class Facts₀ : Prop where
  bcast_S_S50000x64 : S_.BroadcastsInDim S50000x64 (![] : Fin 0 → Fin S50000x64.rank)
  bcast_S_S20000x64 : S_.BroadcastsInDim S20000x64 (![] : Fin 0 → Fin S20000x64.rank)
  bcast_S_S20000x1 : S_.BroadcastsInDim S20000x1 (![] : Fin 0 → Fin S20000x1.rank)
  bcast_S1000000_S1000000x1_0 : S1000000.BroadcastsInDim S1000000x1 (![0] : Fin 1 → Fin S1000000x1.rank)
  slices_S2x1000000_S1x1000000_1_0 : S2x1000000.Slices ![1, 0] S1x1000000
  shapeCasts_S1x1000000_S1000000 : S1x1000000.ShapeCasts S1000000
  bcast_S_S1000000 : S_.BroadcastsInDim S1000000 (![] : Fin 0 → Fin S1000000.rank)
  bcast_S1000000x1_S1000000x64_0_1 : S1000000x1.BroadcastsInDim S1000000x64 (![0, 1] : Fin 2 → Fin S1000000x64.rank)
  slices_S2x1000000_S1x1000000_0_0 : S2x1000000.Slices ![0, 0] S1x1000000
  bcast_S_S32768 : S_.BroadcastsInDim S32768 (![] : Fin 0 → Fin S32768.rank)
  bcast_S32768_S32768x1_0 : S32768.BroadcastsInDim S32768x1 (![0] : Fin 1 → Fin S32768x1.rank)
  bcast_S32768x1_S32768x64_0_1 : S32768x1.BroadcastsInDim S32768x64 (![0, 1] : Fin 2 → Fin S32768x64.rank)
  bcast_S_S64x256 : S_.BroadcastsInDim S64x256 (![] : Fin 0 → Fin S64x256.rank)
  bcast_S256_S1x256_1 : S256.BroadcastsInDim S1x256 (![1] : Fin 1 → Fin S1x256.rank)
  bcast_S1x256_S32768x256_0_1 : S1x256.BroadcastsInDim S32768x256 (![0, 1] : Fin 2 → Fin S32768x256.rank)
  bcast_S_S32768x256 : S_.BroadcastsInDim S32768x256 (![] : Fin 0 → Fin S32768x256.rank)
  bcast_S_S256x128 : S_.BroadcastsInDim S256x128 (![] : Fin 0 → Fin S256x128.rank)
  bcast_S128_S1x128_1 : S128.BroadcastsInDim S1x128 (![1] : Fin 1 → Fin S1x128.rank)
  bcast_S1x128_S32768x128_0_1 : S1x128.BroadcastsInDim S32768x128 (![0, 1] : Fin 2 → Fin S32768x128.rank)
  bcast_S_S32768x128 : S_.BroadcastsInDim S32768x128 (![] : Fin 0 → Fin S32768x128.rank)
  bcast_S_S128x1 : S_.BroadcastsInDim S128x1 (![] : Fin 0 → Fin S128x1.rank)
  bcast_S1_S1x1_1 : S1.BroadcastsInDim S1x1 (![1] : Fin 1 → Fin S1x1.rank)
  bcast_S1x1_S32768x1_0_1 : S1x1.BroadcastsInDim S32768x1 (![0, 1] : Fin 2 → Fin S32768x1.rank)
  bcast_S_S32768x1 : S_.BroadcastsInDim S32768x1 (![] : Fin 0 → Fin S32768x1.rank)
  shapeCasts_S32768x1_S32768 : S32768x1.ShapeCasts S32768
  dot_S50000x64_S64x64_S50000x64_1_1_0_0_n_n_wf : DotDims.WF S50000x64 S64x64 S50000x64 [1] [1] [0] [0] [] []
  dot_S20000x64_S64x64_S20000x64_1_1_0_0_n_n_wf : DotDims.WF S20000x64 S64x64 S20000x64 [1] [1] [0] [0] [] []
  gather_S20000x64_S1000000x1_S1000000x64_1_0_n_n_0_1_164_wf : GatherDims.WF S20000x64 S1000000x1 S1000000x64 [1] [0] [] [0] [] 1 ![1, 64]
  scatter_S50000x64_S1000000x1_S1000000x64_1_0_0_1_wf : ScatterDims.WF S50000x64 S1000000x1 S1000000x64 [1] [0] [0] 1
  gather_S50000x64_S1000000x1_S1000000x64_1_0_n_n_0_1_164_wf : GatherDims.WF S50000x64 S1000000x1 S1000000x64 [1] [0] [] [0] [] 1 ![1, 64]
  scatter_S20000x64_S1000000x1_S1000000x64_1_0_0_1_wf : ScatterDims.WF S20000x64 S1000000x1 S1000000x64 [1] [0] [0] 1
  gather_S20000x1_S32768x1_S32768x1_1_0_n_n_0_1_11_wf : GatherDims.WF S20000x1 S32768x1 S32768x1 [1] [0] [] [0] [] 1 ![1, 1]
  gather_S50000x64_S32768x1_S32768x64_1_0_n_n_0_1_164_wf : GatherDims.WF S50000x64 S32768x1 S32768x64 [1] [0] [] [0] [] 1 ![1, 64]
  gather_S20000x64_S32768x1_S32768x64_1_0_n_n_0_1_164_wf : GatherDims.WF S20000x64 S32768x1 S32768x64 [1] [0] [] [0] [] 1 ![1, 64]
  dot_S32768x64_S64x256_S32768x256_1_0_0_1_n_n_wf : DotDims.WF S32768x64 S64x256 S32768x256 [1] [0] [0] [1] [] []
  dot_S32768x256_S256x128_S32768x128_1_0_0_1_n_n_wf : DotDims.WF S32768x256 S256x128 S32768x128 [1] [0] [0] [1] [] []
  dot_S32768x128_S128x1_S32768x1_1_0_0_1_n_n_wf : DotDims.WF S32768x128 S128x1 S32768x1 [1] [0] [0] [1] [] []

variable [Facts₀]

def dot_S50000x64_S64x64_S50000x64_1_1_0_0_n_n : DotDims S50000x64 S64x64 S50000x64 where
  lhsContracting := [1]
  rhsContracting := [1]
  lhsNonContracting := [0]
  rhsNonContracting := [0]
  lhsBatch := []
  rhsBatch := []
  wf := dot_S50000x64_S64x64_S50000x64_1_1_0_0_n_n_wf
def dot_S20000x64_S64x64_S20000x64_1_1_0_0_n_n : DotDims S20000x64 S64x64 S20000x64 where
  lhsContracting := [1]
  rhsContracting := [1]
  lhsNonContracting := [0]
  rhsNonContracting := [0]
  lhsBatch := []
  rhsBatch := []
  wf := dot_S20000x64_S64x64_S20000x64_1_1_0_0_n_n_wf
def gather_S20000x64_S1000000x1_S1000000x64_1_0_n_n_0_1_164 : GatherDims S20000x64 S1000000x1 S1000000x64 where
  offsetDims := [1]
  collapsedSliceDims := [0]
  operandBatchingDims := []
  startIndicesBatchingDims := []
  startIndexMap := [0]
  indexVectorDim := 1
  sliceSizes := ![1, 64]
  wf := gather_S20000x64_S1000000x1_S1000000x64_1_0_n_n_0_1_164_wf
def scatter_S50000x64_S1000000x1_S1000000x64_1_0_0_1 : ScatterDims S50000x64 S1000000x1 S1000000x64 where
  updateWindowDims := [1]
  insertedWindowDims := [0]
  scatterDimsToOperandDims := [0]
  indexVectorDim := 1
  wf := scatter_S50000x64_S1000000x1_S1000000x64_1_0_0_1_wf
def gather_S50000x64_S1000000x1_S1000000x64_1_0_n_n_0_1_164 : GatherDims S50000x64 S1000000x1 S1000000x64 where
  offsetDims := [1]
  collapsedSliceDims := [0]
  operandBatchingDims := []
  startIndicesBatchingDims := []
  startIndexMap := [0]
  indexVectorDim := 1
  sliceSizes := ![1, 64]
  wf := gather_S50000x64_S1000000x1_S1000000x64_1_0_n_n_0_1_164_wf
def scatter_S20000x64_S1000000x1_S1000000x64_1_0_0_1 : ScatterDims S20000x64 S1000000x1 S1000000x64 where
  updateWindowDims := [1]
  insertedWindowDims := [0]
  scatterDimsToOperandDims := [0]
  indexVectorDim := 1
  wf := scatter_S20000x64_S1000000x1_S1000000x64_1_0_0_1_wf
def gather_S20000x1_S32768x1_S32768x1_1_0_n_n_0_1_11 : GatherDims S20000x1 S32768x1 S32768x1 where
  offsetDims := [1]
  collapsedSliceDims := [0]
  operandBatchingDims := []
  startIndicesBatchingDims := []
  startIndexMap := [0]
  indexVectorDim := 1
  sliceSizes := ![1, 1]
  wf := gather_S20000x1_S32768x1_S32768x1_1_0_n_n_0_1_11_wf
def gather_S50000x64_S32768x1_S32768x64_1_0_n_n_0_1_164 : GatherDims S50000x64 S32768x1 S32768x64 where
  offsetDims := [1]
  collapsedSliceDims := [0]
  operandBatchingDims := []
  startIndicesBatchingDims := []
  startIndexMap := [0]
  indexVectorDim := 1
  sliceSizes := ![1, 64]
  wf := gather_S50000x64_S32768x1_S32768x64_1_0_n_n_0_1_164_wf
def gather_S20000x64_S32768x1_S32768x64_1_0_n_n_0_1_164 : GatherDims S20000x64 S32768x1 S32768x64 where
  offsetDims := [1]
  collapsedSliceDims := [0]
  operandBatchingDims := []
  startIndicesBatchingDims := []
  startIndexMap := [0]
  indexVectorDim := 1
  sliceSizes := ![1, 64]
  wf := gather_S20000x64_S32768x1_S32768x64_1_0_n_n_0_1_164_wf
def dot_S32768x64_S64x256_S32768x256_1_0_0_1_n_n : DotDims S32768x64 S64x256 S32768x256 where
  lhsContracting := [1]
  rhsContracting := [0]
  lhsNonContracting := [0]
  rhsNonContracting := [1]
  lhsBatch := []
  rhsBatch := []
  wf := dot_S32768x64_S64x256_S32768x256_1_0_0_1_n_n_wf
def dot_S32768x256_S256x128_S32768x128_1_0_0_1_n_n : DotDims S32768x256 S256x128 S32768x128 where
  lhsContracting := [1]
  rhsContracting := [0]
  lhsNonContracting := [0]
  rhsNonContracting := [1]
  lhsBatch := []
  rhsBatch := []
  wf := dot_S32768x256_S256x128_S32768x128_1_0_0_1_n_n_wf
def dot_S32768x128_S128x1_S32768x1_1_0_0_1_n_n : DotDims S32768x128 S128x1 S32768x1 where
  lhsContracting := [1]
  rhsContracting := [0]
  lhsNonContracting := [0]
  rhsNonContracting := [1]
  lhsBatch := []
  rhsBatch := []
  wf := dot_S32768x128_S128x1_S32768x1_1_0_0_1_n_n_wf

class Facts : Prop extends Facts₀ where

variable [Facts]
-- ==== Proof.KernelRun.lean ====
/-
  The idealized kernel's run with every buffer named.

  @main is six segments: the transpose of the knowledge table, the two projection regions, the stretch of host
  operations that aggregates over the edge lists and gathers the rows of the batch, the prediction region, and the
  final reshape. The contents of the TensorCore's buffers at each boundary are a fold from the launch memory; the
  last one is `Gen.W6`. Every weakly fair execution terminates, and every buffer that lives outside the
  kernels' scopes ends at `Gen.W6`'s contents: the result buffer among them, and each argument (which the fold
  walks back to the launch memory).
-/
import proofs.«124065_j91044716740748_2_alg».proof.Proof.Gen.KernelIdeal.Frame

set_option maxRecDepth 16384

noncomputable section

namespace Cert.KernelIdeal.Bridge

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault, and every buffer outside the kernels' scopes
    ends at the contents of the last segment boundary. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    -- @main is the run of its segments
    (fun c Q => by rw [main_run m ρ c])
    -- each pipeline is entered once
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    -- the launch element is the pipelines' own; no core needs a ghost resource besides
    (hu₀ := by
      iintro Hu
      imodintro
      isplitl [Hu]
      · -- owning the launch element is owning its image: the two are one term up to unfolding
        iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      · -- nothing, once per core, is nothing
        iapply (show (BI.emp : sProp 𝕄) ⊢ bigSep Finset.univ (fun _ : Dev nD => (BI.emp : sProp 𝕄)) from by
          rw [BI.bigSep_emp_const])
        iempintro)
    (T₀ := fun c => iprop(StableHlo.held (c : Thread nD τ) (Pipeline.ucRefs τ sig) (W0 m ρ c) ∗ R c)) (Tₙ := Tₙ m ρ)
    -- each segment leaves the buffers where the next one takes them; after the last, the register and the empty debt
    -- are set beside the buffers
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hheld, Hreg, Howes⟩
      isplitr [Howes]
      · isplitl [Hheld]
        · iexact Hheld
        · iexact Hreg
      · iexact Howes⟩)
    -- at launch every core holds its buffers at the launch memory, its register, and owes nothing
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hheld, -, Howes, -, Hreg, -⟩, -⟩
      imodintro
      isplitl [Hheld]
      · iexact Hheld
      isplitl [Hreg]
      · iexists _
        iexact Hreg
      · iexists ∅
        iexact Howes)
    (QY := fun c s => ∀ b ∈ Pipeline.ucRefs τ sig, s.mem (((c : Thread nD τ)).1, b) = W6 m ρ c b)
    -- the buffers held at the last boundary's contents are what the final state's memory holds
    (hfin := fun c s' => by
      iintro ⟨⟨Hheld, -⟩, HSI⟩
      unfold StableHlo.held
      imodintro
      iapply (pointsTo_read_all (Pipeline.ucRefs τ sig) (fun b => (((c : Thread nD τ)).1, b)) (W6 m ρ c) s')
      isplitl [Hheld] <;> iassumption)
    (hQ := fun s h c => h c)

/-- The result buffer is outside the kernels' scopes. -/
theorem main_v82_mem : Proc.devRef .tc main_v82 ∈ Pipeline.ucRefs τ sig := mem_uc main_v82 (by decide)

end Cert.KernelIdeal.Bridge

end
-- ==== Proof.Spec.lean ====
/-
  The functions both programs compute, index by index on the extended reals.

  A row table is a function of a row and a column. Three building blocks:
  * `projT A WT`: row `r`, column `c` is the logistic function of the inner product of row `r` of `A` with
    column `c` of `WT` (an embedding table projected onto the knowledge directions);
  * `layer A W b`: the same with the weights clipped below at zero and a bias row added before the logistic
    function (one layer of the positive-weight prediction network);
  * `mlpIn sg dg kn dr`: the network's input, the logistic function of the raw discrimination times the
    difference proficiency minus difficulty, times the knowledge mask.
  `mlpOut` is three layers on top of `mlpIn`.
-/
import Idealize.ShloMosaic.PureOps.Ideal
import Idealize.ShloMosaic.Lib.ValueIdx

noncomputable section

open scoped BigOperators

namespace Cert.Spec

open Idealize.ShloMosaic Idealize.ShloMosaic.ValueIdx

/-- A table of extended reals with `n` rows and `m` columns. -/
abbrev A2 (n m : Nat) : Type := (⟨2, ![n, m]⟩ : Shape).Idx → EReal

/-- The float zero, as the extended real it denotes. -/
def zeroF : EReal := Ideal.ofBits .f32 0x00000000#32

/-- Rows of `A` against columns of `WT`, then the logistic function. -/
def projT {B n m : Nat} (A : A2 B n) (WT : A2 n m) : A2 B m :=
  fun i => Ideal.logistic (∑ k : Fin n, A (ix2 (i 0) k) * WT (ix2 k (i 1)))

/-- Rows of `A` against columns of the weights clipped below at zero, plus the bias row, then the logistic function. -/
def layer {B n m : Nat} (A : A2 B n) (W : A2 n m) (b : A2 1 m) : A2 B m :=
  fun i => Ideal.logistic ((∑ k : Fin n, A (ix2 (i 0) k) * max (W (ix2 k (i 1))) zeroF) + b (ix2 0 (i 1)))

/-- The prediction network's input: logistic of the raw discrimination, times proficiency minus difficulty, times the mask. -/
def mlpIn {B n : Nat} (sg dg kn : A2 B n) (dr : A2 B 1) : A2 B n :=
  fun i => (Ideal.logistic (dr (ix2 (i 0) 0)) * (sg i - dg i)) * kn i

/-- The prediction network: three layers over `mlpIn`. -/
def mlpOut {B n h1 h2 : Nat} (sg dg kn : A2 B n) (dr : A2 B 1) (W1 : A2 n h1) (b1 : A2 1 h1) (W2 : A2 h1 h2) (b2 : A2 1 h2)
    (W3 : A2 h2 1) (b3 : A2 1 1) : A2 B 1 :=
  layer (layer (layer (mlpIn sg dg kn dr) W1 b1) W2 b2) W3 b3

end Cert.Spec

end
-- ==== Proof.EmbedProjKernel.lean ====
/-
  The kernel's two embedding regions, read off their generated frames. Each region's body computes, on a block of
  5000 rows against the whole 64 by 64 table, the logistic function of a matrix product into a zero accumulator; the
  blocks tile the rows of the output table, so after the run the table is, index by index, the logistic function of
  the inner product of a row of the region's first table with a column of its second.
-/
import proofs.«124065_j91044716740748_2_alg».proof.Proof.Gen.KernelIdeal.Frame
import proofs.«124065_j91044716740748_2_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.Bridge

open Cert.KernelIdeal Cert.KernelIdeal.Gen Idealize.ShloMosaic Idealize.ShloMosaic.TcCoe Idealize.SL.Sem
open Idealize.ShloMosaic.Pipeline (Dat)
open Idealize.ShloMosaic.ValueIdx

/-- The two embedding regions run the same body. -/
theorem pay1_eq_pay0 : @Gen.k1_pay1 = @Gen.k0_pay1 := rfl

/-- The left operand's row coordinate is the output's row. -/
theorem lhs_row (j : S5000x64.Idx) (k : dot_S5000x64_S64x64_S5000x64_1_0_0_1_n_n.contr.Idx) :
    (dot_S5000x64_S64x64_S5000x64_1_0_0_1_n_n.lhsIdx j k 0).val = (j 0).val := by
  unfold DotDims.lhsIdx
  rw [dif_neg (show ¬(0 : Fin S5000x64.rank) ∈ dot_S5000x64_S64x64_S5000x64_1_0_0_1_n_n.lhsBatch by decide),
    dif_pos (show (0 : Fin S5000x64.rank) ∈ dot_S5000x64_S64x64_S5000x64_1_0_0_1_n_n.lhsNonContracting by decide)]
  rfl

/-- The right operand's column coordinate is the output's column. -/
theorem rhs_col (j : S5000x64.Idx) (k : dot_S5000x64_S64x64_S5000x64_1_0_0_1_n_n.contr.Idx) :
    (dot_S5000x64_S64x64_S5000x64_1_0_0_1_n_n.rhsIdx j k 1).val = (j 1).val := by
  unfold DotDims.rhsIdx
  rw [dif_neg (show ¬(1 : Fin S64x64.rank) ∈ dot_S5000x64_S64x64_S5000x64_1_0_0_1_n_n.rhsBatch by decide),
    dif_pos (show (1 : Fin S64x64.rank) ∈ dot_S5000x64_S64x64_S5000x64_1_0_0_1_n_n.rhsNonContracting by decide)]
  rfl

/-- The body's arithmetic at an index: the logistic function of the inner product of a row of the first block with a
    column of the table. A change of float format is the identity on extended reals, a reshape to the same shape is
    the identity, and a matrix product into the zero accumulator is the plain sum over the contracted axis. -/
theorem pay_apply (x : Vec Ideal S5000x64 .f32) (w : Vec Ideal S64x64 .f32) (p : Fin 5000) (q : Fin 64) :
    Gen.k0_pay1 (F := Ideal) x w (ix2 p q) = Ideal.logistic (∑ k : Fin 64, x (ix2 p k) * w (ix2 k q)) := by
  unfold Gen.k0_pay1
  show Ideal.logistic (FloatOps.matmul (F := Ideal) dot_S5000x64_S64x64_S5000x64_1_0_0_1_n_n none
    (truncf .bf16 x bitsLt_bf16_f32) (truncf .bf16 (shapeCast S64x64 w shapeCasts_S64x64_S64x64) bitsLt_bf16_f32)
    (constant S5000x64 .f32 0x00000000#32) (ix2 p q)) = _
  rw [Ideal.matmul_constant_zero_apply, ← Equiv.sum_comp (contrEquiv1 dot_S5000x64_S64x64_S5000x64_1_0_0_1_n_n 64 rfl rfl).symm,
    shapeCast_self]
  congr 1
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q)
      ((contrEquiv1 dot_S5000x64_S64x64_S5000x64_1_0_0_1_n_n 64 rfl rfl).symm k) = ix2 p k := funext fun a => Fin.ext (by
    match a with
    | ⟨0, _⟩ => exact lhs_row _ _
    | ⟨1, _⟩ => exact (dot_S5000x64_S64x64_S5000x64_1_0_0_1_n_n.lhsIdx_val_of_single rfl _ _).trans hk)
  have er : dot_S5000x64_S64x64_S5000x64_1_0_0_1_n_n.rhsIdx (ix2 p q)
      ((contrEquiv1 dot_S5000x64_S64x64_S5000x64_1_0_0_1_n_n 64 rfl rfl).symm k) = ix2 k q := funext fun a => Fin.ext (by
    match a with
    | ⟨0, _⟩ => exact (dot_S5000x64_S64x64_S5000x64_1_0_0_1_n_n.rhsIdx_val_of_single rfl _ _).trans hk
    | ⟨1, _⟩ => exact rhs_col _ _)
  show x _ * w _ = _
  rw [el, er]

/-- The same at any index of the block, through its two coordinates. -/
theorem pay_at (x : Vec Ideal S5000x64 .f32) (w : Vec Ideal S64x64 .f32) (j : S5000x64.Idx) :
    Gen.k0_pay1 (F := Ideal) x w j = Ideal.logistic (∑ k : Fin 64, x (ix2 (j 0) k) * w (ix2 k (j 1))) := by
  obtain ⟨p, q, rfl⟩ : ∃ (p : Fin 5000) (q : Fin 64), j = ix2 p q := ⟨j 0, j 1, eq_ix2 j⟩
  exact pay_apply x w p q

/-- The zero offset of a whole-block access. -/
theorem hz : (![0, 0] : Fin 2 → Nat) = fun _ => 0 := funext fun a => by fin_cases a <;> rfl

variable (V : (c : Dev nD) → (b : Ref sig .tc) → Buf (Elt Ideal) ((c : Thread nD τ).loc b))

example : Pipeline.arrRef spec0 0 = main_arg0 := rfl
example : Pipeline.arrRef spec0 1 = main_v0 := rfl
example : Pipeline.arrRef spec0 2 = main_v1 := rfl

/-- The index maps of region 0 over its ten grid points: the row blocks of the first and the output window move with the point, the table's block stays. -/
theorem idx_facts0 : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- What a grid point of region 0 writes back is that point's block of the projected table: a block's row coordinate is the point times 5000 plus the row inside the block. -/
theorem flushed0_eq (c : Dev nD) (t : Fin cfg0.N) :
    (Gen.dat0 (F := Ideal) V c).flushed 2 t = ((cfg0.win 2).blk t).view.read (Elt Ideal)
      (Cert.Spec.projT (V c main_arg0) (V c main_v0)) := by
  show (cfg0.win 2).cut (grid0.coords t) ((Gen.dat0 V c).after 2 t) = _
  rw [Gen.after0_2]
  unfold Gen.out0_2
  rw [View.canon_unit_zero hz]
  simp only [View.ld_unit_zero (S := S5000x64) hz, View.ld_unit_zero (S := S64x64) hz]
  obtain ⟨e0, e1, e2, e3, e4, e5⟩ := idx_facts0 t
  funext j
  show Gen.k0_pay1 (F := Ideal) (Gen.iblk0 V c 0 t) (Gen.iblk0 V c 1 t) j
    = Cert.Spec.projT (V c main_arg0) (V c main_v0) (((cfg0.win 2).blk t).view.emb j)
  refine (pay_at (Gen.iblk0 V c 0 t) (Gen.iblk0 V c 1 t) j).trans ?_
  unfold Cert.Spec.projT
  congr 1
  refine Finset.sum_congr rfl fun k _ => ?_
  refine congrArg₂ (· * ·) (congrArg (V c main_arg0) ?_) (congrArg (V c main_v0) ?_)
  · funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 64 + 1 * k.val = k.val; omega
  · funext a; apply Fin.ext
    match a with
    | ⟨0, _⟩ => show win0_1.index t (0 : Fin 2) * 64 + 1 * k.val = k.val; omega
    | ⟨1, _⟩ => show win0_1.index t (1 : Fin 2) * 64 + 1 * (j 1).val = win0_2.index t (1 : Fin 2) * 64 + 1 * (j 1).val; omega

/-- An index of the table is in a point's block iff each coordinate is in the block's range on its axis. -/
theorem mem_blk0 (t : Fin cfg0.N) (i : S50000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v1).slice (win0_2.rect t)).set ↔ _
  rw [View.set_slice_whole, Rect.mem_set_unit]
  exact Iff.rfl

/-- Row `r` of the table lies in the block of the grid point `r / 5000`. -/
theorem cover0 (i : S50000x64.Idx) : ∃ t : Fin cfg0.N, (cfg0.win 2).flush t = true ∧ i ∈ ((cfg0.win 2).blk t).view.set := by
  have h0 : (i 0).val < 50000 := (i 0).isLt
  have h1 : (i 1).val < 64 := (i 1).isLt
  have hN : cfg0.N = 10 := N_0
  refine ⟨⟨(i 0).val / 5000, by rw [hN]; omega⟩, flush0_2 _, ?_⟩
  obtain ⟨e0, e1, e2, e3, e4, e5⟩ := idx_facts0 ⟨(i 0).val / 5000, by rw [hN]; omega⟩
  rw [mem_blk0]
  intro a
  match a with
  | ⟨0, _⟩ =>
    show win0_2.index _ (0 : Fin 2) * 5000 ≤ (i 0).val ∧ (i 0).val < win0_2.index _ (0 : Fin 2) * 5000 + 5000
    rw [e4]; show (i 0).val / 5000 * 5000 ≤ (i 0).val ∧ (i 0).val < (i 0).val / 5000 * 5000 + 5000; omega
  | ⟨1, _⟩ =>
    show win0_2.index _ (1 : Fin 2) * 64 ≤ (i 1).val ∧ (i 1).val < win0_2.index _ (1 : Fin 2) * 64 + 64
    rw [e5]; omega

/-- Region 0's output table after the run: index by index, the logistic function of the inner product of the row of
    its first table with the column of its second. -/
theorem stat_final (c : Dev nD) :
    (Gen.dat0 (F := Ideal) V c).arrAt 2 cfg0.N = Cert.Spec.projT (V c main_arg0) (V c main_v0) :=
  (Gen.dat0 (F := Ideal) V c).arrAt_eq_of_cover 2 (Cert.Spec.projT (V c main_arg0) (V c main_v0))
    (fun t _ => flushed0_eq V c t) cover0

example : Pipeline.arrRef spec1 0 = main_arg1 := rfl
example : Pipeline.arrRef spec1 1 = main_v0 := rfl
example : Pipeline.arrRef spec1 2 = main_v2 := rfl

/-- The index maps of region 1 over its four grid points: the row blocks of the first and the output window move with the point, the table's block stays. -/
theorem idx_facts1 : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 2) = t.val
    ∧ win1_2.index t (1 : Fin 2) = 0 :=
  (by decide +kernel : ∀ t : Fin grid1.N, _)

/-- What a grid point of region 1 writes back is that point's block of the projected table: a block's row coordinate is the point times 5000 plus the row inside the block. -/
theorem flushed1_eq (c : Dev nD) (t : Fin cfg1.N) :
    (Gen.dat1 (F := Ideal) V c).flushed 2 t = ((cfg1.win 2).blk t).view.read (Elt Ideal)
      (Cert.Spec.projT (V c main_arg1) (V c main_v0)) := by
  show (cfg1.win 2).cut (grid1.coords t) ((Gen.dat1 V c).after 2 t) = _
  rw [Gen.after1_2]
  unfold Gen.out1_2
  rw [View.canon_unit_zero hz]
  simp only [View.ld_unit_zero (S := S5000x64) hz, View.ld_unit_zero (S := S64x64) hz]
  obtain ⟨e0, e1, e2, e3, e4, e5⟩ := idx_facts1 t
  funext j
  show Gen.k0_pay1 (F := Ideal) (Gen.iblk1 V c 0 t) (Gen.iblk1 V c 1 t) j
    = Cert.Spec.projT (V c main_arg1) (V c main_v0) (((cfg1.win 2).blk t).view.emb j)
  refine (pay_at (Gen.iblk1 V c 0 t) (Gen.iblk1 V c 1 t) j).trans ?_
  unfold Cert.Spec.projT
  congr 1
  refine Finset.sum_congr rfl fun k _ => ?_
  refine congrArg₂ (· * ·) (congrArg (V c main_arg1) ?_) (congrArg (V c main_v0) ?_)
  · funext a; apply Fin.ext
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 64 + 1 * k.val = k.val; omega
  · funext a; apply Fin.ext
    match a with
    | ⟨0, _⟩ => show win1_1.index t (0 : Fin 2) * 64 + 1 * k.val = k.val; omega
    | ⟨1, _⟩ => show win1_1.index t (1 : Fin 2) * 64 + 1 * (j 1).val = win1_2.index t (1 : Fin 2) * 64 + 1 * (j 1).val; omega

/-- An index of the table is in a point's block iff each coordinate is in the block's range on its axis. -/
theorem mem_blk1 (t : Fin cfg1.N) (i : S20000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v2).slice (win1_2.rect t)).set ↔ _
  rw [View.set_slice_whole, Rect.mem_set_unit]
  exact Iff.rfl

/-- Row `r` of the table lies in the block of the grid point `r / 5000`. -/
theorem cover1 (i : S20000x64.Idx) : ∃ t : Fin cfg1.N, (cfg1.win 2).flush t = true ∧ i ∈ ((cfg1.win 2).blk t).view.set := by
  have h0 : (i 0).val < 20000 := (i 0).isLt
  have h1 : (i 1).val < 64 := (i 1).isLt
  have hN : cfg1.N = 4 := N_1
  refine ⟨⟨(i 0).val / 5000, by rw [hN]; omega⟩, flush1_2 _, ?_⟩
  obtain ⟨e0, e1, e2, e3, e4, e5⟩ := idx_facts1 ⟨(i 0).val / 5000, by rw [hN]; omega⟩
  rw [mem_blk1]
  intro a
  match a with
  | ⟨0, _⟩ =>
    show win1_2.index _ (0 : Fin 2) * 5000 ≤ (i 0).val ∧ (i 0).val < win1_2.index _ (0 : Fin 2) * 5000 + 5000
    rw [e4]; show (i 0).val / 5000 * 5000 ≤ (i 0).val ∧ (i 0).val < (i 0).val / 5000 * 5000 + 5000; omega
  | ⟨1, _⟩ =>
    show win1_2.index _ (1 : Fin 2) * 64 ≤ (i 1).val ∧ (i 1).val < win1_2.index _ (1 : Fin 2) * 64 + 64
    rw [e5]; omega

/-- Region 1's output table after the run: index by index, the logistic function of the inner product of the row of
    its first table with the column of its second. -/
theorem diff_final (c : Dev nD) :
    (Gen.dat1 (F := Ideal) V c).arrAt 2 cfg1.N = Cert.Spec.projT (V c main_arg1) (V c main_v0) :=
  (Gen.dat1 (F := Ideal) V c).arrAt_eq_of_cover 2 (Cert.Spec.projT (V c main_arg1) (V c main_v0))
    (fun t _ => flushed1_eq V c t) cover1

end Cert.KernelIdeal.Bridge

end
-- ==== Proof.EmbedProjRef.lean ====
/-
  The reference's two projected embedding tables, index by index: each is the logistic function of the inner
  product of a row of the embedding table with a row of the knowledge table. The host spells the logistic
  function as one over one plus the exponential of the negation, which is its definition on the extended reals.
-/
import proofs.«124065_j91044716740748_2_alg».proof.Proof.Gen.ReferenceIdeal.Read
import proofs.«124065_j91044716740748_2_alg».proof.Proof.Spec
import Idealize.ShloMosaic.Lib.ValueIdx
import Idealize.ShloMosaic.PureOps.Ideal.Laws

noncomputable section

open scoped BigOperators

namespace Cert.ReferenceIdeal.Bridge

open Cert.ReferenceIdeal Cert.ReferenceIdeal.Gen Cert.ReferenceIdeal.Read Idealize.ShloMosaic Idealize.ShloMosaic.ValueIdx

/-- The float word of one denotes the extended real one. -/
theorem ofBits_one_f32 : Ideal.ofBits .f32 0x3F800000#32 = 1 := by
  simp [Ideal.ofBits, Ideal.ieee, -EReal.coe_mul]; norm_num

/-- The host's spelling of the logistic function, one over one plus the exponential of the negation, is the logistic function. -/
theorem host_logistic (x : EReal) :
    FloatOps.hostDivf (F := Ideal) (φ := .f32) (Ideal.ofBits .f32 0x3F800000#32)
      (FloatOps.addf (F := Ideal) (φ := .f32) (Ideal.ofBits .f32 0x3F800000#32)
        (FloatOps.hostUnary (F := Ideal) (φ := .f32) .exp (FloatOps.hostNegf (F := Ideal) (φ := .f32) x))) = Ideal.logistic x := by
  rw [ofBits_one_f32]; rfl

/-- The proficiency table of the reference: the logistic function of each student row against each knowledge row. -/
theorem stat_eq (X : (⟨S50000x64, .f32⟩ : BufTy).Contents (Elt Ideal)) (W : (⟨S64x64, .f32⟩ : BufTy).Contents (Elt Ideal)) :
    Cert.ReferenceIdeal.Read.val_main_v6 (F := Ideal) X W = Cert.Spec.projT X (fun i => W (ix2 (i 1) (i 0)) : Cert.Spec.A2 64 64) := by
  funext i
  have el : ∀ k : Fin 64, lidx_main_v0 i k = ix2 (i 0) k := fun k => funext fun a => Fin.ext (by
    match a with | ⟨0, _⟩ => rfl | ⟨1, _⟩ => rfl)
  have er : ∀ k : Fin 64, ridx_main_v0 i k = ix2 (i 1) k := fun k => funext fun a => Fin.ext (by
    match a with | ⟨0, _⟩ => rfl | ⟨1, _⟩ => rfl)
  rw [val_main_v6_apply, val_main_v5_apply, val_main_cst_0_apply, val_main_v4_apply, val_main_v3_apply, val_main_cst_apply,
    val_main_v2_apply, val_main_v1_apply, val_main_v0_apply]
  simp only [el, er]
  exact host_logistic _

/-- The difficulty table of the reference: the logistic function of each exercise row against each knowledge row. -/
theorem diff_eq (X : (⟨S20000x64, .f32⟩ : BufTy).Contents (Elt Ideal)) (W : (⟨S64x64, .f32⟩ : BufTy).Contents (Elt Ideal)) :
    Cert.ReferenceIdeal.Read.val_main_v13 (F := Ideal) X W = Cert.Spec.projT X (fun i => W (ix2 (i 1) (i 0)) : Cert.Spec.A2 64 64) := by
  funext i
  have el : ∀ k : Fin 64, lidx_main_v7 i k = ix2 (i 0) k := fun k => funext fun a => Fin.ext (by
    match a with | ⟨0, _⟩ => rfl | ⟨1, _⟩ => rfl)
  have er : ∀ k : Fin 64, ridx_main_v7 i k = ix2 (i 1) k := fun k => funext fun a => Fin.ext (by
    match a with | ⟨0, _⟩ => rfl | ⟨1, _⟩ => rfl)
  rw [val_main_v13_apply, val_main_v12_apply, val_main_cst_2_apply, val_main_v11_apply, val_main_v10_apply, val_main_cst_1_apply,
    val_main_v9_apply, val_main_v8_apply, val_main_v7_apply]
  simp only [el, er]
  exact host_logistic _

end Cert.ReferenceIdeal.Bridge

end
-- ==== Proof.KernelFoldProj.lean ====
/-
  The kernel's buffers after its two embedding regions, read back through the fold of its segments. The one host
  operation before the first region writes the knowledge table transposed; each region leaves its input arrays
  as it found them and its output array at the projection of its first table on that transposed table. So after
  both regions the two projected tables are the reference's, and every argument the regions do not stage is as
  launched.
-/
import proofs.«124065_j91044716740748_2_alg».proof.Proof.Gen.KernelIdeal.Frame
import proofs.«124065_j91044716740748_2_alg».proof.Proof.EmbedProjKernel
import proofs.«124065_j91044716740748_2_alg».proof.Proof.EmbedProjRef
import proofs.«124065_j91044716740748_2_alg».proof.Proof.Gen.ReferenceIdeal.Read
import Idealize.ShloMosaic.Lib.StableHlo.Run
import Idealize.ShloMosaic.Lib.Pipeline.Value
import Idealize.ShloMosaic.Lib.ValueIdx

noncomputable section

open scoped BigOperators

namespace Cert.KernelIdeal.Bridge

open Cert.KernelIdeal Cert.KernelIdeal.Gen Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)

/-- The one host operation before the first region writes the transposed knowledge table only: every other buffer
    enters the first region as launched. -/
theorem W1_of_ne (c : Dev nD) (b : Ref sig .tc) (hb : b ≠ main_v0) :
    Gen.W1 m ρ c (Proc.devRef .tc b) = m ((c : Thread nD τ).loc b) :=
  calc Gen.W1 m ρ c (Proc.devRef .tc b)
    _ = Gen.W0 m ρ c (Proc.devRef .tc b) := StableHlo.after_of_forall_not_mem (b := Proc.devRef .tc b) _ _ (List.forall_iff_forall_mem.mp (by
          simp only [hostOps0, List.Forall, StableHlo.unary_writes, Finset.mem_singleton]
          exact StableHlo.devRef_ne_of_ne hb))
    _ = m ((c : Thread nD τ).loc b) := rfl

/-- The buffer that operation writes holds the knowledge table transposed. -/
theorem W1_main_v0 (c : Dev nD) :
    Gen.W1 m ρ c (Proc.devRef .tc main_v0)
      = transpose S64x64 [1, 0] (m ((c : Thread nD τ).loc main_arg2)) transposes_S64x64_S64x64_1_0 := by
  show StableHlo.after hostOps0 _ (Proc.devRef .tc main_v0) = _
  after_results

/-- Read at an index, the transposed table is the table at the swapped index. -/
theorem W1_main_v0_apply (c : Dev nD) :
    (Gen.W1 m ρ c (Proc.devRef .tc main_v0) : S64x64.Idx → EReal)
      = fun i => (m ((c : Thread nD τ).loc main_arg2) : S64x64.Idx → EReal) (ix2 (i 1) (i 0)) := by
  rw [W1_main_v0]
  funext i
  refine transpose_apply _ _ transposes_S64x64_S64x64_1_0 i (ix2 (i 1) (i 0)) fun b => ?_
  match b with
  | ⟨0, _⟩ => rfl
  | ⟨1, _⟩ => rfl

/-- A buffer that is no array of either embedding region and is not the transposed table holds, after both regions,
    what it held at launch. -/
theorem W3_of_ne_ne (c : Dev nD) (b : Ref sig .tc) (h1 : ∀ w, Pipeline.arrRef spec1 w ≠ b)
    (h0 : ∀ w, Pipeline.arrRef spec0 w ≠ b) (hb : b ≠ main_v0) :
    Gen.W3 m ρ c (Proc.devRef .tc b) = m ((c : Thread nD τ).loc b) :=
  ((Gen.W3_of_ne m ρ c b h1).trans (Gen.W2_of_ne m ρ c b h0)).trans (W1_of_ne m ρ c b hb)

/-! ## The arguments neither region stages: as launched -/

theorem W3_main_arg3 (c : Dev nD) : Gen.W3 m ρ c (Proc.devRef .tc main_arg3) = m ((c : Thread nD τ).loc main_arg3) :=
  W3_of_ne_ne m ρ c main_arg3 (by decide) (by decide) (by decide)
theorem W3_main_arg4 (c : Dev nD) : Gen.W3 m ρ c (Proc.devRef .tc main_arg4) = m ((c : Thread nD τ).loc main_arg4) :=
  W3_of_ne_ne m ρ c main_arg4 (by decide) (by decide) (by decide)
theorem W3_main_arg5 (c : Dev nD) : Gen.W3 m ρ c (Proc.devRef .tc main_arg5) = m ((c : Thread nD τ).loc main_arg5) :=
  W3_of_ne_ne m ρ c main_arg5 (by decide) (by decide) (by decide)
theorem W3_main_arg6 (c : Dev nD) : Gen.W3 m ρ c (Proc.devRef .tc main_arg6) = m ((c : Thread nD τ).loc main_arg6) :=
  W3_of_ne_ne m ρ c main_arg6 (by decide) (by decide) (by decide)
theorem W3_main_arg7 (c : Dev nD) : Gen.W3 m ρ c (Proc.devRef .tc main_arg7) = m ((c : Thread nD τ).loc main_arg7) :=
  W3_of_ne_ne m ρ c main_arg7 (by decide) (by decide) (by decide)
theorem W3_main_arg8 (c : Dev nD) : Gen.W3 m ρ c (Proc.devRef .tc main_arg8) = m ((c : Thread nD τ).loc main_arg8) :=
  W3_of_ne_ne m ρ c main_arg8 (by decide) (by decide) (by decide)
theorem W3_main_arg9 (c : Dev nD) : Gen.W3 m ρ c (Proc.devRef .tc main_arg9) = m ((c : Thread nD τ).loc main_arg9) :=
  W3_of_ne_ne m ρ c main_arg9 (by decide) (by decide) (by decide)
theorem W3_main_arg10 (c : Dev nD) : Gen.W3 m ρ c (Proc.devRef .tc main_arg10) = m ((c : Thread nD τ).loc main_arg10) :=
  W3_of_ne_ne m ρ c main_arg10 (by decide) (by decide) (by decide)
theorem W3_main_arg11 (c : Dev nD) : Gen.W3 m ρ c (Proc.devRef .tc main_arg11) = m ((c : Thread nD τ).loc main_arg11) :=
  W3_of_ne_ne m ρ c main_arg11 (by decide) (by decide) (by decide)
theorem W3_main_arg12 (c : Dev nD) : Gen.W3 m ρ c (Proc.devRef .tc main_arg12) = m ((c : Thread nD τ).loc main_arg12) :=
  W3_of_ne_ne m ρ c main_arg12 (by decide) (by decide) (by decide)
theorem W3_main_arg13 (c : Dev nD) : Gen.W3 m ρ c (Proc.devRef .tc main_arg13) = m ((c : Thread nD τ).loc main_arg13) :=
  W3_of_ne_ne m ρ c main_arg13 (by decide) (by decide) (by decide)
theorem W3_main_arg14 (c : Dev nD) : Gen.W3 m ρ c (Proc.devRef .tc main_arg14) = m ((c : Thread nD τ).loc main_arg14) :=
  W3_of_ne_ne m ρ c main_arg14 (by decide) (by decide) (by decide)
theorem W3_main_arg15 (c : Dev nD) : Gen.W3 m ρ c (Proc.devRef .tc main_arg15) = m ((c : Thread nD τ).loc main_arg15) :=
  W3_of_ne_ne m ρ c main_arg15 (by decide) (by decide) (by decide)
theorem W3_main_arg16 (c : Dev nD) : Gen.W3 m ρ c (Proc.devRef .tc main_arg16) = m ((c : Thread nD τ).loc main_arg16) :=
  W3_of_ne_ne m ρ c main_arg16 (by decide) (by decide) (by decide)
theorem W3_main_arg17 (c : Dev nD) : Gen.W3 m ρ c (Proc.devRef .tc main_arg17) = m ((c : Thread nD τ).loc main_arg17) :=
  W3_of_ne_ne m ρ c main_arg17 (by decide) (by decide) (by decide)
theorem W3_main_arg18 (c : Dev nD) : Gen.W3 m ρ c (Proc.devRef .tc main_arg18) = m ((c : Thread nD τ).loc main_arg18) :=
  W3_of_ne_ne m ρ c main_arg18 (by decide) (by decide) (by decide)
theorem W3_main_arg19 (c : Dev nD) : Gen.W3 m ρ c (Proc.devRef .tc main_arg19) = m ((c : Thread nD τ).loc main_arg19) :=
  W3_of_ne_ne m ρ c main_arg19 (by decide) (by decide) (by decide)
theorem W3_main_arg20 (c : Dev nD) : Gen.W3 m ρ c (Proc.devRef .tc main_arg20) = m ((c : Thread nD τ).loc main_arg20) :=
  W3_of_ne_ne m ρ c main_arg20 (by decide) (by decide) (by decide)

/-! ## The two projected tables after both regions, as the reference's stages -/

/-- The first region finds the student table as launched. -/
theorem V1_main_arg0 (c : Dev nD) : Gen.V1 m ρ c main_arg0 = m ((c : Thread nD τ).loc main_arg0) :=
  W1_of_ne m ρ c main_arg0 (by decide)

/-- The second region finds the exercise table as launched: the first region does not stage it. -/
theorem V2_main_arg1 (c : Dev nD) : Gen.V2 m ρ c main_arg1 = m ((c : Thread nD τ).loc main_arg1) :=
  (Gen.W2_of_ne m ρ c main_arg1 (by decide)).trans (W1_of_ne m ρ c main_arg1 (by decide))

/-- The second region finds the transposed table as the first found it: an input window's array is not written. -/
theorem V2_main_v0 (c : Dev nD) : Gen.V2 m ρ c main_v0 = Gen.V1 m ρ c main_v0 :=
  (Gen.W2_arr m ρ c 1).trans (((Gen.dat0 (Gen.V1 m ρ) c).arrAt_in 1 rfl _).trans (Gen.A_eq0 (Gen.V1 m ρ) c 1))

/-- The proficiency table after both regions is the reference's: the second region does not stage it, the first
    leaves the projection of the student table on the transposed knowledge table. -/
theorem W3_main_v1 (c : Dev nD) :
    Gen.W3 m ρ c (Proc.devRef .tc main_v1)
      = Cert.ReferenceIdeal.Read.val_main_v6 (F := Ideal) (m ((c : Thread nD τ).loc main_arg0)) (m ((c : Thread nD τ).loc main_arg2)) := by
  rw [Cert.ReferenceIdeal.Bridge.stat_eq]
  refine ((Gen.W3_of_ne m ρ c main_v1 (by decide)).trans (Gen.W2_arr m ρ c 2)).trans ?_
  rw [stat_final (Gen.V1 m ρ) c, V1_main_arg0]
  exact congrArg (Cert.Spec.projT _) (W1_main_v0_apply m ρ c)

/-- The difficulty table after both regions is the reference's: the second region leaves the projection of the
    exercise table on the transposed knowledge table. -/
theorem W3_main_v2 (c : Dev nD) :
    Gen.W3 m ρ c (Proc.devRef .tc main_v2)
      = Cert.ReferenceIdeal.Read.val_main_v13 (F := Ideal) (m ((c : Thread nD τ).loc main_arg1)) (m ((c : Thread nD τ).loc main_arg2)) := by
  rw [Cert.ReferenceIdeal.Bridge.diff_eq]
  refine (Gen.W3_arr m ρ c 2).trans ?_
  rw [diff_final (Gen.V2 m ρ) c, V2_main_arg1, V2_main_v0]
  exact congrArg (Cert.Spec.projT _) (W1_main_v0_apply m ρ c)

end Cert.KernelIdeal.Bridge

end
-- ==== Proof.KernelHostDefs.lean ====
/-
  The kernel's aggregation over the edge lists and its row gathers, as functions of the arrays they read.

  An edge table has two rows: destinations and sources. The kernel puts the two relations' edge lists one after the
  other (`catI`, `catF`), wraps negative source indices (`wrapE`), gathers the source rows, scales each by its
  edge weight, and adds all of them onto their destination rows in ONE accumulating scatter; the sum is added to the
  table's own entries and divided by three (`aggS` for the proficiency table, `aggD` for the difficulty table).
  The batch then reads rows of the aggregated tables by student and exercise id (`rowsS`, `rowsD`) and rows of the raw
  discrimination column by exercise id (`rowsDisc`); the bias vectors become one-row tables (`biasRow…`).
-/
import proofs.«124065_j91044716740748_2_alg».proof.Proof.Gen.KernelIdeal

noncomputable section

namespace Cert.KernelIdeal.Bridge

open Cert.KernelIdeal Cert.KernelIdeal.Facts₀ Idealize.ShloMosaic

variable {F : FTy → Type} [FloatOps F]

/-- Row 0 of an edge table (the destinations), as a vector. -/
def erow0 (a : (⟨S2x1000000, .i32⟩ : BufTy).Contents (Elt F)) : (⟨S1000000, .i32⟩ : BufTy).Contents (Elt F) :=
  shapeCast S1000000 (extractStridedSlice S1x1000000 ![0, 0] a slices_S2x1000000_S1x1000000_0_0) shapeCasts_S1x1000000_S1000000

/-- Row 1 of an edge table (the sources), as a vector. -/
def erow1 (a : (⟨S2x1000000, .i32⟩ : BufTy).Contents (Elt F)) : (⟨S1000000, .i32⟩ : BufTy).Contents (Elt F) :=
  shapeCast S1000000 (extractStridedSlice S1x1000000 ![1, 0] a slices_S2x1000000_S1x1000000_1_0) shapeCasts_S1x1000000_S1000000

/-- Two index vectors one after the other. -/
def catI (a b : (⟨S1000000, .i32⟩ : BufTy).Contents (Elt F)) : (⟨S2000000, .i32⟩ : BufTy).Contents (Elt F) :=
  concatenate S2000000 0 [⟨S1000000, a⟩, ⟨S1000000, b⟩] concatenates_S1000000_S1000000_S2000000_d0

/-- Two weight vectors one after the other. -/
def catF (a b : (⟨S1000000, .f32⟩ : BufTy).Contents (Elt F)) : (⟨S2000000, .f32⟩ : BufTy).Contents (Elt F) :=
  concatenate S2000000 0 [⟨S1000000, a⟩, ⟨S1000000, b⟩] concatenates_S1000000_S1000000_S2000000_d0

/-- A negative edge index counts from the end of a table with `n` rows. -/
def wrapE (n : BitVec 32) (x : (⟨S2000000, .i32⟩ : BufTy).Contents (Elt F)) : (⟨S2000000, .i32⟩ : BufTy).Contents (Elt F) :=
  select (cmpi .slt x (broadcastInDim S2000000 ![] bcast_S_S2000000 (constantI S_ 32 0#32)))
    (addi x (broadcastInDim S2000000 ![] bcast_S_S2000000 (constantI S_ 32 n))) x

/-- A negative batch id counts from the end of a table with `n` rows. -/
def wrapB (n : BitVec 32) (x : (⟨S32768, .i32⟩ : BufTy).Contents (Elt F)) : (⟨S32768, .i32⟩ : BufTy).Contents (Elt F) :=
  select (cmpi .slt x (broadcastInDim S32768 ![] bcast_S_S32768 (constantI S_ 32 0#32)))
    (addi x (broadcastInDim S32768 ![] bcast_S_S32768 (constantI S_ 32 n))) x

/-- The proficiency table after aggregation: its own entries plus, for every edge of both relations, the edge's weight
    times the source row of the difficulty table `D0`, landed on the destination row; divided by three. -/
def aggS (S0 : (⟨S50000x64, .f32⟩ : BufTy).Contents (Elt F)) (D0 : (⟨S20000x64, .f32⟩ : BufTy).Contents (Elt F))
    (a10 : (⟨S2x1000000, .i32⟩ : BufTy).Contents (Elt F)) (a11 : (⟨S1000000, .f32⟩ : BufTy).Contents (Elt F))
    (a12 : (⟨S2x1000000, .i32⟩ : BufTy).Contents (Elt F)) (a13 : (⟨S1000000, .f32⟩ : BufTy).Contents (Elt F)) :
    (⟨S50000x64, .f32⟩ : BufTy).Contents (Elt F) :=
  Host.divf
    (addf S0
      (Host.scatterAdd scatter_S50000x64_S2000000x1_S2000000x64_1_0_0_1
        (broadcastInDim S50000x64 ![] bcast_S_S50000x64 (constant S_ .f32 0x00000000#32))
        (broadcastInDim S2000000x1 ![0] bcast_S2000000_S2000000x1_0 (catI (erow0 a10) (erow0 a12)))
        (mulf
          (broadcastInDim S2000000x64 ![0, 1] bcast_S2000000x1_S2000000x64_0_1
            (broadcastInDim S2000000x1 ![0] bcast_S2000000_S2000000x1_0 (catF a11 a13)))
          (Host.gather gather_S20000x64_S2000000x1_S2000000x64_1_0_n_n_0_1_164 D0
            (broadcastInDim S2000000x1 ![0] bcast_S2000000_S2000000x1_0 (wrapE 20000#32 (catI (erow1 a10) (erow1 a12))))))))
    (broadcastInDim S50000x64 ![] bcast_S_S50000x64 (constant S_ .f32 0x40400000#32))

/-- The difficulty table after aggregation, the same way from the proficiency table `S0`'s rows. -/
def aggD (S0 : (⟨S50000x64, .f32⟩ : BufTy).Contents (Elt F)) (D0 : (⟨S20000x64, .f32⟩ : BufTy).Contents (Elt F))
    (a14 : (⟨S2x1000000, .i32⟩ : BufTy).Contents (Elt F)) (a15 : (⟨S1000000, .f32⟩ : BufTy).Contents (Elt F))
    (a16 : (⟨S2x1000000, .i32⟩ : BufTy).Contents (Elt F)) (a17 : (⟨S1000000, .f32⟩ : BufTy).Contents (Elt F)) :
    (⟨S20000x64, .f32⟩ : BufTy).Contents (Elt F) :=
  Host.divf
    (addf D0
      (Host.scatterAdd scatter_S20000x64_S2000000x1_S2000000x64_1_0_0_1
        (broadcastInDim S20000x64 ![] bcast_S_S20000x64 (constant S_ .f32 0x00000000#32))
        (broadcastInDim S2000000x1 ![0] bcast_S2000000_S2000000x1_0 (catI (erow0 a14) (erow0 a16)))
        (mulf
          (broadcastInDim S2000000x64 ![0, 1] bcast_S2000000x1_S2000000x64_0_1
            (broadcastInDim S2000000x1 ![0] bcast_S2000000_S2000000x1_0 (catF a15 a17)))
          (Host.gather gather_S50000x64_S2000000x1_S2000000x64_1_0_n_n_0_1_164 S0
            (broadcastInDim S2000000x1 ![0] bcast_S2000000_S2000000x1_0 (wrapE 50000#32 (catI (erow1 a14) (erow1 a16))))))))
    (broadcastInDim S20000x64 ![] bcast_S_S20000x64 (constant S_ .f32 0x40400000#32))

/-- Rows of the proficiency table by student id. -/
def rowsS (T : (⟨S50000x64, .f32⟩ : BufTy).Contents (Elt F)) (a19 : (⟨S32768, .i32⟩ : BufTy).Contents (Elt F)) :
    (⟨S32768x64, .f32⟩ : BufTy).Contents (Elt F) :=
  Host.gather gather_S50000x64_S32768x1_S32768x64_1_0_n_n_0_1_164 T
    (broadcastInDim S32768x1 ![0] bcast_S32768_S32768x1_0 (wrapB 50000#32 a19))

/-- Rows of the difficulty table by exercise id. -/
def rowsD (T : (⟨S20000x64, .f32⟩ : BufTy).Contents (Elt F)) (a20 : (⟨S32768, .i32⟩ : BufTy).Contents (Elt F)) :
    (⟨S32768x64, .f32⟩ : BufTy).Contents (Elt F) :=
  Host.gather gather_S20000x64_S32768x1_S32768x64_1_0_n_n_0_1_164 T
    (broadcastInDim S32768x1 ![0] bcast_S32768_S32768x1_0 (wrapB 20000#32 a20))

/-- Rows of the raw discrimination column by exercise id. -/
def rowsDisc (T : (⟨S20000x1, .f32⟩ : BufTy).Contents (Elt F)) (a20 : (⟨S32768, .i32⟩ : BufTy).Contents (Elt F)) :
    (⟨S32768x1, .f32⟩ : BufTy).Contents (Elt F) :=
  Host.gather gather_S20000x1_S32768x1_S32768x1_1_0_n_n_0_1_11 T
    (broadcastInDim S32768x1 ![0] bcast_S32768_S32768x1_0 (wrapB 20000#32 a20))

end Cert.KernelIdeal.Bridge

end
-- ==== Proof.KernelFoldAgg.lean ====
import proofs.«124065_j91044716740748_2_alg».proof.Proof.Gen.KernelIdeal.Frame
import proofs.«124065_j91044716740748_2_alg».proof.Proof.KernelHostDefs
import Idealize.ShloMosaic.Lib.StableHlo.Run

/-
  The kernel's host operations between its second and third regions, read at the third region's ten input arrays.

  Each buffer the third region reads is a composition of the stretch's operations applied to the buffers the stretch
  finds: the two aggregated tables gathered by student and by exercise id, the raw discrimination column gathered by
  exercise id, the three bias vectors as one-row tables, and four arrays the stretch does not write. Running the
  stretch's operations in order and reading the result at each of these buffers gives the named function of the
  buffers the stretch finds, operation for operation.
-/

set_option maxRecDepth 16384

noncomputable section

namespace Cert.KernelIdeal.Bridge

open Cert.KernelIdeal Cert.KernelIdeal.Facts₀
open Idealize.ShloMosaic Idealize.ShloMosaic.TcCoe Idealize.ShloMosaic.Tactic Idealize.SL.Sem Idealize.ShloMosaic.StableHlo

variable {F : FTy → Type} [FloatOps F]
variable (m : (ℓ : Loc nD τ sig) → Buf (Elt F) ℓ) (ρ : Dev nD → PrngReg) (c : Dev nD)

set_option maxHeartbeats 40000000 in
/-- The proficiency rows the network reads: the aggregated proficiency table gathered by student id. -/
theorem V4_main_v63 : Gen.V4 m ρ c main_v63 = rowsS (aggS (Gen.W3 m ρ c (Proc.devRef .tc main_v1)) (Gen.W3 m ρ c (Proc.devRef .tc main_v2)) (Gen.W3 m ρ c (Proc.devRef .tc main_arg10)) (Gen.W3 m ρ c (Proc.devRef .tc main_arg11)) (Gen.W3 m ρ c (Proc.devRef .tc main_arg12)) (Gen.W3 m ρ c (Proc.devRef .tc main_arg13))) (Gen.W3 m ρ c (Proc.devRef .tc main_arg19)) := by
  show StableHlo.after Gen.hostOps2 (Gen.W3 m ρ c) (Proc.devRef .tc main_v63) = _
  after_results_simp <;> rfl

set_option maxHeartbeats 40000000 in
/-- The difficulty rows the network reads: the aggregated difficulty table gathered by exercise id. -/
theorem V4_main_v70 : Gen.V4 m ρ c main_v70 = rowsD (aggD (Gen.W3 m ρ c (Proc.devRef .tc main_v1)) (Gen.W3 m ρ c (Proc.devRef .tc main_v2)) (Gen.W3 m ρ c (Proc.devRef .tc main_arg14)) (Gen.W3 m ρ c (Proc.devRef .tc main_arg15)) (Gen.W3 m ρ c (Proc.devRef .tc main_arg16)) (Gen.W3 m ρ c (Proc.devRef .tc main_arg17))) (Gen.W3 m ρ c (Proc.devRef .tc main_arg20)) := by
  show StableHlo.after Gen.hostOps2 (Gen.W3 m ρ c) (Proc.devRef .tc main_v70) = _
  after_results_simp <;> rfl

set_option maxHeartbeats 40000000 in
/-- The raw discrimination the network reads: the discrimination column gathered by exercise id. -/
theorem V4_main_v77 : Gen.V4 m ρ c main_v77 = rowsDisc (Gen.W3 m ρ c (Proc.devRef .tc main_arg3)) (Gen.W3 m ρ c (Proc.devRef .tc main_arg20)) := by
  show StableHlo.after Gen.hostOps2 (Gen.W3 m ρ c) (Proc.devRef .tc main_v77) = _
  after_results_simp <;> rfl

set_option maxHeartbeats 40000000 in
/-- The first bias vector as a one-row table. -/
theorem V4_main_v78 : Gen.V4 m ρ c main_v78 = shapeCast S1x256 (Gen.W3 m ρ c (Proc.devRef .tc main_arg5)) shapeCasts_S256_S1x256 := by
  show StableHlo.after Gen.hostOps2 (Gen.W3 m ρ c) (Proc.devRef .tc main_v78) = _
  after_results_simp <;> rfl

set_option maxHeartbeats 40000000 in
/-- The second bias vector as a one-row table. -/
theorem V4_main_v79 : Gen.V4 m ρ c main_v79 = shapeCast S1x128 (Gen.W3 m ρ c (Proc.devRef .tc main_arg7)) shapeCasts_S128_S1x128 := by
  show StableHlo.after Gen.hostOps2 (Gen.W3 m ρ c) (Proc.devRef .tc main_v79) = _
  after_results_simp <;> rfl

set_option maxHeartbeats 40000000 in
/-- The third bias as a one-row, one-column table. -/
theorem V4_main_v80 : Gen.V4 m ρ c main_v80 = shapeCast S1x1 (Gen.W3 m ρ c (Proc.devRef .tc main_arg9)) shapeCasts_S1_S1x1 := by
  show StableHlo.after Gen.hostOps2 (Gen.W3 m ρ c) (Proc.devRef .tc main_v80) = _
  after_results_simp <;> rfl

set_option maxHeartbeats 40000000 in
/-- The stretch does not write this array. -/
theorem V4_main_arg18 : Gen.V4 m ρ c main_arg18 = (Gen.W3 m ρ c (Proc.devRef .tc main_arg18)) := by
  show StableHlo.after Gen.hostOps2 (Gen.W3 m ρ c) (Proc.devRef .tc main_arg18) = _
  after_results_simp <;> rfl

set_option maxHeartbeats 40000000 in
/-- The stretch does not write this array. -/
theorem V4_main_arg4 : Gen.V4 m ρ c main_arg4 = (Gen.W3 m ρ c (Proc.devRef .tc main_arg4)) := by
  show StableHlo.after Gen.hostOps2 (Gen.W3 m ρ c) (Proc.devRef .tc main_arg4) = _
  after_results_simp <;> rfl

set_option maxHeartbeats 40000000 in
/-- The stretch does not write this array. -/
theorem V4_main_arg6 : Gen.V4 m ρ c main_arg6 = (Gen.W3 m ρ c (Proc.devRef .tc main_arg6)) := by
  show StableHlo.after Gen.hostOps2 (Gen.W3 m ρ c) (Proc.devRef .tc main_arg6) = _
  after_results_simp <;> rfl

set_option maxHeartbeats 40000000 in
/-- The stretch does not write this array. -/
theorem V4_main_arg8 : Gen.V4 m ρ c main_arg8 = (Gen.W3 m ρ c (Proc.devRef .tc main_arg8)) := by
  show StableHlo.after Gen.hostOps2 (Gen.W3 m ρ c) (Proc.devRef .tc main_arg8) = _
  after_results_simp <;> rfl

end Cert.KernelIdeal.Bridge

end
-- ==== Proof.LibRowScatter.lean ====
/-
  Row gathers and row scatter-adds, in general.

  A ROW gather reads, for result element `(e, k)`, operand element `(idx[e, 0], k)`, the row read signed and clamped to the
  operand's rows. A ROW scatter-add adds update element `(e, k)` to operand element `(idx[e, 0], k)`, the row read signed,
  and drops the update when that row is outside the operand. Both are stated over a variable record of dimension numbers
  whose fields are assumed to be the literal lists of these two forms.

  Delivered: `rowGather_congr` (two row gathers of one operand agree where their index tables agree on the row) and
  `hostScatterAdd_rows_concat` (one scatter-add of the rows of `A` followed by the rows of `B` is the scatter-add of `B`
  into the scatter-add of `A`).
-/
import Idealize.ShloMosaic.PureOps.Ideal
import Idealize.ShloMosaic.PureOps.ShapeOps
import Idealize.ShloMosaic.Lib.ValueIdx

noncomputable section

open scoped BigOperators

namespace Cert.Lib

open Idealize.ShloMosaic Idealize.ShloMosaic.ValueIdx

/-! ## A scatter's result index, in general -/

/-- An update lands on operand element `i` exactly when, on every axis, the signed start plus the window
    coordinate is `i`'s coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    rw [Option.some.injEq]
    constructor
    · intro hf a
      have h1 := h a
      rw [← hf]
      simp only
      omega
    · intro hf
      funext a
      apply Fin.ext
      have h1 := hf a
      have h2 := h a
      simp only
      omega
  · rename_i h
    constructor
    · intro hf; exact absurd hf (by simp)
    · intro hf
      exfalso; apply h
      intro a
      have h1 := hf a
      have h2 := (i a).isLt
      omega

/-! ## The row scatter: update row `e` goes to operand row `idx[e, 0]` -/

section Scatter

variable {n C N w : Nat}

/-- The row-scatter dimension numbers as a literal record. -/
abbrev rsLit (wf : ScatterDims.WF (⟨2, ![n, C]⟩ : Shape) (⟨2, ![N, 1]⟩ : Shape) (⟨2, ![N, C]⟩ : Shape) [1] [0] [0] 1) :
    ScatterDims (⟨2, ![n, C]⟩ : Shape) (⟨2, ![N, 1]⟩ : Shape) (⟨2, ![N, C]⟩ : Shape) :=
  ⟨[1], [0], [0], 1, wf⟩

/-- The one component of update `j`'s start index is read at row `j 0` of the index table. -/
theorem rs_siIdx (wf : ScatterDims.WF (⟨2, ![n, C]⟩ : Shape) (⟨2, ![N, 1]⟩ : Shape) (⟨2, ![N, C]⟩ : Shape) [1] [0] [0] 1)
    (j : (⟨2, ![N, C]⟩ : Shape).Idx) (h : 0 < 1) :
    (rsLit wf).siIdx j ⟨0, h⟩ = ix2 (j 0) 0 := by
  funext b
  match b with
  | ⟨0, _⟩ => rfl
  | ⟨1, _⟩ => rfl

theorem rs_start0 (wf : ScatterDims.WF (⟨2, ![n, C]⟩ : Shape) (⟨2, ![N, 1]⟩ : Shape) (⟨2, ![N, C]⟩ : Shape) [1] [0] [0] 1)
    (j : (⟨2, ![N, C]⟩ : Shape).Idx) (idx : IVec (⟨2, ![N, 1]⟩ : Shape) w) :
    (rsLit wf).start j idx 0 = (idx (ix2 (j 0) 0)).toInt := by
  have h : (rsLit wf).start j idx 0 = (idx ((rsLit wf).siIdx j ⟨0, Nat.zero_lt_one⟩)).toInt := rfl
  exact h.trans (congrArg (fun t => (idx t).toInt) (rs_siIdx wf j Nat.zero_lt_one))

theorem rs_start1 (wf : ScatterDims.WF (⟨2, ![n, C]⟩ : Shape) (⟨2, ![N, 1]⟩ : Shape) (⟨2, ![N, C]⟩ : Shape) [1] [0] [0] 1)
    (j : (⟨2, ![N, C]⟩ : Shape).Idx) (idx : IVec (⟨2, ![N, 1]⟩ : Shape) w) :
    (rsLit wf).start j idx 1 = 0 := rfl

theorem rs_window0 (wf : ScatterDims.WF (⟨2, ![n, C]⟩ : Shape) (⟨2, ![N, 1]⟩ : Shape) (⟨2, ![N, C]⟩ : Shape) [1] [0] [0] 1)
    (j : (⟨2, ![N, C]⟩ : Shape).Idx) :
    (rsLit wf).window j 0 = 0 := rfl

theorem rs_window1 (wf : ScatterDims.WF (⟨2, ![n, C]⟩ : Shape) (⟨2, ![N, 1]⟩ : Shape) (⟨2, ![N, C]⟩ : Shape) [1] [0] [0] 1)
    (j : (⟨2, ![N, C]⟩ : Shape).Idx) :
    (rsLit wf).window j 1 = (j 1).val := rfl

/-- Update `(e, k)` of a row scatter lands on operand element `(r, c)` exactly when row `e` of the index table,
    read signed, is `r`, and the columns agree. -/
theorem rowScatter_resultIdx?_eq_some_iff
    (d : ScatterDims (⟨2, ![n, C]⟩ : Shape) (⟨2, ![N, 1]⟩ : Shape) (⟨2, ![N, C]⟩ : Shape))
    (h1 : d.updateWindowDims = [1]) (h2 : d.insertedWindowDims = [0]) (h3 : d.scatterDimsToOperandDims = [0])
    (h4 : d.indexVectorDim = 1)
    (idx : IVec (⟨2, ![N, 1]⟩ : Shape) w) (e : Fin N) (k : Fin C) (r : Fin n) (c : Fin C) :
    d.resultIdx? (ix2 e k) idx = some (ix2 r c) ↔ (idx (ix2 e 0)).toInt = (r.val : Int) ∧ k = c := by
  obtain ⟨uw, iw, sd, iv, wf⟩ := d
  simp only at h1 h2 h3 h4
  subst h1 h2 h3 h4
  rw [resultIdx?_eq_some_iff, Fin.forall_fin_two]
  rw [rs_start0 wf, rs_start1 wf, rs_window0 wf, rs_window1 wf]
  show (idx (ix2 e 0)).toInt + ((0 : Nat) : Int) = (r.val : Int) ∧ (0 : Int) + ((k.val : Nat) : Int) = (c.val : Int) ↔ _
  constructor
  · rintro ⟨ha, hb⟩
    exact ⟨by omega, Fin.ext (by omega)⟩
  · rintro ⟨ha, hb⟩
    subst hb
    exact ⟨by omega, by omega⟩

end Scatter

/-! ## The row gather: result row `e` is operand row `idx[e, 0]`, clamped -/

section Gather

variable {n C N w : Nat}

/-- The row-gather dimension numbers as a literal record. -/
abbrev rgLit (wf : GatherDims.WF (⟨2, ![n, C]⟩ : Shape) (⟨2, ![N, 1]⟩ : Shape) (⟨2, ![N, C]⟩ : Shape) [1] [0] [] [0] [] 1
      ![1, C]) :
    GatherDims (⟨2, ![n, C]⟩ : Shape) (⟨2, ![N, 1]⟩ : Shape) (⟨2, ![N, C]⟩ : Shape) :=
  ⟨[1], [0], [], [], [0], 1, ![1, C], wf⟩

/-- The one component of result index `j`'s start index is read at row `j 0` of the index table. -/
theorem rg_siIdx (wf : GatherDims.WF (⟨2, ![n, C]⟩ : Shape) (⟨2, ![N, 1]⟩ : Shape) (⟨2, ![N, C]⟩ : Shape) [1] [0] [] [0] [] 1
      ![1, C])
    (j : (⟨2, ![N, C]⟩ : Shape).Idx) (h : 0 < 1) :
    (rgLit wf).siIdx j ⟨0, h⟩ = ix2 (j 0) 0 := by
  funext b
  match b with
  | ⟨0, _⟩ => rfl
  | ⟨1, _⟩ => rfl

/-- The row read: the index table's entry, clamped to the operand's rows. -/
theorem rg_val0 (wf : GatherDims.WF (⟨2, ![n, C]⟩ : Shape) (⟨2, ![N, 1]⟩ : Shape) (⟨2, ![N, C]⟩ : Shape) [1] [0] [] [0] [] 1
      ![1, C])
    (j : (⟨2, ![N, C]⟩ : Shape).Idx) (idx : IVec (⟨2, ![N, 1]⟩ : Shape) w) :
    ((rgLit wf).operandIdx j idx 0).val = min (idx (ix2 (j 0) 0)).toInt.toNat (n - 1) := by
  have h : ((rgLit wf).operandIdx j idx 0).val
      = min (idx ((rgLit wf).siIdx j ⟨0, Nat.zero_lt_one⟩)).toInt.toNat (n - 1) + 0 + 0 := rfl
  exact h.trans (congrArg (fun t => min (idx t).toInt.toNat (n - 1) + 0 + 0) (rg_siIdx wf j Nat.zero_lt_one))

/-- The column read: the result's own column. -/
theorem rg_val1 (wf : GatherDims.WF (⟨2, ![n, C]⟩ : Shape) (⟨2, ![N, 1]⟩ : Shape) (⟨2, ![N, C]⟩ : Shape) [1] [0] [] [0] [] 1
      ![1, C])
    (j : (⟨2, ![N, C]⟩ : Shape).Idx) (idx : IVec (⟨2, ![N, 1]⟩ : Shape) w) :
    ((rgLit wf).operandIdx j idx 1).val = (j 1).val := by
  show 0 + 0 + (j 1).val = (j 1).val
  omega

/-- The operand element a row gather reads for result element `(e, k)`: row `idx[e, 0]` (signed, clamped), column `k`. -/
theorem rowGather_operandIdx_val
    (d : GatherDims (⟨2, ![n, C]⟩ : Shape) (⟨2, ![N, 1]⟩ : Shape) (⟨2, ![N, C]⟩ : Shape))
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (idx : IVec (⟨2, ![N, 1]⟩ : Shape) w) (e : Fin N) (k : Fin C) :
    (d.operandIdx (ix2 e k) idx 0).val = min (idx (ix2 e 0)).toInt.toNat (n - 1) ∧
      (d.operandIdx (ix2 e k) idx 1).val = k.val := by
  obtain ⟨od, cd, ob, sb, sm, iv, ss, wf⟩ := d
  simp only at h1 h2 h3 h4 h5 h6 h7
  subst h1 h2 h3 h4 h5 h6 h7
  exact ⟨rg_val0 wf (ix2 e k) idx, rg_val1 wf (ix2 e k) idx⟩

/-- (A1) Two row gathers from the same operand read the same element when their index tables agree on the row. -/
theorem rowGather_congr {α : Type} {N' : Nat}
    (d : GatherDims (⟨2, ![n, C]⟩ : Shape) (⟨2, ![N, 1]⟩ : Shape) (⟨2, ![N, C]⟩ : Shape))
    (d' : GatherDims (⟨2, ![n, C]⟩ : Shape) (⟨2, ![N', 1]⟩ : Shape) (⟨2, ![N', C]⟩ : Shape))
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (h1' : d'.offsetDims = [1]) (h2' : d'.collapsedSliceDims = [0]) (h3' : d'.operandBatchingDims = [])
    (h4' : d'.startIndicesBatchingDims = []) (h5' : d'.startIndexMap = [0]) (h6' : d'.indexVectorDim = 1)
    (h7' : d'.sliceSizes = ![1, C])
    (x : (⟨2, ![n, C]⟩ : Shape).Idx → α) (idx : IVec (⟨2, ![N, 1]⟩ : Shape) w) (idx' : IVec (⟨2, ![N', 1]⟩ : Shape) w)
    (e : Fin N) (e' : Fin N') (k : Fin C) (h : idx (ix2 e 0) = idx' (ix2 e' 0)) :
    Host.gather d x idx (ix2 e k) = Host.gather d' x idx' (ix2 e' k) := by
  have ha := rowGather_operandIdx_val d h1 h2 h3 h4 h5 h6 h7 idx e k
  have hb := rowGather_operandIdx_val d' h1' h2' h3' h4' h5' h6' h7' idx' e' k
  show x (d.operandIdx (ix2 e k) idx) = x (d'.operandIdx (ix2 e' k) idx')
  congr 1
  funext a
  apply Fin.ext
  match a with
  | ⟨0, _⟩ => exact ha.1.trans (by rw [h]; exact hb.1.symm)
  | ⟨1, _⟩ => exact ha.2.trans hb.2.symm

end Gather

/-! ## One scatter-add of two concatenated row lists is the two scatter-adds in turn -/

section Concat

variable {n C N NA NB w : Nat}

/-- (A2) A row scatter-add whose index and update tables are the rows of `A` followed by the rows of `B` is the
    scatter-add of `B` into the scatter-add of `A`: an update's target depends on the index table only through
    its own row, the sum over the update positions landing on an element splits by whether the row is below
    `NA`, and addition of extended reals is associative. -/
theorem hostScatterAdd_rows_concat (hN : N = NA + NB)
    (d : ScatterDims (⟨2, ![n, C]⟩ : Shape) (⟨2, ![N, 1]⟩ : Shape) (⟨2, ![N, C]⟩ : Shape))
    (dA : ScatterDims (⟨2, ![n, C]⟩ : Shape) (⟨2, ![NA, 1]⟩ : Shape) (⟨2, ![NA, C]⟩ : Shape))
    (dB : ScatterDims (⟨2, ![n, C]⟩ : Shape) (⟨2, ![NB, 1]⟩ : Shape) (⟨2, ![NB, C]⟩ : Shape))
    (h1 : d.updateWindowDims = [1]) (h2 : d.insertedWindowDims = [0]) (h3 : d.scatterDimsToOperandDims = [0])
    (h4 : d.indexVectorDim = 1)
    (hA1 : dA.updateWindowDims = [1]) (hA2 : dA.insertedWindowDims = [0]) (hA3 : dA.scatterDimsToOperandDims = [0])
    (hA4 : dA.indexVectorDim = 1)
    (hB1 : dB.updateWindowDims = [1]) (hB2 : dB.insertedWindowDims = [0]) (hB3 : dB.scatterDimsToOperandDims = [0])
    (hB4 : dB.indexVectorDim = 1)
    (x : (⟨2, ![n, C]⟩ : Shape).Idx → EReal)
    (idx : IVec (⟨2, ![N, 1]⟩ : Shape) w) (idxA : IVec (⟨2, ![NA, 1]⟩ : Shape) w) (idxB : IVec (⟨2, ![NB, 1]⟩ : Shape) w)
    (upd : (⟨2, ![N, C]⟩ : Shape).Idx → EReal) (updA : (⟨2, ![NA, C]⟩ : Shape).Idx → EReal)
    (updB : (⟨2, ![NB, C]⟩ : Shape).Idx → EReal)
    (hiA : ∀ e : Fin NA, idx (ix2 ⟨e.val, by have := e.isLt; omega⟩ 0) = idxA (ix2 e 0))
    (hiB : ∀ e : Fin NB, idx (ix2 ⟨NA + e.val, by have := e.isLt; omega⟩ 0) = idxB (ix2 e 0))
    (huA : ∀ (e : Fin NA) (k : Fin C), upd (ix2 ⟨e.val, by have := e.isLt; omega⟩ k) = updA (ix2 e k))
    (huB : ∀ (e : Fin NB) (k : Fin C), upd (ix2 ⟨NA + e.val, by have := e.isLt; omega⟩ k) = updB (ix2 e k)) :
    Ideal.hostScatterAdd d x idx upd
      = Ideal.hostScatterAdd dB (Ideal.hostScatterAdd dA x idxA updA) idxB updB := by
  subst hN
  funext i
  obtain ⟨r, c, rfl⟩ : ∃ r c, i = ix2 r c := ⟨i 0, i 1, eq_ix2 i⟩
  simp only [Ideal.hostScatterAdd]
  rw [add_assoc]
  congr 1
  rw [Finset.sum_filter, Finset.sum_filter, Finset.sum_filter, sum_idx2, sum_idx2, sum_idx2, Fin.sum_univ_add]
  congr 1
  · apply Finset.sum_congr rfl; intro a _
    apply Finset.sum_congr rfl; intro b _
    have hc : d.resultIdx? (ix2 (Fin.castAdd NB a) b) idx = some (ix2 r c)
        ↔ dA.resultIdx? (ix2 a b) idxA = some (ix2 r c) := by
      rw [rowScatter_resultIdx?_eq_some_iff d h1 h2 h3 h4, rowScatter_resultIdx?_eq_some_iff dA hA1 hA2 hA3 hA4]
      rw [show idx (ix2 (Fin.castAdd NB a) 0) = idxA (ix2 a 0) from hiA a]
    exact if_congr hc (huA a b) rfl
  · apply Finset.sum_congr rfl; intro a _
    apply Finset.sum_congr rfl; intro b _
    have hc : d.resultIdx? (ix2 (Fin.natAdd NA a) b) idx = some (ix2 r c)
        ↔ dB.resultIdx? (ix2 a b) idxB = some (ix2 r c) := by
      rw [rowScatter_resultIdx?_eq_some_iff d h1 h2 h3 h4, rowScatter_resultIdx?_eq_some_iff dB hB1 hB2 hB3 hB4]
      rw [show idx (ix2 (Fin.natAdd NA a) 0) = idxB (ix2 a 0) from hiB a]
    exact if_congr hc (huB a b) rfl

end Concat

end Cert.Lib
-- ==== Proof.LibHostReads.lean ====
/-
  Layout operations of the host program read at an index built from coordinates.

  A vector of length `N` broadcast to an `N × 1` table holds entry `e` in row `e`; an `N × 1` table broadcast
  to `N × C` holds its row's one entry in every column; a concatenation of two vectors holds the first below the
  first's length and the second, shifted, from there on.
-/
import Idealize.ShloMosaic.Lib.Pipeline.Value
import Idealize.ShloMosaic.Lib.ValueIdx

namespace Cert.Lib

open Idealize.ShloMosaic Idealize.ShloMosaic.ValueIdx

variable {α : Type}

/-- A vector broadcast along a new unit column: row `e` holds entry `e`. -/
theorem bcast_col_apply {N : Nat} (dims : Fin 1 → Fin 2) (hd : dims 0 = 0)
    (h : (⟨1, ![N]⟩ : Shape).BroadcastsInDim ⟨2, ![N, 1]⟩ dims) (x : (⟨1, ![N]⟩ : Shape).Idx → α) (e : Fin N) (z : Fin 1) :
    broadcastInDim ⟨2, ![N, 1]⟩ dims h x (ix2 e z) = x (ix1 e) := by
  refine broadcastInDim_apply (s := ⟨1, ![N]⟩) (t := ⟨2, ![N, 1]⟩) dims h x (ix2 e z) (ix1 e) fun a => ?_
  match a with
  | ⟨0, _⟩ =>
    show e.val = if N = 1 then 0 else ((ix2 e z) (dims 0)).val
    rw [hd]
    by_cases h1 : N = 1
    · rw [if_pos h1]; have := e.isLt; omega
    · rw [if_neg h1]

/-- A one-column table broadcast across `C` columns: every column of row `e` holds the row's entry. -/
theorem bcast_cols_apply {N C : Nat} (dims : Fin 2 → Fin 2) (hd0 : dims 0 = 0) (hd1 : dims 1 = 1)
    (h : (⟨2, ![N, 1]⟩ : Shape).BroadcastsInDim ⟨2, ![N, C]⟩ dims) (x : (⟨2, ![N, 1]⟩ : Shape).Idx → α) (e : Fin N) (k : Fin C) :
    broadcastInDim ⟨2, ![N, C]⟩ dims h x (ix2 e k) = x (ix2 e 0) := by
  refine broadcastInDim_apply (s := ⟨2, ![N, 1]⟩) (t := ⟨2, ![N, C]⟩) dims h x (ix2 e k) (ix2 e 0) fun a => ?_
  match a with
  | ⟨0, _⟩ =>
    show e.val = if N = 1 then 0 else ((ix2 e k) (dims 0)).val
    rw [hd0]
    by_cases h1 : N = 1
    · rw [if_pos h1]; have := e.isLt; omega
    · rw [if_neg h1]
  | ⟨1, _⟩ =>
    show (0 : Nat) = if (1 : Nat) = 1 then 0 else ((ix2 e k) (dims 1)).val
    rw [if_pos rfl]

/-- A scalar broadcast to any shape holds the scalar everywhere. -/
theorem bcast_scalar_apply {t : Shape} (dims : Fin 0 → Fin t.rank)
    (h : (⟨0, ![]⟩ : Shape).BroadcastsInDim t dims) (x : (⟨0, ![]⟩ : Shape).Idx → α) (j : t.Idx) :
    broadcastInDim t dims h x j = x ix0 :=
  broadcastInDim_apply (s := ⟨0, ![]⟩) (t := t) dims h x j ix0 fun a => a.elim0

/-- A concatenation of two vectors, read below the first's length. -/
theorem concat_vec_left {N E E' : Nat} (a : (⟨1, ![E]⟩ : Shape).Idx → α) (b : (⟨1, ![E']⟩ : Shape).Idx → α)
    (h : Shape.Concatenates [(⟨1, ![E]⟩ : Shape), ⟨1, ![E']⟩] ⟨1, ![N]⟩ 0) (e : Fin E) (he : e.val < N) :
    concatenate ⟨1, ![N]⟩ 0 [⟨⟨1, ![E]⟩, a⟩, ⟨⟨1, ![E']⟩, b⟩] h (ix1 ⟨e.val, he⟩) = a (ix1 e) := by
  refine concatenate_pair_apply_left 0 a b h _ rfl (ix1 e) fun bb => ?_
  match bb with
  | ⟨0, _⟩ => rfl

/-- and from the first's length on. -/
theorem concat_vec_right {N E E' : Nat} (a : (⟨1, ![E]⟩ : Shape).Idx → α) (b : (⟨1, ![E']⟩ : Shape).Idx → α)
    (h : Shape.Concatenates [(⟨1, ![E]⟩ : Shape), ⟨1, ![E']⟩] ⟨1, ![N]⟩ 0) (e : Fin E') (he : E + e.val < N) :
    concatenate ⟨1, ![N]⟩ 0 [⟨⟨1, ![E]⟩, a⟩, ⟨⟨1, ![E']⟩, b⟩] h (ix1 ⟨E + e.val, he⟩) = b (ix1 e) := by
  refine concatenate_pair_apply_right 0 a b h _ rfl rfl (ix1 e) (fun bb hb => ?_) ?_
  · match bb with
    | ⟨0, _⟩ => exact absurd rfl hb
  · show e.val + E = E + e.val
    omega

end Cert.Lib
-- ==== Proof.AggStat.lean ====
/-
  The proficiency table after aggregation: the kernel's one scatter-add over both relations' edges is the
  reference's two scatter-adds, one per relation, added up.

  The kernel lists the first relation's edges and then the second's; the rows of its index and update tables below
  one million are the first relation's, the rows from there on the second's. An update row is the edge's weight
  times the gathered source row; the gathered row depends on the source-index table only through its own row.
  The sum over all updates landing on an element splits into the two relations' sums, and addition of extended
  reals is associative with the float zero the number zero.
-/
import proofs.«124065_j91044716740748_2_alg».proof.Proof.KernelHostDefs
import proofs.«124065_j91044716740748_2_alg».proof.Proof.LibRowScatter
import proofs.«124065_j91044716740748_2_alg».proof.Proof.LibHostReads
import proofs.«124065_j91044716740748_2_alg».proof.Proof.Gen.ReferenceIdeal.Read

noncomputable section

namespace Cert.KernelIdeal.Bridge

open Cert.KernelIdeal Cert.KernelIdeal.Facts₀ Idealize.ShloMosaic Idealize.ShloMosaic.ValueIdx
open Cert.ReferenceIdeal.Read

namespace AggStat

variable {F : FTy → Type} [FloatOps F]

/-! ## The two programs' tables, named -/

/-- The reference's aggregated proficiency table as a function of the two projected tables. -/
def refAggS (S0 : (⟨S50000x64, .f32⟩ : BufTy).Contents (Elt F)) (D0 : (⟨S20000x64, .f32⟩ : BufTy).Contents (Elt F))
    (x10 : (⟨S2x1000000, .i32⟩ : BufTy).Contents (Elt F)) (x11 : (⟨S1000000, .f32⟩ : BufTy).Contents (Elt F))
    (x12 : (⟨S2x1000000, .i32⟩ : BufTy).Contents (Elt F)) (x13 : (⟨S1000000, .f32⟩ : BufTy).Contents (Elt F)) :
    (⟨S50000x64, .f32⟩ : BufTy).Contents (Elt F) :=
  Host.divf
    (addf
      (addf S0
        (Host.scatterAdd Cert.ReferenceIdeal.scatter_S50000x64_S1000000x1_S1000000x64_1_0_0_1 (val_main_v34 (F := F)) (val_main_v35 (F := F) x10)
          (mulf (val_main_v30 (F := F) x11) (Host.gather Cert.ReferenceIdeal.gather_S20000x64_S1000000x1_S1000000x64_1_0_n_n_0_1_164 D0 (val_main_v28 (F := F) x10)))))
      (Host.scatterAdd Cert.ReferenceIdeal.scatter_S50000x64_S1000000x1_S1000000x64_1_0_0_1 (val_main_v52 (F := F)) (val_main_v53 (F := F) x12)
        (mulf (val_main_v48 (F := F) x13) (Host.gather Cert.ReferenceIdeal.gather_S20000x64_S1000000x1_S1000000x64_1_0_n_n_0_1_164 D0 (val_main_v46 (F := F) x12)))))
    (val_main_v56 (F := F))

/-- The reference's stage is that function of its own two projected tables. -/
theorem val_main_v57_eq_refAggS (x0 : (⟨S50000x64, .f32⟩ : BufTy).Contents (Elt F)) (x1 : (⟨S20000x64, .f32⟩ : BufTy).Contents (Elt F)) (x2 : (⟨S64x64, .f32⟩ : BufTy).Contents (Elt F))
    (x10 : (⟨S2x1000000, .i32⟩ : BufTy).Contents (Elt F)) (x11 : (⟨S1000000, .f32⟩ : BufTy).Contents (Elt F))
    (x12 : (⟨S2x1000000, .i32⟩ : BufTy).Contents (Elt F)) (x13 : (⟨S1000000, .f32⟩ : BufTy).Contents (Elt F)) :
    val_main_v57 (F := F) x0 x1 x2 x10 x11 x12 x13
      = refAggS (val_main_v6 (F := F) x0 x2) (val_main_v13 (F := F) x1 x2) x10 x11 x12 x13 := rfl

/-- The kernel's destination-index table: both relations' destination rows, one after the other. -/
def kIdx (x10 x12 : (⟨S2x1000000, .i32⟩ : BufTy).Contents (Elt F)) : (⟨S2000000x1, .i32⟩ : BufTy).Contents (Elt F) :=
  broadcastInDim S2000000x1 ![0] bcast_S2000000_S2000000x1_0 (catI (erow0 x10) (erow0 x12))

/-- The kernel's source-index table, negative entries wrapped. -/
def kSrc (x10 x12 : (⟨S2x1000000, .i32⟩ : BufTy).Contents (Elt F)) : (⟨S2000000x1, .i32⟩ : BufTy).Contents (Elt F) :=
  broadcastInDim S2000000x1 ![0] bcast_S2000000_S2000000x1_0 (wrapE 20000#32 (catI (erow1 x10) (erow1 x12)))

/-- The kernel's weight table. -/
def kWgt (x11 x13 : (⟨S1000000, .f32⟩ : BufTy).Contents (Elt F)) : (⟨S2000000x64, .f32⟩ : BufTy).Contents (Elt F) :=
  broadcastInDim S2000000x64 ![0, 1] bcast_S2000000x1_S2000000x64_0_1
    (broadcastInDim S2000000x1 ![0] bcast_S2000000_S2000000x1_0 (catF x11 x13))

/-- The kernel's update table: weight times gathered source row. -/
def kUpd (D0 : (⟨S20000x64, .f32⟩ : BufTy).Contents (Elt F)) (x10 : (⟨S2x1000000, .i32⟩ : BufTy).Contents (Elt F)) (x11 : (⟨S1000000, .f32⟩ : BufTy).Contents (Elt F))
    (x12 : (⟨S2x1000000, .i32⟩ : BufTy).Contents (Elt F)) (x13 : (⟨S1000000, .f32⟩ : BufTy).Contents (Elt F)) : (⟨S2000000x64, .f32⟩ : BufTy).Contents (Elt F) :=
  mulf (kWgt x11 x13) (Host.gather gather_S20000x64_S2000000x1_S2000000x64_1_0_n_n_0_1_164 D0 (kSrc x10 x12))

/-- The float zero table both programs scatter into. -/
def zeroS : (⟨S50000x64, .f32⟩ : BufTy).Contents (Elt F) :=
  broadcastInDim S50000x64 ![] bcast_S_S50000x64 (constant S_ .f32 0x00000000#32)

/-- The table of threes both programs divide by. -/
def threeS : (⟨S50000x64, .f32⟩ : BufTy).Contents (Elt F) :=
  broadcastInDim S50000x64 ![] bcast_S_S50000x64 (constant S_ .f32 0x40400000#32)

/-- The reference's update table of the first relation. -/
def rUpdA (D0 : (⟨S20000x64, .f32⟩ : BufTy).Contents (Elt F)) (x10 : (⟨S2x1000000, .i32⟩ : BufTy).Contents (Elt F)) (x11 : (⟨S1000000, .f32⟩ : BufTy).Contents (Elt F)) :
    (⟨Cert.ReferenceIdeal.S1000000x64, .f32⟩ : BufTy).Contents (Elt F) :=
  mulf (val_main_v30 (F := F) x11) (Host.gather Cert.ReferenceIdeal.gather_S20000x64_S1000000x1_S1000000x64_1_0_n_n_0_1_164 D0 (val_main_v28 (F := F) x10))

/-- The reference's update table of the second relation. -/
def rUpdB (D0 : (⟨S20000x64, .f32⟩ : BufTy).Contents (Elt F)) (x12 : (⟨S2x1000000, .i32⟩ : BufTy).Contents (Elt F)) (x13 : (⟨S1000000, .f32⟩ : BufTy).Contents (Elt F)) :
    (⟨Cert.ReferenceIdeal.S1000000x64, .f32⟩ : BufTy).Contents (Elt F) :=
  mulf (val_main_v48 (F := F) x13) (Host.gather Cert.ReferenceIdeal.gather_S20000x64_S1000000x1_S1000000x64_1_0_n_n_0_1_164 D0 (val_main_v46 (F := F) x12))

theorem aggS_unfold (S0 : (⟨S50000x64, .f32⟩ : BufTy).Contents (Elt F)) (D0 : (⟨S20000x64, .f32⟩ : BufTy).Contents (Elt F))
    (x10 : (⟨S2x1000000, .i32⟩ : BufTy).Contents (Elt F)) (x11 : (⟨S1000000, .f32⟩ : BufTy).Contents (Elt F))
    (x12 : (⟨S2x1000000, .i32⟩ : BufTy).Contents (Elt F)) (x13 : (⟨S1000000, .f32⟩ : BufTy).Contents (Elt F)) :
    aggS (F := F) S0 D0 x10 x11 x12 x13
      = Host.divf (addf S0 (Host.scatterAdd scatter_S50000x64_S2000000x1_S2000000x64_1_0_0_1 zeroS (kIdx x10 x12) (kUpd D0 x10 x11 x12 x13))) threeS := rfl

theorem refAggS_unfold (S0 : (⟨S50000x64, .f32⟩ : BufTy).Contents (Elt F)) (D0 : (⟨S20000x64, .f32⟩ : BufTy).Contents (Elt F))
    (x10 : (⟨S2x1000000, .i32⟩ : BufTy).Contents (Elt F)) (x11 : (⟨S1000000, .f32⟩ : BufTy).Contents (Elt F))
    (x12 : (⟨S2x1000000, .i32⟩ : BufTy).Contents (Elt F)) (x13 : (⟨S1000000, .f32⟩ : BufTy).Contents (Elt F)) :
    refAggS S0 D0 x10 x11 x12 x13
      = Host.divf
          (addf
            (addf S0 (Host.scatterAdd Cert.ReferenceIdeal.scatter_S50000x64_S1000000x1_S1000000x64_1_0_0_1 zeroS (val_main_v35 (F := F) x10) (rUpdA D0 x10 x11)))
            (Host.scatterAdd Cert.ReferenceIdeal.scatter_S50000x64_S1000000x1_S1000000x64_1_0_0_1 zeroS (val_main_v53 (F := F) x12) (rUpdB D0 x12 x13)))
          threeS := rfl

theorem erow0_eq_v33 (x10 : (⟨S2x1000000, .i32⟩ : BufTy).Contents (Elt F)) : val_main_v33 (F := F) x10 = erow0 x10 := rfl
theorem erow0_eq_v51 (x12 : (⟨S2x1000000, .i32⟩ : BufTy).Contents (Elt F)) : val_main_v51 (F := F) x12 = erow0 x12 := rfl
theorem erow1_eq_v22 (x10 : (⟨S2x1000000, .i32⟩ : BufTy).Contents (Elt F)) : val_main_v22 (F := F) x10 = erow1 x10 := rfl
theorem erow1_eq_v40 (x12 : (⟨S2x1000000, .i32⟩ : BufTy).Contents (Elt F)) : val_main_v40 (F := F) x12 = erow1 x12 := rfl

/-! ## Rows of the kernel's tables -/

/-- A row of a broadcast two-piece concatenation below the first piece's length is the first piece's. -/
theorem bcast_cat_left {α : Type} (a b : (⟨1, ![1000000]⟩ : Shape).Idx → α)
    (hc : Shape.Concatenates [(⟨1, ![1000000]⟩ : Shape), ⟨1, ![1000000]⟩] ⟨1, ![2000000]⟩ 0)
    (hb : (⟨1, ![2000000]⟩ : Shape).BroadcastsInDim ⟨2, ![2000000, 1]⟩ ![0])
    (e : Fin 1000000) (h : e.val < 2000000) :
    broadcastInDim ⟨2, ![2000000, 1]⟩ ![0] hb
        (concatenate ⟨1, ![2000000]⟩ 0 [⟨⟨1, ![1000000]⟩, a⟩, ⟨⟨1, ![1000000]⟩, b⟩] hc) (ix2 ⟨e.val, h⟩ 0)
      = a (ix1 e) :=
  (Cert.Lib.bcast_col_apply ![0] rfl hb _ ⟨e.val, h⟩ 0).trans (Cert.Lib.concat_vec_left a b hc e h)

/-- From the first piece's length on it is the second piece's. -/
theorem bcast_cat_right {α : Type} (a b : (⟨1, ![1000000]⟩ : Shape).Idx → α)
    (hc : Shape.Concatenates [(⟨1, ![1000000]⟩ : Shape), ⟨1, ![1000000]⟩] ⟨1, ![2000000]⟩ 0)
    (hb : (⟨1, ![2000000]⟩ : Shape).BroadcastsInDim ⟨2, ![2000000, 1]⟩ ![0])
    (e : Fin 1000000) (h : 1000000 + e.val < 2000000) :
    broadcastInDim ⟨2, ![2000000, 1]⟩ ![0] hb
        (concatenate ⟨1, ![2000000]⟩ 0 [⟨⟨1, ![1000000]⟩, a⟩, ⟨⟨1, ![1000000]⟩, b⟩] hc) (ix2 ⟨1000000 + e.val, h⟩ 0)
      = b (ix1 e) :=
  (Cert.Lib.bcast_col_apply ![0] rfl hb _ ⟨1000000 + e.val, h⟩ 0).trans (Cert.Lib.concat_vec_right a b hc e h)

theorem kIdx_left (x10 x12 : (⟨S2x1000000, .i32⟩ : BufTy).Contents (Elt F)) (e : Fin 1000000) (h : e.val < 2000000) :
    kIdx x10 x12 (ix2 ⟨e.val, h⟩ 0) = erow0 x10 (ix1 e) :=
  bcast_cat_left (erow0 x10) (erow0 x12) _ _ e h

theorem kIdx_right (x10 x12 : (⟨S2x1000000, .i32⟩ : BufTy).Contents (Elt F)) (e : Fin 1000000) (h : 1000000 + e.val < 2000000) :
    kIdx x10 x12 (ix2 ⟨1000000 + e.val, h⟩ 0) = erow0 x12 (ix1 e) :=
  bcast_cat_right (erow0 x10) (erow0 x12) _ _ e h

/-- The wrap of a negative index, read at an index. -/
theorem wrapE_apply (n : BitVec 32) (x : (⟨S2000000, .i32⟩ : BufTy).Contents (Elt F)) (j : S2000000.Idx) :
    wrapE (F := F) n x j = Scalar.select (IntOp.cmpi .slt (x j) 0#32) (IntOp.addi (x j) n) (x j) := by
  show Scalar.select (IntOp.cmpi .slt (x j) (broadcastInDim S2000000 ![] bcast_S_S2000000 (constantI S_ 32 0#32) j))
      (IntOp.addi (x j) (broadcastInDim S2000000 ![] bcast_S_S2000000 (constantI S_ 32 n) j)) (x j) = _
  rw [Cert.Lib.bcast_scalar_apply, Cert.Lib.bcast_scalar_apply]
  rfl

theorem kSrc_left (x10 x12 : (⟨S2x1000000, .i32⟩ : BufTy).Contents (Elt F)) (e : Fin 1000000) (h : e.val < 2000000) :
    kSrc x10 x12 (ix2 ⟨e.val, h⟩ 0)
      = Scalar.select (IntOp.cmpi .slt (erow1 x10 (ix1 e)) 0#32) (IntOp.addi (erow1 x10 (ix1 e)) 20000#32)
          (erow1 x10 (ix1 e)) := by
  have h1 : kSrc x10 x12 (ix2 ⟨e.val, h⟩ 0) = wrapE (F := F) 20000#32 (catI (erow1 x10) (erow1 x12)) (ix1 ⟨e.val, h⟩) :=
    Cert.Lib.bcast_col_apply ![0] rfl bcast_S2000000_S2000000x1_0 _ ⟨e.val, h⟩ 0
  have h2 : catI (erow1 x10) (erow1 x12) (ix1 ⟨e.val, h⟩) = erow1 x10 (ix1 e) :=
    Cert.Lib.concat_vec_left (erow1 x10) (erow1 x12) _ e h
  rw [h1, wrapE_apply, h2]

theorem kSrc_right (x10 x12 : (⟨S2x1000000, .i32⟩ : BufTy).Contents (Elt F)) (e : Fin 1000000) (h : 1000000 + e.val < 2000000) :
    kSrc x10 x12 (ix2 ⟨1000000 + e.val, h⟩ 0)
      = Scalar.select (IntOp.cmpi .slt (erow1 x12 (ix1 e)) 0#32) (IntOp.addi (erow1 x12 (ix1 e)) 20000#32)
          (erow1 x12 (ix1 e)) := by
  have h1 : kSrc x10 x12 (ix2 ⟨1000000 + e.val, h⟩ 0)
      = wrapE (F := F) 20000#32 (catI (erow1 x10) (erow1 x12)) (ix1 ⟨1000000 + e.val, h⟩) :=
    Cert.Lib.bcast_col_apply ![0] rfl bcast_S2000000_S2000000x1_0 _ ⟨1000000 + e.val, h⟩ 0
  have h2 : catI (erow1 x10) (erow1 x12) (ix1 ⟨1000000 + e.val, h⟩) = erow1 x12 (ix1 e) :=
    Cert.Lib.concat_vec_right (erow1 x10) (erow1 x12) _ e h
  rw [h1, wrapE_apply, h2]

theorem kWgt_left (x11 x13 : (⟨S1000000, .f32⟩ : BufTy).Contents (Elt F)) (e : Fin 1000000) (h : e.val < 2000000) (k : Fin 64) :
    kWgt x11 x13 (ix2 ⟨e.val, h⟩ k) = x11 (ix1 e) :=
  (Cert.Lib.bcast_cols_apply ![0, 1] rfl rfl bcast_S2000000x1_S2000000x64_0_1 _ ⟨e.val, h⟩ k).trans
    (bcast_cat_left x11 x13 _ _ e h)

theorem kWgt_right (x11 x13 : (⟨S1000000, .f32⟩ : BufTy).Contents (Elt F)) (e : Fin 1000000) (h : 1000000 + e.val < 2000000) (k : Fin 64) :
    kWgt x11 x13 (ix2 ⟨1000000 + e.val, h⟩ k) = x13 (ix1 e) :=
  (Cert.Lib.bcast_cols_apply ![0, 1] rfl rfl bcast_S2000000x1_S2000000x64_0_1 _ ⟨1000000 + e.val, h⟩ k).trans
    (bcast_cat_right x11 x13 _ _ e h)

/-! ## Rows of the reference's tables -/

theorem v35_row (x10 : (⟨S2x1000000, .i32⟩ : BufTy).Contents (Elt F)) (e : Fin 1000000) :
    val_main_v35 (F := F) x10 (ix2 e 0) = erow0 x10 (ix1 e) :=
  Cert.Lib.bcast_col_apply ![0] rfl Cert.ReferenceIdeal.Gen.bcast_S1000000_S1000000x1_0 (erow0 x10) e 0

theorem v53_row (x12 : (⟨S2x1000000, .i32⟩ : BufTy).Contents (Elt F)) (e : Fin 1000000) :
    val_main_v53 (F := F) x12 (ix2 e 0) = erow0 x12 (ix1 e) :=
  Cert.Lib.bcast_col_apply ![0] rfl Cert.ReferenceIdeal.Gen.bcast_S1000000_S1000000x1_0 (erow0 x12) e 0

theorem v28_row (x10 : (⟨S2x1000000, .i32⟩ : BufTy).Contents (Elt F)) (e : Fin 1000000) :
    val_main_v28 (F := F) x10 (ix2 e 0)
      = Scalar.select (IntOp.cmpi .slt (erow1 x10 (ix1 e)) 0#32) (IntOp.addi (erow1 x10 (ix1 e)) 20000#32)
          (erow1 x10 (ix1 e)) := by
  have h1 : val_main_v28 (F := F) x10 (ix2 e 0) = val_main_v27 (F := F) x10 (ix1 e) :=
    Cert.Lib.bcast_col_apply ![0] rfl Cert.ReferenceIdeal.Gen.bcast_S1000000_S1000000x1_0 _ e 0
  rw [h1, val_main_v27_apply, val_main_v24_apply, val_main_v26_apply, val_main_v23_apply, val_main_v25_apply]
  rfl

theorem v46_row (x12 : (⟨S2x1000000, .i32⟩ : BufTy).Contents (Elt F)) (e : Fin 1000000) :
    val_main_v46 (F := F) x12 (ix2 e 0)
      = Scalar.select (IntOp.cmpi .slt (erow1 x12 (ix1 e)) 0#32) (IntOp.addi (erow1 x12 (ix1 e)) 20000#32)
          (erow1 x12 (ix1 e)) := by
  have h1 : val_main_v46 (F := F) x12 (ix2 e 0) = val_main_v45 (F := F) x12 (ix1 e) :=
    Cert.Lib.bcast_col_apply ![0] rfl Cert.ReferenceIdeal.Gen.bcast_S1000000_S1000000x1_0 _ e 0
  rw [h1, val_main_v45_apply, val_main_v42_apply, val_main_v44_apply, val_main_v41_apply, val_main_v43_apply]
  rfl

theorem v30_row (x11 : (⟨S1000000, .f32⟩ : BufTy).Contents (Elt F)) (e : Fin 1000000) (k : Fin 64) :
    val_main_v30 (F := F) x11 (ix2 e k) = x11 (ix1 e) :=
  (Cert.Lib.bcast_cols_apply ![0, 1] rfl rfl Cert.ReferenceIdeal.Gen.bcast_S1000000x1_S1000000x64_0_1 _ e k).trans
    (Cert.Lib.bcast_col_apply ![0] rfl Cert.ReferenceIdeal.Gen.bcast_S1000000_S1000000x1_0 x11 e 0)

theorem v48_row (x13 : (⟨S1000000, .f32⟩ : BufTy).Contents (Elt F)) (e : Fin 1000000) (k : Fin 64) :
    val_main_v48 (F := F) x13 (ix2 e k) = x13 (ix1 e) :=
  (Cert.Lib.bcast_cols_apply ![0, 1] rfl rfl Cert.ReferenceIdeal.Gen.bcast_S1000000x1_S1000000x64_0_1 _ e k).trans
    (Cert.Lib.bcast_col_apply ![0] rfl Cert.ReferenceIdeal.Gen.bcast_S1000000_S1000000x1_0 x13 e 0)

/-! ## The update rows agree -/

theorem kUpd_left (D0 : (⟨S20000x64, .f32⟩ : BufTy).Contents (Elt F)) (x10 : (⟨S2x1000000, .i32⟩ : BufTy).Contents (Elt F)) (x11 : (⟨S1000000, .f32⟩ : BufTy).Contents (Elt F))
    (x12 : (⟨S2x1000000, .i32⟩ : BufTy).Contents (Elt F)) (x13 : (⟨S1000000, .f32⟩ : BufTy).Contents (Elt F)) (e : Fin 1000000) (h : e.val < 2000000) (k : Fin 64) :
    kUpd D0 x10 x11 x12 x13 (ix2 ⟨e.val, h⟩ k) = rUpdA D0 x10 x11 (ix2 e k) := by
  show FloatOps.mulf (kWgt x11 x13 (ix2 ⟨e.val, h⟩ k)) (Host.gather gather_S20000x64_S2000000x1_S2000000x64_1_0_n_n_0_1_164 D0 (kSrc x10 x12) (ix2 ⟨e.val, h⟩ k))
    = FloatOps.mulf (val_main_v30 (F := F) x11 (ix2 e k)) (Host.gather Cert.ReferenceIdeal.gather_S20000x64_S1000000x1_S1000000x64_1_0_n_n_0_1_164 D0 (val_main_v28 (F := F) x10) (ix2 e k))
  rw [kWgt_left, v30_row]
  rw [Cert.Lib.rowGather_congr gather_S20000x64_S2000000x1_S2000000x64_1_0_n_n_0_1_164 Cert.ReferenceIdeal.gather_S20000x64_S1000000x1_S1000000x64_1_0_n_n_0_1_164 rfl rfl rfl rfl rfl rfl rfl rfl rfl rfl rfl rfl rfl rfl D0
    (kSrc x10 x12) (val_main_v28 (F := F) x10) ⟨e.val, h⟩ e k ((kSrc_left x10 x12 e h).trans (v28_row x10 e).symm)]

theorem kUpd_right (D0 : (⟨S20000x64, .f32⟩ : BufTy).Contents (Elt F)) (x10 : (⟨S2x1000000, .i32⟩ : BufTy).Contents (Elt F)) (x11 : (⟨S1000000, .f32⟩ : BufTy).Contents (Elt F))
    (x12 : (⟨S2x1000000, .i32⟩ : BufTy).Contents (Elt F)) (x13 : (⟨S1000000, .f32⟩ : BufTy).Contents (Elt F)) (e : Fin 1000000) (h : 1000000 + e.val < 2000000)
    (k : Fin 64) :
    kUpd D0 x10 x11 x12 x13 (ix2 ⟨1000000 + e.val, h⟩ k) = rUpdB D0 x12 x13 (ix2 e k) := by
  show FloatOps.mulf (kWgt x11 x13 (ix2 ⟨1000000 + e.val, h⟩ k))
      (Host.gather gather_S20000x64_S2000000x1_S2000000x64_1_0_n_n_0_1_164 D0 (kSrc x10 x12) (ix2 ⟨1000000 + e.val, h⟩ k))
    = FloatOps.mulf (val_main_v48 (F := F) x13 (ix2 e k)) (Host.gather Cert.ReferenceIdeal.gather_S20000x64_S1000000x1_S1000000x64_1_0_n_n_0_1_164 D0 (val_main_v46 (F := F) x12) (ix2 e k))
  rw [kWgt_right, v48_row]
  rw [Cert.Lib.rowGather_congr gather_S20000x64_S2000000x1_S2000000x64_1_0_n_n_0_1_164 Cert.ReferenceIdeal.gather_S20000x64_S1000000x1_S1000000x64_1_0_n_n_0_1_164 rfl rfl rfl rfl rfl rfl rfl rfl rfl rfl rfl rfl rfl rfl D0
    (kSrc x10 x12) (val_main_v46 (F := F) x12) ⟨1000000 + e.val, h⟩ e k
    ((kSrc_right x10 x12 e h).trans (v46_row x12 e).symm)]

/-- The float zero table is the number zero everywhere. -/
theorem zeroS_apply (i : S50000x64.Idx) : zeroS (F := Ideal) i = (0 : EReal) :=
  (Cert.Lib.bcast_scalar_apply _ bcast_S_S50000x64 (constant (F := Ideal) S_ .f32 0x00000000#32) i).trans Ideal.ofBits_zero_f32

/-! ## The aggregation -/

/-- With a zero table to scatter into, adding one scatter-add of both lists onto a table is adding the two lists'
    scatter-adds one after the other: the float zero is the number zero and addition is associative. -/
theorem agg_assoc {s siK uK siR uR : Shape} {w : Nat} (dK : ScatterDims s siK uK) (dR : ScatterDims s siR uR)
    (S0 Z T : FVec Ideal s .f32) (iK : IVec siK w) (uK' : FVec Ideal uK .f32) (iA iB : IVec siR w)
    (uA uB : FVec Ideal uR .f32) (hZ : ∀ i, Z i = (0 : EReal))
    (hsc : Ideal.hostScatterAdd dK Z iK uK' = Ideal.hostScatterAdd dR (Ideal.hostScatterAdd dR Z iA uA) iB uB) :
    Host.divf (addf S0 (Host.scatterAdd dK Z iK uK')) T
      = Host.divf (addf (addf S0 (Host.scatterAdd dR Z iA uA)) (Host.scatterAdd dR Z iB uB)) T := by
  funext i
  show Ideal.div (S0 i + Ideal.hostScatterAdd dK Z iK uK' i) (T i)
    = Ideal.div ((S0 i + Ideal.hostScatterAdd dR Z iA uA i) + Ideal.hostScatterAdd dR Z iB uB i) (T i)
  rw [hsc]
  congr 1
  show S0 i + ((Z i + _) + _) = (S0 i + (Z i + _)) + (Z i + _)
  rw [hZ i, zero_add, zero_add, add_assoc]
/-- The kernel's one scatter-add is the reference's second scatter-add into its first. -/
theorem scatter_concat (D0 : (⟨S20000x64, .f32⟩ : BufTy).Contents (Elt Ideal)) (x10 : (⟨S2x1000000, .i32⟩ : BufTy).Contents (Elt Ideal)) (x11 : (⟨S1000000, .f32⟩ : BufTy).Contents (Elt Ideal))
    (x12 : (⟨S2x1000000, .i32⟩ : BufTy).Contents (Elt Ideal)) (x13 : (⟨S1000000, .f32⟩ : BufTy).Contents (Elt Ideal)) :
    Ideal.hostScatterAdd scatter_S50000x64_S2000000x1_S2000000x64_1_0_0_1 (zeroS (F := Ideal)) (kIdx x10 x12) (kUpd D0 x10 x11 x12 x13)
      = Ideal.hostScatterAdd Cert.ReferenceIdeal.scatter_S50000x64_S1000000x1_S1000000x64_1_0_0_1
          (Ideal.hostScatterAdd Cert.ReferenceIdeal.scatter_S50000x64_S1000000x1_S1000000x64_1_0_0_1 (zeroS (F := Ideal)) (val_main_v35 (F := Ideal) x10) (rUpdA D0 x10 x11))
          (val_main_v53 (F := Ideal) x12) (rUpdB D0 x12 x13) :=
  Cert.Lib.hostScatterAdd_rows_concat (NA := 1000000) (NB := 1000000) (by norm_num)
    scatter_S50000x64_S2000000x1_S2000000x64_1_0_0_1 Cert.ReferenceIdeal.scatter_S50000x64_S1000000x1_S1000000x64_1_0_0_1 Cert.ReferenceIdeal.scatter_S50000x64_S1000000x1_S1000000x64_1_0_0_1 rfl rfl rfl rfl rfl rfl rfl rfl rfl rfl rfl rfl
    (zeroS (F := Ideal)) (kIdx x10 x12) (val_main_v35 (F := Ideal) x10) (val_main_v53 (F := Ideal) x12)
    (kUpd D0 x10 x11 x12 x13) (rUpdA D0 x10 x11) (rUpdB D0 x12 x13)
    (fun e => (kIdx_left x10 x12 e _).trans (v35_row x10 e).symm)
    (fun e => (kIdx_right x10 x12 e _).trans (v53_row x12 e).symm)
    (fun e k => kUpd_left D0 x10 x11 x12 x13 e _ k)
    (fun e k => kUpd_right D0 x10 x11 x12 x13 e _ k)

/-- The kernel's aggregated proficiency table is the reference's, for any two projected tables. -/
theorem aggS_eq_refAggS (S0 : (⟨S50000x64, .f32⟩ : BufTy).Contents (Elt Ideal)) (D0 : (⟨S20000x64, .f32⟩ : BufTy).Contents (Elt Ideal))
    (x10 : (⟨S2x1000000, .i32⟩ : BufTy).Contents (Elt Ideal)) (x11 : (⟨S1000000, .f32⟩ : BufTy).Contents (Elt Ideal))
    (x12 : (⟨S2x1000000, .i32⟩ : BufTy).Contents (Elt Ideal)) (x13 : (⟨S1000000, .f32⟩ : BufTy).Contents (Elt Ideal)) :
    aggS (F := Ideal) S0 D0 x10 x11 x12 x13 = refAggS (F := Ideal) S0 D0 x10 x11 x12 x13 :=
  (aggS_unfold S0 D0 x10 x11 x12 x13).trans
    ((agg_assoc scatter_S50000x64_S2000000x1_S2000000x64_1_0_0_1 Cert.ReferenceIdeal.scatter_S50000x64_S1000000x1_S1000000x64_1_0_0_1 S0 (zeroS (F := Ideal)) (threeS (F := Ideal)) (kIdx x10 x12) (kUpd D0 x10 x11 x12 x13)
        (val_main_v35 (F := Ideal) x10) (val_main_v53 (F := Ideal) x12) (rUpdA D0 x10 x11) (rUpdB D0 x12 x13)
        zeroS_apply (scatter_concat D0 x10 x11 x12 x13)).trans
      (refAggS_unfold S0 D0 x10 x11 x12 x13).symm)

end AggStat

open AggStat in
/-- The kernel's aggregated proficiency table, from the reference's two projected tables, is the reference's stage. -/
theorem aggS_ref (x0 : (⟨Cert.ReferenceIdeal.S50000x64, .f32⟩ : BufTy).Contents (Elt Ideal)) (x1 : (⟨Cert.ReferenceIdeal.S20000x64, .f32⟩ : BufTy).Contents (Elt Ideal)) (x2 : (⟨Cert.ReferenceIdeal.S64x64, .f32⟩ : BufTy).Contents (Elt Ideal))
    (x10 : (⟨Cert.ReferenceIdeal.S2x1000000, .i32⟩ : BufTy).Contents (Elt Ideal)) (x11 : (⟨Cert.ReferenceIdeal.S1000000, .f32⟩ : BufTy).Contents (Elt Ideal))
    (x12 : (⟨Cert.ReferenceIdeal.S2x1000000, .i32⟩ : BufTy).Contents (Elt Ideal)) (x13 : (⟨Cert.ReferenceIdeal.S1000000, .f32⟩ : BufTy).Contents (Elt Ideal)) :
    aggS (F := Ideal) (val_main_v6 (F := Ideal) x0 x2) (val_main_v13 (F := Ideal) x1 x2) x10 x11 x12 x13
      = val_main_v57 (F := Ideal) x0 x1 x2 x10 x11 x12 x13 :=
  (aggS_eq_refAggS (val_main_v6 (F := Ideal) x0 x2) (val_main_v13 (F := Ideal) x1 x2) x10 x11 x12 x13).trans
    (val_main_v57_eq_refAggS x0 x1 x2 x10 x11 x12 x13).symm

end Cert.KernelIdeal.Bridge
-- ==== Proof.AggDiff.lean ====
/-
  The kernel's aggregated difficulty table is the reference's.

  The kernel lists the edges of both relations one after the other and adds every weighted source row onto its
  destination row in one accumulating scatter; the reference does one accumulating scatter per relation and adds the two
  results. Row by row the concatenated index and update tables are the first relation's followed by the second's, so the
  one scatter is the second relation's scatter into the first's; what is left is that the float zero is the extended
  real zero and that addition of extended reals is associative.
-/
import proofs.«124065_j91044716740748_2_alg».proof.Proof.KernelHostDefs
import proofs.«124065_j91044716740748_2_alg».proof.Proof.LibRowScatter
import proofs.«124065_j91044716740748_2_alg».proof.Proof.LibHostReads
import proofs.«124065_j91044716740748_2_alg».proof.Proof.AggStat
import proofs.«124065_j91044716740748_2_alg».proof.Proof.Gen.ReferenceIdeal.Read

noncomputable section

open scoped BigOperators

namespace Cert.KernelIdeal.Bridge

open Cert.KernelIdeal Cert.KernelIdeal.Facts₀ Idealize.ShloMosaic Idealize.ShloMosaic.ValueIdx Cert.ReferenceIdeal.Read

namespace AggDiff

/-- A float table of shape `s` at the ideal values. -/
abbrev TF (s : Shape) : Type := (⟨s, .f32⟩ : BufTy).Contents (Elt Ideal)
/-- An index table of shape `s`. -/
abbrev TI (s : Shape) : Type := (⟨s, .i32⟩ : BufTy).Contents (Elt Ideal)

/-- The reference's row scatter of one relation. -/
abbrev dR := Cert.ReferenceIdeal.scatter_S20000x64_S1000000x1_S1000000x64_1_0_0_1
/-- The reference's row gather of one relation. -/
abbrev gR := Cert.ReferenceIdeal.gather_S50000x64_S1000000x1_S1000000x64_1_0_n_n_0_1_164
/-- The kernel's row scatter of both relations. -/
abbrev dK := scatter_S20000x64_S2000000x1_S2000000x64_1_0_0_1
/-- The kernel's row gather of both relations. -/
abbrev gK := gather_S50000x64_S2000000x1_S2000000x64_1_0_n_n_0_1_164

/-- The table of float zeros both programs scatter into. -/
abbrev zK : TF S20000x64 := broadcastInDim S20000x64 ![] bcast_S_S20000x64 (constant (F := Ideal) S_ .f32 0x00000000#32)
/-- The table of threes both programs divide by. -/
abbrev threeK : TF S20000x64 := broadcastInDim S20000x64 ![] bcast_S_S20000x64 (constant (F := Ideal) S_ .f32 0x40400000#32)

/-- The kernel's destination rows: both relations' destinations, as a one-column table. -/
abbrev idxK (x14 x16 : TI S2x1000000) : TI S2000000x1 :=
  broadcastInDim S2000000x1 ![0] bcast_S2000000_S2000000x1_0 (catI (erow0 x14) (erow0 x16))
/-- The kernel's wrapped source rows, as a one-column table. -/
abbrev srcK (x14 x16 : TI S2x1000000) : TI S2000000x1 :=
  broadcastInDim S2000000x1 ![0] bcast_S2000000_S2000000x1_0 (wrapE 50000#32 (catI (erow1 x14) (erow1 x16)))
/-- The kernel's updates: each edge's weight times its source row. -/
abbrev updK (S0 : TF S50000x64) (x14 : TI S2x1000000) (x15 : TF S1000000) (x16 : TI S2x1000000) (x17 : TF S1000000) :
    TF S2000000x64 :=
  mulf (F := Ideal) (φ := .f32)
    (broadcastInDim S2000000x64 ![0, 1] bcast_S2000000x1_S2000000x64_0_1
      (broadcastInDim S2000000x1 ![0] bcast_S2000000_S2000000x1_0 (catF x15 x17)))
    (Host.gather gK S0 (srcK x14 x16))
/-- The reference's updates of the first relation. -/
abbrev updA (S0 : TF S50000x64) (x14 : TI S2x1000000) (x15 : TF S1000000) : TF Cert.ReferenceIdeal.S1000000x64 :=
  mulf (F := Ideal) (φ := .f32) (val_main_v68 (F := Ideal) x15) (Host.gather gR S0 (val_main_v66 (F := Ideal) x14))
/-- The reference's updates of the second relation. -/
abbrev updB (S0 : TF S50000x64) (x16 : TI S2x1000000) (x17 : TF S1000000) : TF Cert.ReferenceIdeal.S1000000x64 :=
  mulf (F := Ideal) (φ := .f32) (val_main_v86 (F := Ideal) x17) (Host.gather gR S0 (val_main_v84 (F := Ideal) x16))

/-- The reference's aggregation of the difficulty table over arbitrary projected tables. -/
def refAggD (S0 : TF S50000x64) (D0 : TF S20000x64) (x14 : TI S2x1000000) (x15 : TF S1000000) (x16 : TI S2x1000000)
    (x17 : TF S1000000) : TF S20000x64 :=
  Host.divf (F := Ideal) (φ := .f32)
    (addf (F := Ideal) (φ := .f32)
      (addf (F := Ideal) (φ := .f32) D0 (Host.scatterAdd (F := Ideal) (φ := .f32) dR zK (val_main_v73 (F := Ideal) x14) (updA S0 x14 x15)))
      (Host.scatterAdd (F := Ideal) (φ := .f32) dR zK (val_main_v91 (F := Ideal) x16) (updB S0 x16 x17)))
    threeK

/-- A wrapped edge index, read at a position. -/
theorem wrapE_apply (n : BitVec 32) (x : TI S2000000) (j : S2000000.Idx) :
    wrapE (F := Ideal) n x j = Scalar.select (IntOp.cmpi .slt (x j) 0#32) (IntOp.addi (x j) n) (x j) := by
  show Scalar.select (IntOp.cmpi .slt (x j) (broadcastInDim S2000000 ![] bcast_S_S2000000 (constantI S_ 32 0#32) j))
      (IntOp.addi (x j) (broadcastInDim S2000000 ![] bcast_S_S2000000 (constantI S_ 32 n) j)) (x j) = _
  rw [Cert.Lib.bcast_scalar_apply, Cert.Lib.bcast_scalar_apply]
  rfl

/-- The reference's wrapped source index of the first relation, read at a position. -/
theorem v65_at (x14 : TI S2x1000000) (j : Cert.ReferenceIdeal.S1000000.Idx) :
    val_main_v65 (F := Ideal) x14 j
      = Scalar.select (IntOp.cmpi .slt (val_main_v60 (F := Ideal) x14 j) 0#32)
          (IntOp.addi (val_main_v60 (F := Ideal) x14 j) 50000#32) (val_main_v60 (F := Ideal) x14 j) := by
  rw [val_main_v65_apply, val_main_v62_apply, val_main_v64_apply, val_main_v61_apply, val_main_v63_apply,
    val_main_c_11_apply, val_main_c_12_apply]

/-- The reference's wrapped source index of the second relation, read at a position. -/
theorem v83_at (x16 : TI S2x1000000) (j : Cert.ReferenceIdeal.S1000000.Idx) :
    val_main_v83 (F := Ideal) x16 j
      = Scalar.select (IntOp.cmpi .slt (val_main_v78 (F := Ideal) x16 j) 0#32)
          (IntOp.addi (val_main_v78 (F := Ideal) x16 j) 50000#32) (val_main_v78 (F := Ideal) x16 j) := by
  rw [val_main_v83_apply, val_main_v80_apply, val_main_v82_apply, val_main_v79_apply, val_main_v81_apply,
    val_main_c_14_apply, val_main_c_15_apply]

/-- The destination rows below the first relation's length are the first relation's. -/
theorem hiA (x14 x16 : TI S2x1000000) (e : Fin 1000000) :
    idxK x14 x16 (ix2 ⟨e.val, by have := e.isLt; omega⟩ 0) = val_main_v73 (F := Ideal) x14 (ix2 e 0) := by
  unfold idxK
  rw [Cert.Lib.bcast_col_apply ![0] rfl]
  unfold catI
  rw [Cert.Lib.concat_vec_left]
  unfold val_main_v73
  rw [Cert.Lib.bcast_col_apply ![0] rfl]
  rfl

/-- The destination rows from the first relation's length on are the second relation's. -/
theorem hiB (x14 x16 : TI S2x1000000) (e : Fin 1000000) :
    idxK x14 x16 (ix2 ⟨1000000 + e.val, by have := e.isLt; omega⟩ 0) = val_main_v91 (F := Ideal) x16 (ix2 e 0) := by
  unfold idxK
  rw [Cert.Lib.bcast_col_apply ![0] rfl]
  unfold catI
  rw [Cert.Lib.concat_vec_right]
  unfold val_main_v91
  rw [Cert.Lib.bcast_col_apply ![0] rfl]
  rfl

/-- The wrapped source rows below the first relation's length are the first relation's. -/
theorem hsA (x14 x16 : TI S2x1000000) (e : Fin 1000000) :
    srcK x14 x16 (ix2 ⟨e.val, by have := e.isLt; omega⟩ 0) = val_main_v66 (F := Ideal) x14 (ix2 e 0) := by
  unfold srcK
  rw [Cert.Lib.bcast_col_apply ![0] rfl, wrapE_apply]
  unfold catI
  rw [Cert.Lib.concat_vec_left]
  unfold val_main_v66
  rw [Cert.Lib.bcast_col_apply ![0] rfl, v65_at]
  rfl

/-- The wrapped source rows from the first relation's length on are the second relation's. -/
theorem hsB (x14 x16 : TI S2x1000000) (e : Fin 1000000) :
    srcK x14 x16 (ix2 ⟨1000000 + e.val, by have := e.isLt; omega⟩ 0) = val_main_v84 (F := Ideal) x16 (ix2 e 0) := by
  unfold srcK
  rw [Cert.Lib.bcast_col_apply ![0] rfl, wrapE_apply]
  unfold catI
  rw [Cert.Lib.concat_vec_right]
  unfold val_main_v84
  rw [Cert.Lib.bcast_col_apply ![0] rfl, v83_at]
  rfl

/-- The update rows below the first relation's length are the first relation's. -/
theorem huA (S0 : TF S50000x64) (x14 : TI S2x1000000) (x15 : TF S1000000) (x16 : TI S2x1000000) (x17 : TF S1000000)
    (e : Fin 1000000) (k : Fin 64) :
    updK S0 x14 x15 x16 x17 (ix2 ⟨e.val, by have := e.isLt; omega⟩ k) = updA S0 x14 x15 (ix2 e k) := by
  unfold updK updA
  rw [mulf_apply, mulf_apply]
  refine congrArg₂ (fun a b : EReal => a * b) ?_ ?_
  · rw [Cert.Lib.bcast_cols_apply ![0, 1] rfl rfl, Cert.Lib.bcast_col_apply ![0] rfl]
    unfold catF
    rw [Cert.Lib.concat_vec_left]
    unfold val_main_v68 val_main_v58
    rw [Cert.Lib.bcast_cols_apply ![0, 1] rfl rfl, Cert.Lib.bcast_col_apply ![0] rfl]
  · exact Cert.Lib.rowGather_congr gK gR rfl rfl rfl rfl rfl rfl rfl rfl rfl rfl rfl rfl rfl rfl S0 (srcK x14 x16)
      (val_main_v66 (F := Ideal) x14) _ e k (hsA x14 x16 e)

/-- The update rows from the first relation's length on are the second relation's. -/
theorem huB (S0 : TF S50000x64) (x14 : TI S2x1000000) (x15 : TF S1000000) (x16 : TI S2x1000000) (x17 : TF S1000000)
    (e : Fin 1000000) (k : Fin 64) :
    updK S0 x14 x15 x16 x17 (ix2 ⟨1000000 + e.val, by have := e.isLt; omega⟩ k) = updB S0 x16 x17 (ix2 e k) := by
  unfold updK updB
  rw [mulf_apply, mulf_apply]
  refine congrArg₂ (fun a b : EReal => a * b) ?_ ?_
  · rw [Cert.Lib.bcast_cols_apply ![0, 1] rfl rfl, Cert.Lib.bcast_col_apply ![0] rfl]
    unfold catF
    rw [Cert.Lib.concat_vec_right]
    unfold val_main_v86 val_main_v76
    rw [Cert.Lib.bcast_cols_apply ![0, 1] rfl rfl, Cert.Lib.bcast_col_apply ![0] rfl]
  · exact Cert.Lib.rowGather_congr gK gR rfl rfl rfl rfl rfl rfl rfl rfl rfl rfl rfl rfl rfl rfl S0 (srcK x14 x16)
      (val_main_v84 (F := Ideal) x16) _ e k (hsB x14 x16 e)

/-- The float zero table holds the extended real zero. -/
theorem zK_apply (i : S20000x64.Idx) : zK i = 0 := by
  unfold zK
  rw [Cert.Lib.bcast_scalar_apply]
  exact Ideal.ofBits_zero_f32

/-- The one scatter of both relations is the second relation's scatter into the first's. -/
theorem scatter_split (S0 : TF S50000x64) (x14 : TI S2x1000000) (x15 : TF S1000000) (x16 : TI S2x1000000)
    (x17 : TF S1000000) :
    Ideal.hostScatterAdd dK zK (idxK x14 x16) (updK S0 x14 x15 x16 x17)
      = Ideal.hostScatterAdd dR
          (Ideal.hostScatterAdd dR zK (val_main_v73 (F := Ideal) x14) (updA S0 x14 x15))
          (val_main_v91 (F := Ideal) x16) (updB S0 x16 x17) :=
  Cert.Lib.hostScatterAdd_rows_concat (NA := 1000000) (NB := 1000000) (by norm_num) dK dR dR
    rfl rfl rfl rfl rfl rfl rfl rfl rfl rfl rfl rfl zK (idxK x14 x16) (val_main_v73 (F := Ideal) x14)
    (val_main_v91 (F := Ideal) x16) (updK S0 x14 x15 x16 x17) (updA S0 x14 x15) (updB S0 x16 x17)
    (hiA x14 x16) (hiB x14 x16) (huA S0 x14 x15 x16 x17) (huB S0 x14 x15 x16 x17)

/-- The kernel's table, spelled over the named pieces. -/
theorem aggD_unfold (S0 : TF S50000x64) (D0 : TF S20000x64) (x14 : TI S2x1000000) (x15 : TF S1000000)
    (x16 : TI S2x1000000) (x17 : TF S1000000) :
    aggD (F := Ideal) S0 D0 x14 x15 x16 x17
      = Host.divf (F := Ideal) (φ := .f32)
          (addf (F := Ideal) (φ := .f32) D0
            (Host.scatterAdd (F := Ideal) (φ := .f32) dK zK (idxK x14 x16) (updK S0 x14 x15 x16 x17)))
          threeK := rfl

/-- The kernel's aggregated difficulty table is the reference's, over arbitrary projected tables: the one scatter splits
    into the two relations' scatters, the float zero is the extended real zero and addition is associative. -/
theorem aggD_core (S0 : TF S50000x64) (D0 : TF S20000x64) (x14 : TI S2x1000000) (x15 : TF S1000000)
    (x16 : TI S2x1000000) (x17 : TF S1000000) :
    aggD (F := Ideal) S0 D0 x14 x15 x16 x17 = refAggD S0 D0 x14 x15 x16 x17 :=
  (aggD_unfold S0 D0 x14 x15 x16 x17).trans
    (AggStat.agg_assoc dK dR D0 zK threeK (idxK x14 x16) (updK S0 x14 x15 x16 x17)
      (val_main_v73 (F := Ideal) x14) (val_main_v91 (F := Ideal) x16) (updA S0 x14 x15) (updB S0 x16 x17)
      zK_apply (scatter_split S0 x14 x15 x16 x17))

/-- The reference's stage is its aggregation over the projected tables. -/
theorem v95_eq_refAggD (x0 : TF S50000x64) (x1 : TF S20000x64) (x2 : TF S64x64) (x14 : TI S2x1000000)
    (x15 : TF S1000000) (x16 : TI S2x1000000) (x17 : TF S1000000) :
    val_main_v95 (F := Ideal) x0 x1 x2 x14 x15 x16 x17
      = refAggD (val_main_v6 (F := Ideal) x0 x2) (val_main_v13 (F := Ideal) x1 x2) x14 x15 x16 x17 := rfl

end AggDiff

open AggDiff in
/-- The kernel's aggregated difficulty table over the reference's projected tables is the reference's aggregated table. -/
theorem aggD_ref (x0 : (⟨Cert.ReferenceIdeal.S50000x64, .f32⟩ : BufTy).Contents (Elt Ideal)) (x1 : (⟨Cert.ReferenceIdeal.S20000x64, .f32⟩ : BufTy).Contents (Elt Ideal))
    (x2 : (⟨Cert.ReferenceIdeal.S64x64, .f32⟩ : BufTy).Contents (Elt Ideal)) (x14 : (⟨Cert.ReferenceIdeal.S2x1000000, .i32⟩ : BufTy).Contents (Elt Ideal))
    (x15 : (⟨Cert.ReferenceIdeal.S1000000, .f32⟩ : BufTy).Contents (Elt Ideal)) (x16 : (⟨Cert.ReferenceIdeal.S2x1000000, .i32⟩ : BufTy).Contents (Elt Ideal))
    (x17 : (⟨Cert.ReferenceIdeal.S1000000, .f32⟩ : BufTy).Contents (Elt Ideal)) :
    aggD (F := Ideal) (val_main_v6 (F := Ideal) x0 x2) (val_main_v13 (F := Ideal) x1 x2) x14 x15 x16 x17
      = val_main_v95 (F := Ideal) x0 x1 x2 x14 x15 x16 x17 :=
  (aggD_core _ _ x14 x15 x16 x17).trans (v95_eq_refAggD x0 x1 x2 x14 x15 x16 x17).symm

end Cert.KernelIdeal.Bridge

end
-- ==== Proof.MlpRef.lean ====
/-
  The reference's prediction network, read as the shared specification.

  The reference computes, over 32768 rows: the input
  logistic(raw discrimination) * (proficiency - difficulty) * mask, and three layers, each a product with the
  weights clipped below at zero, plus a bias row, followed by 1 / (1 + exp (-y)). Each layer is read at an
  index from the stages' read lemmas and joined to `Cert.Spec.layer`; the gathered discrimination
  1 / (1 + exp (-arg3)) is the logistic function of the gathered raw discrimination, because a gather only
  re-indexes its operand.
-/
import proofs.«124065_j91044716740748_2_alg».proof.Proof.Gen.ReferenceIdeal.Read
import proofs.«124065_j91044716740748_2_alg».proof.Proof.Spec

noncomputable section

open scoped BigOperators

namespace Cert.ReferenceIdeal.Bridge

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-- The float constant 1.0 denotes the extended real one. -/
theorem one_f32 : Ideal.ofBits .f32 0x3F800000#32 = (1 : EReal) := IdealRules.sign_bit.ideal_onePat .f32

/-- The spelled-out sigmoid over the float constants, 1 / (1 + exp (-y)), is the logistic function. -/
theorem sig_eq (y : Ideal .f32) :
    FloatOps.hostDivf (F := Ideal) (FloatOps.ofBits .f32 0x3F800000#32)
        (FloatOps.addf (FloatOps.ofBits .f32 0x3F800000#32) (FloatOps.hostUnary .exp (FloatOps.hostNegf y)))
      = Ideal.logistic y := by
  show Ideal.div (Ideal.ofBits .f32 0x3F800000#32) (Ideal.ofBits .f32 0x3F800000#32 + Ideal.exp (-y)) = Ideal.logistic y
  rw [one_f32]
  rfl

variable (x0 : (⟨S50000x64, .f32⟩ : BufTy).Contents (Elt Ideal)) (x1 : (⟨S20000x64, .f32⟩ : BufTy).Contents (Elt Ideal)) (x2 : (⟨S64x64, .f32⟩ : BufTy).Contents (Elt Ideal)) (x3 : (⟨S20000x1, .f32⟩ : BufTy).Contents (Elt Ideal)) (x4 : (⟨S64x256, .f32⟩ : BufTy).Contents (Elt Ideal)) (x5 : (⟨S256, .f32⟩ : BufTy).Contents (Elt Ideal)) (x6 : (⟨S256x128, .f32⟩ : BufTy).Contents (Elt Ideal)) (x7 : (⟨S128, .f32⟩ : BufTy).Contents (Elt Ideal)) (x8 : (⟨S128x1, .f32⟩ : BufTy).Contents (Elt Ideal)) (x9 : (⟨S1, .f32⟩ : BufTy).Contents (Elt Ideal)) (x10 : (⟨S2x1000000, .i32⟩ : BufTy).Contents (Elt Ideal)) (x11 : (⟨S1000000, .f32⟩ : BufTy).Contents (Elt Ideal)) (x12 : (⟨S2x1000000, .i32⟩ : BufTy).Contents (Elt Ideal)) (x13 : (⟨S1000000, .f32⟩ : BufTy).Contents (Elt Ideal)) (x14 : (⟨S2x1000000, .i32⟩ : BufTy).Contents (Elt Ideal)) (x15 : (⟨S1000000, .f32⟩ : BufTy).Contents (Elt Ideal)) (x16 : (⟨S2x1000000, .i32⟩ : BufTy).Contents (Elt Ideal)) (x17 : (⟨S1000000, .f32⟩ : BufTy).Contents (Elt Ideal)) (x18 : (⟨S32768x64, .f32⟩ : BufTy).Contents (Elt Ideal)) (x19 x20 : (⟨S32768, .i32⟩ : BufTy).Contents (Elt Ideal))

/-- The raw discrimination gathered by exercise id: the reference's gather of rows with the logistic function taken off. -/
def DRAW : Cert.Spec.A2 32768 1 :=
  Host.gather gather_S20000x1_S32768x1_S32768x1_1_0_n_n_0_1_11 x3 (val_main_v101 (F := Ideal) x20)

/-- The gathered discrimination is the logistic function of the gathered raw discrimination: a gather re-indexes. -/
theorem v102_eq (i : S32768x1.Idx) :
    val_main_v102 (F := Ideal) x3 x20 i = Ideal.logistic (DRAW x3 x20 i) := by
  unfold val_main_v102 DRAW Host.gather
  rw [val_main_v19_apply, val_main_v18_apply, val_main_cst_4_apply, val_main_v17_apply, val_main_v16_apply, val_main_cst_3_apply, val_main_v15_apply, val_main_v14_apply]
  exact sig_eq _

/-- The network's input: logistic(raw discrimination) * (proficiency - difficulty) * mask. -/
theorem v120_eq :
    val_main_v120 (F := Ideal) x0 x1 x2 x3 x10 x11 x12 x13 x14 x15 x16 x17 x18 x19 x20
      = Cert.Spec.mlpIn (val_main_v109 (F := Ideal) x0 x1 x2 x10 x11 x12 x13 x19) (val_main_v116 (F := Ideal) x0 x1 x2 x14 x15 x16 x17 x20) x18 (DRAW x3 x20) := by
  funext i
  rw [val_main_v120_apply, val_main_v119_apply, val_main_v118_apply, val_main_v117_apply, v102_eq]
  have hi : idx_main_v118 i = ix2 (i 0) (0 : Fin 1) := by
    funext a; match a with
    | ⟨0, _⟩ => rfl
    | ⟨1, _⟩ => rfl
  rw [hi]
  rfl

/-- One layer read at an index, over an arbitrary input table: the contraction against the clipped weights plus the
    broadcast bias, under the logistic function, is `Cert.Spec.layer` there. -/
theorem v131_eq_core (A : (⟨S32768x64, .f32⟩ : BufTy).Contents (Elt Ideal)) (W : (⟨S64x256, .f32⟩ : BufTy).Contents (Elt Ideal)) (b : (⟨S256, .f32⟩ : BufTy).Contents (Elt Ideal)) (i : S32768x256.Idx) :
    Ideal.logistic (FloatOps.addf (F := Ideal) (φ := .f32)
        (∑ k : Fin 64, A (lidx_main_v122 i k) * val_main_v121 (F := Ideal) W (ridx_main_v122 i k))
        (b (idx_main_v123 (idx_main_v124 i))))
      = Cert.Spec.layer A W (fun i => b (ix1 (i 1))) i := by
  unfold Cert.Spec.layer
  congr 1
  congr 1
  · refine Finset.sum_congr rfl fun k _ => ?_
    rw [val_main_v121_apply, val_main_call0_v0_apply, val_main_call0_cst_apply]
    have hl : lidx_main_v122 i k = ix2 (i 0) k := by
      funext a; match a with
      | ⟨0, _⟩ => rfl
      | ⟨1, _⟩ => rfl
    have hr : ridx_main_v122 i k = ix2 k (i 1) := by
      funext a; match a with
      | ⟨0, _⟩ => rfl
      | ⟨1, _⟩ => rfl
    rw [hl, hr]
    rfl
  · show b (idx_main_v123 (idx_main_v124 i)) = b (ix1 ((ix2 (0 : Fin 1) (i 1)) 1))
    congr 1
    funext a; match a with
    | ⟨0, _⟩ => rfl

/-- The first layer: 64 inputs, 256 outputs. -/
theorem v131_eq :
    val_main_v131 (F := Ideal) x0 x1 x2 x3 x4 x5 x10 x11 x12 x13 x14 x15 x16 x17 x18 x19 x20 = Cert.Spec.layer (val_main_v120 (F := Ideal) x0 x1 x2 x3 x10 x11 x12 x13 x14 x15 x16 x17 x18 x19 x20) x4 (fun i => x5 (ix1 (i 1))) := by
  funext i
  rw [val_main_v131_apply, val_main_v130_apply, val_main_cst_25_apply, val_main_v129_apply, val_main_v128_apply, val_main_cst_24_apply, val_main_v127_apply, val_main_v126_apply, val_main_v125_apply, val_main_v124_apply, val_main_v123_apply, val_main_v122_apply, sig_eq]
  exact v131_eq_core _ x4 x5 i

/-- One layer read at an index, over an arbitrary input table: the contraction against the clipped weights plus the
    broadcast bias, under the logistic function, is `Cert.Spec.layer` there. -/
theorem v142_eq_core (A : (⟨S32768x256, .f32⟩ : BufTy).Contents (Elt Ideal)) (W : (⟨S256x128, .f32⟩ : BufTy).Contents (Elt Ideal)) (b : (⟨S128, .f32⟩ : BufTy).Contents (Elt Ideal)) (i : S32768x128.Idx) :
    Ideal.logistic (FloatOps.addf (F := Ideal) (φ := .f32)
        (∑ k : Fin 256, A (lidx_main_v133 i k) * val_main_v132 (F := Ideal) W (ridx_main_v133 i k))
        (b (idx_main_v134 (idx_main_v135 i))))
      = Cert.Spec.layer A W (fun i => b (ix1 (i 1))) i := by
  unfold Cert.Spec.layer
  congr 1
  congr 1
  · refine Finset.sum_congr rfl fun k _ => ?_
    rw [val_main_v132_apply, val_main_call1_v0_apply, val_main_call1_cst_apply]
    have hl : lidx_main_v133 i k = ix2 (i 0) k := by
      funext a; match a with
      | ⟨0, _⟩ => rfl
      | ⟨1, _⟩ => rfl
    have hr : ridx_main_v133 i k = ix2 k (i 1) := by
      funext a; match a with
      | ⟨0, _⟩ => rfl
      | ⟨1, _⟩ => rfl
    rw [hl, hr]
    rfl
  · show b (idx_main_v134 (idx_main_v135 i)) = b (ix1 ((ix2 (0 : Fin 1) (i 1)) 1))
    congr 1
    funext a; match a with
    | ⟨0, _⟩ => rfl

/-- The second layer: 256 inputs, 128 outputs. -/
theorem v142_eq :
    val_main_v142 (F := Ideal) x0 x1 x2 x3 x4 x5 x6 x7 x10 x11 x12 x13 x14 x15 x16 x17 x18 x19 x20 = Cert.Spec.layer (val_main_v131 (F := Ideal) x0 x1 x2 x3 x4 x5 x10 x11 x12 x13 x14 x15 x16 x17 x18 x19 x20) x6 (fun i => x7 (ix1 (i 1))) := by
  funext i
  rw [val_main_v142_apply, val_main_v141_apply, val_main_cst_27_apply, val_main_v140_apply, val_main_v139_apply, val_main_cst_26_apply, val_main_v138_apply, val_main_v137_apply, val_main_v136_apply, val_main_v135_apply, val_main_v134_apply, val_main_v133_apply, sig_eq]
  exact v142_eq_core _ x6 x7 i

/-- One layer read at an index, over an arbitrary input table: the contraction against the clipped weights plus the
    broadcast bias, under the logistic function, is `Cert.Spec.layer` there. -/
theorem v153_eq_core (A : (⟨S32768x128, .f32⟩ : BufTy).Contents (Elt Ideal)) (W : (⟨S128x1, .f32⟩ : BufTy).Contents (Elt Ideal)) (b : (⟨S1, .f32⟩ : BufTy).Contents (Elt Ideal)) (i : S32768x1.Idx) :
    Ideal.logistic (FloatOps.addf (F := Ideal) (φ := .f32)
        (∑ k : Fin 128, A (lidx_main_v144 i k) * val_main_v143 (F := Ideal) W (ridx_main_v144 i k))
        (b (idx_main_v145 (idx_main_v146 i))))
      = Cert.Spec.layer A W (fun i => b (ix1 (i 1))) i := by
  unfold Cert.Spec.layer
  congr 1
  congr 1
  · refine Finset.sum_congr rfl fun k _ => ?_
    rw [val_main_v143_apply, val_main_call2_v0_apply, val_main_call2_cst_apply]
    have hl : lidx_main_v144 i k = ix2 (i 0) k := by
      funext a; match a with
      | ⟨0, _⟩ => rfl
      | ⟨1, _⟩ => rfl
    have hr : ridx_main_v144 i k = ix2 k (i 1) := by
      funext a; match a with
      | ⟨0, _⟩ => rfl
      | ⟨1, _⟩ => rfl
    rw [hl, hr]
    rfl
  · show b (idx_main_v145 (idx_main_v146 i)) = b (ix1 ((ix2 (0 : Fin 1) (i 1)) 1))
    congr 1
    funext a; match a with
    | ⟨0, _⟩ =>
      have h : (i 1).val < 1 := (i 1).isLt
      exact Fin.ext (show (0 : Nat) = (i 1).val by omega)

/-- The third layer: 128 inputs, one output. -/
theorem v153_eq :
    val_main_v153 (F := Ideal) x0 x1 x2 x3 x4 x5 x6 x7 x8 x9 x10 x11 x12 x13 x14 x15 x16 x17 x18 x19 x20 = Cert.Spec.layer (val_main_v142 (F := Ideal) x0 x1 x2 x3 x4 x5 x6 x7 x10 x11 x12 x13 x14 x15 x16 x17 x18 x19 x20) x8 (fun i => x9 (ix1 (i 1))) := by
  funext i
  rw [val_main_v153_apply, val_main_v152_apply, val_main_cst_29_apply, val_main_v151_apply, val_main_v150_apply, val_main_cst_28_apply, val_main_v149_apply, val_main_v148_apply, val_main_v147_apply, val_main_v146_apply, val_main_v145_apply, val_main_v144_apply, sig_eq]
  exact v153_eq_core _ x8 x9 i

/-- The reference's prediction is the specification's network over the gathered proficiency, the gathered difficulty,
    the mask and the gathered raw discrimination. -/
theorem v153_mlpOut :
    val_main_v153 (F := Ideal) x0 x1 x2 x3 x4 x5 x6 x7 x8 x9 x10 x11 x12 x13 x14 x15 x16 x17 x18 x19 x20
      = Cert.Spec.mlpOut (val_main_v109 (F := Ideal) x0 x1 x2 x10 x11 x12 x13 x19) (val_main_v116 (F := Ideal) x0 x1 x2 x14 x15 x16 x17 x20) x18 (DRAW x3 x20)
          x4 (fun i => x5 (ix1 (i 1))) x6 (fun i => x7 (ix1 (i 1))) x8 (fun i => x9 (ix1 (i 1))) := by
  rw [v153_eq, v142_eq, v131_eq, v120_eq]
  rfl

end Cert.ReferenceIdeal.Bridge

end
-- ==== Proof.RowReads.lean ====
/-
  The kernel's row reads are the reference's. Both programs read rows of the aggregated tables by student and
  exercise id, and rows of the raw discrimination column by exercise id, with the same gather over the same wrapped
  id vector (a negative id counts from the end of the table): the two spellings differ only in where their
  dimension records are declared. A bias vector reshaped to a one-row table reads, at column `j`, the vector at `j`.
-/
import proofs.«124065_j91044716740748_2_alg».proof.Proof.KernelHostDefs
import proofs.«124065_j91044716740748_2_alg».proof.Proof.Gen.ReferenceIdeal.Read
import proofs.«124065_j91044716740748_2_alg».proof.Proof.MlpRef
import proofs.«124065_j91044716740748_2_alg».proof.Proof.Spec
import Idealize.ShloMosaic.Lib.ValueLayout

noncomputable section

namespace Cert.KernelIdeal.Bridge

open Cert.KernelIdeal Cert.KernelIdeal.Facts₀ Idealize.ShloMosaic Idealize.ShloMosaic.ValueIdx

/-! ## Rows by student id and by exercise id -/

/-- Rows of any proficiency table by student id: the reference's gather over its wrapped id vector. -/
theorem rowsS_eq (T : (⟨S50000x64, .f32⟩ : BufTy).Contents (Elt Ideal)) (x19 : (⟨S32768, .i32⟩ : BufTy).Contents (Elt Ideal)) :
    rowsS (F := Ideal) T x19
      = Host.gather Cert.ReferenceIdeal.gather_S50000x64_S32768x1_S32768x64_1_0_n_n_0_1_164 T
          (Cert.ReferenceIdeal.Read.val_main_v108 (F := Ideal) x19) := rfl

/-- Rows of any difficulty table by exercise id: the reference's gather over its wrapped id vector. -/
theorem rowsD_eq (T : (⟨S20000x64, .f32⟩ : BufTy).Contents (Elt Ideal)) (x20 : (⟨S32768, .i32⟩ : BufTy).Contents (Elt Ideal)) :
    rowsD (F := Ideal) T x20
      = Host.gather Cert.ReferenceIdeal.gather_S20000x64_S32768x1_S32768x64_1_0_n_n_0_1_164 T
          (Cert.ReferenceIdeal.Read.val_main_v115 (F := Ideal) x20) := rfl

variable (x0 : (⟨S50000x64, .f32⟩ : BufTy).Contents (Elt Ideal)) (x1 : (⟨S20000x64, .f32⟩ : BufTy).Contents (Elt Ideal))
  (x2 : (⟨S64x64, .f32⟩ : BufTy).Contents (Elt Ideal)) (x3 : (⟨S20000x1, .f32⟩ : BufTy).Contents (Elt Ideal))
  (x10 x12 x14 x16 : (⟨S2x1000000, .i32⟩ : BufTy).Contents (Elt Ideal))
  (x11 x13 x15 x17 : (⟨S1000000, .f32⟩ : BufTy).Contents (Elt Ideal))
  (x19 x20 : (⟨S32768, .i32⟩ : BufTy).Contents (Elt Ideal))

/-- Rows of the reference's aggregated proficiency table by student id are the reference's gathered rows. -/
theorem rowsS_ref :
    rowsS (F := Ideal) (Cert.ReferenceIdeal.Read.val_main_v57 (F := Ideal) x0 x1 x2 x10 x11 x12 x13) x19
      = Cert.ReferenceIdeal.Read.val_main_v109 (F := Ideal) x0 x1 x2 x10 x11 x12 x13 x19 :=
  rowsS_eq _ x19

/-- Rows of the reference's aggregated difficulty table by exercise id are the reference's gathered rows. -/
theorem rowsD_ref :
    rowsD (F := Ideal) (Cert.ReferenceIdeal.Read.val_main_v95 (F := Ideal) x0 x1 x2 x14 x15 x16 x17) x20
      = Cert.ReferenceIdeal.Read.val_main_v116 (F := Ideal) x0 x1 x2 x14 x15 x16 x17 x20 :=
  rowsD_eq _ x20

/-- Rows of the raw discrimination column by exercise id are the reference's. -/
theorem rowsDisc_eq :
    rowsDisc (F := Ideal) x3 x20 = Cert.ReferenceIdeal.Bridge.DRAW x3 x20 := rfl

/-! ## The bias vectors as one-row tables -/

/-- The first layer's bias as a one-row table. -/
theorem biasRow256 (x5 : (⟨S256, .f32⟩ : BufTy).Contents (Elt Ideal)) :
    shapeCast S1x256 x5 shapeCasts_S256_S1x256 = (fun i => x5 (ix1 (i 1)) : Cert.Spec.A2 1 256) := by
  funext i
  obtain ⟨u, j, rfl⟩ : ∃ (u : Fin 1) (j : Fin 256), i = ix2 u j := ⟨i 0, i 1, eq_ix2 i⟩
  exact shapeCast_a_1a_apply x5 shapeCasts_S256_S1x256 u j

/-- The second layer's bias as a one-row table. -/
theorem biasRow128 (x7 : (⟨S128, .f32⟩ : BufTy).Contents (Elt Ideal)) :
    shapeCast S1x128 x7 shapeCasts_S128_S1x128 = (fun i => x7 (ix1 (i 1)) : Cert.Spec.A2 1 128) := by
  funext i
  obtain ⟨u, j, rfl⟩ : ∃ (u : Fin 1) (j : Fin 128), i = ix2 u j := ⟨i 0, i 1, eq_ix2 i⟩
  exact shapeCast_a_1a_apply x7 shapeCasts_S128_S1x128 u j

/-- The third layer's bias as a one-row table. -/
theorem biasRow1 (x9 : (⟨S1, .f32⟩ : BufTy).Contents (Elt Ideal)) :
    shapeCast S1x1 x9 shapeCasts_S1_S1x1 = (fun i => x9 (ix1 (i 1)) : Cert.Spec.A2 1 1) := by
  funext i
  obtain ⟨u, j, rfl⟩ : ∃ (u : Fin 1) (j : Fin 1), i = ix2 u j := ⟨i 0, i 1, eq_ix2 i⟩
  exact shapeCast_a_1a_apply x9 shapeCasts_S1_S1x1 u j

end Cert.KernelIdeal.Bridge

end
-- ==== Proof.MlpKernelLayers.lean ====
import proofs.«124065_j91044716740748_2_alg».proof.Proof.Gen.KernelIdeal.Frame
import proofs.«124065_j91044716740748_2_alg».proof.Proof.Spec
import Idealize.ShloMosaic.PureOps.Ideal.Laws
import Idealize.ShloMosaic.Lib.ValueIdx
import Idealize.ShloMosaic.Lib.ValueLayout
import Idealize.ShloMosaic.Lib.Pipeline.Value

/-
  The prediction network's kernel on one block of 2048 rows.

  The body computes, on the blocks of its ten operands, the network's input (logistic of the raw discrimination,
  broadcast over the columns, times proficiency minus difficulty, times the mask) and then three times: a matrix
  product against the weights clipped below at zero into a zero accumulator, plus the bias row broadcast over the
  rows, then the logistic function. Read at an index, a matrix product into a zero accumulator is the inner product
  of a row of the left factor with a column of the right one, a broadcast row is the row's entry of the same
  column, a broadcast column is the column's entry of the same row, and a change of float format is the identity on
  the extended reals. So each of the three stages is the specification's `layer`, the input is its `mlpIn`, and the
  block the body leaves is `mlpOut` of the operands' blocks.
-/

noncomputable section

open scoped BigOperators

namespace Cert.KernelIdeal.Bridge

open Idealize.ShloMosaic Idealize.ShloMosaic.ValueIdx
open Cert.KernelIdeal Cert.KernelIdeal.Gen

/-- The zero offsets of a whole-block access. -/
theorem hz : (![0, 0] : Fin 2 → Nat) = fun _ => 0 := funext fun a => by fin_cases a <;> rfl

/-- A column broadcast over the columns' axis reads the column's entry of the same row. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A matrix product into the zero accumulator, read at an index: the row of the left factor against the column of
    the right one. The four hypotheses say which coordinate of each operand the contraction index and the result
    index fill: the dimension numbers of a plain matrix product. -/
theorem matmul_zero_ix2 {B n m : ℕ} {φ₁ φ₂ : FTy} (D : DotDims ⟨2, ![B, n]⟩ ⟨2, ![n, m]⟩ ⟨2, ![B, m]⟩)
    (hr : D.contr.rank = 1) (hs : D.contr.size ⟨0, by omega⟩ = n)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (x : FVec Ideal ⟨2, ![B, n]⟩ φ₁) (w : FVec Ideal ⟨2, ![n, m]⟩ φ₂) (j : (⟨2, ![B, m]⟩ : Shape).Idx) :
    FloatOps.matmul D none x w (constant ⟨2, ![B, m]⟩ .f32 0x00000000#32) j = ∑ k : Fin n, x (ix2 (j 0) k) * w (ix2 k (j 1)) := by
  rw [Ideal.matmul_constant_zero_apply, ← Equiv.sum_comp (contrEquiv1 D n hr hs).symm]
  refine Finset.sum_congr rfl fun k _ => ?_
  have hk := contrEquiv1_symm_val D n hr hs k
  have el : D.lhsIdx j ((contrEquiv1 D n hr hs).symm k) = ix2 (j 0) k := funext fun a => Fin.ext (by
    match a with
    | ⟨0, _⟩ => exact hl0 _ _
    | ⟨1, _⟩ => exact (hl1 _ _).trans hk)
  have er : D.rhsIdx j ((contrEquiv1 D n hr hs).symm k) = ix2 k (j 1) := funext fun a => Fin.ext (by
    match a with
    | ⟨0, _⟩ => exact (hr0 _ _).trans hk
    | ⟨1, _⟩ => exact hr1 _ _)
  rw [el, er]
  rfl

/-- ONE STAGE of the kernel's network on a block of rows is the specification's `layer`: the product against the
    weights clipped below at zero, into a zero accumulator, plus the bias row broadcast over the rows, then the
    logistic function. -/
theorem layer_block {B n m : ℕ} {φ₁ : FTy} (D : DotDims ⟨2, ![B, n]⟩ ⟨2, ![n, m]⟩ ⟨2, ![B, m]⟩)
    (hr : D.contr.rank = 1) (hs : D.contr.size ⟨0, by omega⟩ = n)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (x : FVec Ideal ⟨2, ![B, n]⟩ φ₁) (W : Vec Ideal ⟨2, ![n, m]⟩ .f32) (b : Vec Ideal ⟨2, ![1, m]⟩ .f32)
    (hc : (⟨2, ![1, m]⟩ : Shape).ShapeCasts ⟨2, ![1, m]⟩) (hb : (⟨2, ![1, m]⟩ : Shape).Broadcasts ⟨2, ![B, m]⟩)
    (hlt : FTy.bits .bf16 < FTy.bits .f32) :
    logistic (addf (matmul D none x (truncf .bf16 (maximumf W (broadcast ⟨2, ![n, m]⟩ (Scalar.ofBits .f32 0x00000000#32))) hlt)
        (constant ⟨2, ![B, m]⟩ .f32 0x00000000#32)) (broadcastTo ⟨2, ![B, m]⟩ (shapeCast ⟨2, ![1, m]⟩ b hc) hb))
      = Cert.Spec.layer (x : Cert.Spec.A2 B n) (W : Cert.Spec.A2 n m) (b : Cert.Spec.A2 1 m) := by
  funext i
  obtain ⟨p, q, rfl⟩ : ∃ (p : Fin B) (q : Fin m), i = ix2 p q := ⟨i 0, i 1, eq_ix2 i⟩
  show Ideal.logistic (FloatOps.matmul D none x (truncf .bf16 (maximumf W (broadcast ⟨2, ![n, m]⟩ (Scalar.ofBits .f32 0x00000000#32))) hlt)
      (constant ⟨2, ![B, m]⟩ .f32 0x00000000#32) (ix2 p q) + broadcastTo ⟨2, ![B, m]⟩ (shapeCast ⟨2, ![1, m]⟩ b hc) hb (ix2 p q)) = _
  rw [matmul_zero_ix2 D hr hs hl0 hl1 hr0 hr1, shapeCast_self, broadcastTo_1b_ab_apply]
  rfl

/-- THE INPUT of the kernel's network on a block of rows is the specification's `mlpIn`. -/
theorem mlpIn_block {B n : ℕ} (sg dg kn : FVec Ideal ⟨2, ![B, n]⟩ .f32) (dr : FVec Ideal ⟨2, ![B, 1]⟩ .f32)
    (h1 : (⟨2, ![B, 1]⟩ : Shape).ShapeCasts ⟨2, ![B, 1]⟩) (h2 : (⟨2, ![B, n]⟩ : Shape).ShapeCasts ⟨2, ![B, n]⟩)
    (hb : (⟨2, ![B, 1]⟩ : Shape).Broadcasts ⟨2, ![B, n]⟩) :
    mulf (mulf (broadcastTo ⟨2, ![B, n]⟩ (logistic (shapeCast ⟨2, ![B, 1]⟩ dr h1)) hb)
        (subf (shapeCast ⟨2, ![B, n]⟩ sg h2) (shapeCast ⟨2, ![B, n]⟩ dg h2))) kn
      = Cert.Spec.mlpIn (sg : Cert.Spec.A2 B n) (dg : Cert.Spec.A2 B n) (kn : Cert.Spec.A2 B n) (dr : Cert.Spec.A2 B 1) := by
  funext i
  obtain ⟨p, q, rfl⟩ : ∃ (p : Fin B) (q : Fin n), i = ix2 p q := ⟨i 0, i 1, eq_ix2 i⟩
  rw [shapeCast_self, shapeCast_self, shapeCast_self]
  show broadcastTo ⟨2, ![B, n]⟩ (logistic dr) hb (ix2 p q) * (sg (ix2 p q) - dg (ix2 p q)) * kn (ix2 p q) = _
  rw [broadcastTo_a1_ab_apply]
  rfl

/-! ## The dimension numbers of the kernel's three products: plain matrix products -/

theorem d1_l0 (i : S2048x256.Idx) (q : dot_S2048x64_S64x256_S2048x256_1_0_0_1_n_n.contr.Idx) :
    (dot_S2048x64_S64x256_S2048x256_1_0_0_1_n_n.lhsIdx i q 0).val = (i 0).val := by
  unfold DotDims.lhsIdx
  rw [dif_neg (show ¬(0 : Fin S2048x64.rank) ∈ dot_S2048x64_S64x256_S2048x256_1_0_0_1_n_n.lhsBatch by decide), dif_pos (show (0 : Fin S2048x64.rank) ∈ dot_S2048x64_S64x256_S2048x256_1_0_0_1_n_n.lhsNonContracting by decide)]
  rfl
theorem d1_l1 (i : S2048x256.Idx) (q : dot_S2048x64_S64x256_S2048x256_1_0_0_1_n_n.contr.Idx) :
    (dot_S2048x64_S64x256_S2048x256_1_0_0_1_n_n.lhsIdx i q 1).val = (q ⟨0, by decide⟩).val :=
  dot_S2048x64_S64x256_S2048x256_1_0_0_1_n_n.lhsIdx_val_of_single rfl i q
theorem d1_r0 (i : S2048x256.Idx) (q : dot_S2048x64_S64x256_S2048x256_1_0_0_1_n_n.contr.Idx) :
    (dot_S2048x64_S64x256_S2048x256_1_0_0_1_n_n.rhsIdx i q 0).val = (q ⟨0, by decide⟩).val :=
  dot_S2048x64_S64x256_S2048x256_1_0_0_1_n_n.rhsIdx_val_of_single rfl i q
theorem d1_r1 (i : S2048x256.Idx) (q : dot_S2048x64_S64x256_S2048x256_1_0_0_1_n_n.contr.Idx) :
    (dot_S2048x64_S64x256_S2048x256_1_0_0_1_n_n.rhsIdx i q 1).val = (i 1).val := by
  unfold DotDims.rhsIdx
  rw [dif_neg (show ¬(1 : Fin S64x256.rank) ∈ dot_S2048x64_S64x256_S2048x256_1_0_0_1_n_n.rhsBatch by decide), dif_pos (show (1 : Fin S64x256.rank) ∈ dot_S2048x64_S64x256_S2048x256_1_0_0_1_n_n.rhsNonContracting by decide)]
  rfl

theorem d2_l0 (i : S2048x128.Idx) (q : dot_S2048x256_S256x128_S2048x128_1_0_0_1_n_n.contr.Idx) :
    (dot_S2048x256_S256x128_S2048x128_1_0_0_1_n_n.lhsIdx i q 0).val = (i 0).val := by
  unfold DotDims.lhsIdx
  rw [dif_neg (show ¬(0 : Fin S2048x256.rank) ∈ dot_S2048x256_S256x128_S2048x128_1_0_0_1_n_n.lhsBatch by decide), dif_pos (show (0 : Fin S2048x256.rank) ∈ dot_S2048x256_S256x128_S2048x128_1_0_0_1_n_n.lhsNonContracting by decide)]
  rfl
theorem d2_l1 (i : S2048x128.Idx) (q : dot_S2048x256_S256x128_S2048x128_1_0_0_1_n_n.contr.Idx) :
    (dot_S2048x256_S256x128_S2048x128_1_0_0_1_n_n.lhsIdx i q 1).val = (q ⟨0, by decide⟩).val :=
  dot_S2048x256_S256x128_S2048x128_1_0_0_1_n_n.lhsIdx_val_of_single rfl i q
theorem d2_r0 (i : S2048x128.Idx) (q : dot_S2048x256_S256x128_S2048x128_1_0_0_1_n_n.contr.Idx) :
    (dot_S2048x256_S256x128_S2048x128_1_0_0_1_n_n.rhsIdx i q 0).val = (q ⟨0, by decide⟩).val :=
  dot_S2048x256_S256x128_S2048x128_1_0_0_1_n_n.rhsIdx_val_of_single rfl i q
theorem d2_r1 (i : S2048x128.Idx) (q : dot_S2048x256_S256x128_S2048x128_1_0_0_1_n_n.contr.Idx) :
    (dot_S2048x256_S256x128_S2048x128_1_0_0_1_n_n.rhsIdx i q 1).val = (i 1).val := by
  unfold DotDims.rhsIdx
  rw [dif_neg (show ¬(1 : Fin S256x128.rank) ∈ dot_S2048x256_S256x128_S2048x128_1_0_0_1_n_n.rhsBatch by decide), dif_pos (show (1 : Fin S256x128.rank) ∈ dot_S2048x256_S256x128_S2048x128_1_0_0_1_n_n.rhsNonContracting by decide)]
  rfl

theorem d3_l0 (i : S2048x1.Idx) (q : dot_S2048x128_S128x1_S2048x1_1_0_0_1_n_n.contr.Idx) :
    (dot_S2048x128_S128x1_S2048x1_1_0_0_1_n_n.lhsIdx i q 0).val = (i 0).val := by
  unfold DotDims.lhsIdx
  rw [dif_neg (show ¬(0 : Fin S2048x128.rank) ∈ dot_S2048x128_S128x1_S2048x1_1_0_0_1_n_n.lhsBatch by decide), dif_pos (show (0 : Fin S2048x128.rank) ∈ dot_S2048x128_S128x1_S2048x1_1_0_0_1_n_n.lhsNonContracting by decide)]
  rfl
theorem d3_l1 (i : S2048x1.Idx) (q : dot_S2048x128_S128x1_S2048x1_1_0_0_1_n_n.contr.Idx) :
    (dot_S2048x128_S128x1_S2048x1_1_0_0_1_n_n.lhsIdx i q 1).val = (q ⟨0, by decide⟩).val :=
  dot_S2048x128_S128x1_S2048x1_1_0_0_1_n_n.lhsIdx_val_of_single rfl i q
theorem d3_r0 (i : S2048x1.Idx) (q : dot_S2048x128_S128x1_S2048x1_1_0_0_1_n_n.contr.Idx) :
    (dot_S2048x128_S128x1_S2048x1_1_0_0_1_n_n.rhsIdx i q 0).val = (q ⟨0, by decide⟩).val :=
  dot_S2048x128_S128x1_S2048x1_1_0_0_1_n_n.rhsIdx_val_of_single rfl i q
theorem d3_r1 (i : S2048x1.Idx) (q : dot_S2048x128_S128x1_S2048x1_1_0_0_1_n_n.contr.Idx) :
    (dot_S2048x128_S128x1_S2048x1_1_0_0_1_n_n.rhsIdx i q 1).val = (i 1).val := by
  unfold DotDims.rhsIdx
  rw [dif_neg (show ¬(1 : Fin S128x1.rank) ∈ dot_S2048x128_S128x1_S2048x1_1_0_0_1_n_n.rhsBatch by decide), dif_pos (show (1 : Fin S128x1.rank) ∈ dot_S2048x128_S128x1_S2048x1_1_0_0_1_n_n.rhsNonContracting by decide)]
  rfl

/-! ## The body's two payloads, and the block it leaves -/

/-- The first two stages (the body's first part): `layer` twice over `mlpIn`. -/
theorem pay2_eq (x0 x1 x2 : Vec Ideal S2048x64 .f32) (x3 : Vec Ideal S2048x1 .f32) (x4 : Vec Ideal S64x256 .f32) (x5 : Vec Ideal S1x256 .f32)
    (x6 : Vec Ideal S256x128 .f32) (x7 : Vec Ideal S1x128 .f32) :
    k2_pay2 (F := Ideal) x3 x1 x0 x2 x4 x5 x6 x7
      = Cert.Spec.layer (Cert.Spec.layer (Cert.Spec.mlpIn (x0 : Cert.Spec.A2 2048 64) (x1 : Cert.Spec.A2 2048 64) (x2 : Cert.Spec.A2 2048 64) (x3 : Cert.Spec.A2 2048 1))
          (x4 : Cert.Spec.A2 64 256) (x5 : Cert.Spec.A2 1 256)) (x6 : Cert.Spec.A2 256 128) (x7 : Cert.Spec.A2 1 128) := by
  unfold k2_pay2
  refine (layer_block dot_S2048x256_S256x128_S2048x128_1_0_0_1_n_n rfl rfl d2_l0 d2_l1 d2_r0 d2_r1 _ x6 x7 _ _ _).trans ?_
  refine congrArg (fun A => Cert.Spec.layer A (x6 : Cert.Spec.A2 256 128) (x7 : Cert.Spec.A2 1 128)) ?_
  refine (layer_block dot_S2048x64_S64x256_S2048x256_1_0_0_1_n_n rfl rfl d1_l0 d1_l1 d1_r0 d1_r1 _ x4 x5 _ _ _).trans ?_
  refine congrArg (fun A => Cert.Spec.layer A (x4 : Cert.Spec.A2 64 256) (x5 : Cert.Spec.A2 1 256)) ?_
  exact mlpIn_block x0 x1 x2 x3 _ _ _

/-- The third stage on top (the body's stored value): `mlpOut` of the operands' blocks. -/
theorem pay1_eq (x0 x1 x2 : Vec Ideal S2048x64 .f32) (x3 : Vec Ideal S2048x1 .f32) (x4 : Vec Ideal S64x256 .f32) (x5 : Vec Ideal S1x256 .f32)
    (x6 : Vec Ideal S256x128 .f32) (x7 : Vec Ideal S1x128 .f32) (x8 : Vec Ideal S128x1 .f32) (x9 : Vec Ideal S1x1 .f32) :
    k2_pay1 (F := Ideal) (k2_pay2 x3 x1 x0 x2 x4 x5 x6 x7) x8 (Scalar.ofBits .f32 0x00000000#32) x9
      = Cert.Spec.mlpOut (x0 : Cert.Spec.A2 2048 64) (x1 : Cert.Spec.A2 2048 64) (x2 : Cert.Spec.A2 2048 64) (x3 : Cert.Spec.A2 2048 1)
          (x4 : Cert.Spec.A2 64 256) (x5 : Cert.Spec.A2 1 256) (x6 : Cert.Spec.A2 256 128) (x7 : Cert.Spec.A2 1 128) (x8 : Cert.Spec.A2 128 1) (x9 : Cert.Spec.A2 1 1) := by
  unfold k2_pay1
  refine (layer_block dot_S2048x128_S128x1_S2048x1_1_0_0_1_n_n rfl rfl d3_l0 d3_l1 d3_r0 d3_r1 _ x8 x9 _ _ _).trans ?_
  unfold Cert.Spec.mlpOut
  exact congrArg (fun A => Cert.Spec.layer A (x8 : Cert.Spec.A2 128 1) (x9 : Cert.Spec.A2 1 1)) (pay2_eq x0 x1 x2 x3 x4 x5 x6 x7)

/-- WHAT THE BODY LEAVES in the output's block, from the ten operands' blocks: the specification's network. -/
theorem out_eq (x0 x1 x2 : Vec Ideal S2048x64 .f32) (x3 : Vec Ideal S2048x1 .f32) (x4 : Vec Ideal S64x256 .f32) (x5 : Vec Ideal S1x256 .f32)
    (x6 : Vec Ideal S256x128 .f32) (x7 : Vec Ideal S1x128 .f32) (x8 : Vec Ideal S128x1 .f32) (x9 : Vec Ideal S1x1 .f32) :
    out2_10 (F := Ideal) x0 x1 x2 x3 x4 x5 x6 x7 x8 x9
      = Cert.Spec.mlpOut (x0 : Cert.Spec.A2 2048 64) (x1 : Cert.Spec.A2 2048 64) (x2 : Cert.Spec.A2 2048 64) (x3 : Cert.Spec.A2 2048 1)
          (x4 : Cert.Spec.A2 64 256) (x5 : Cert.Spec.A2 1 256) (x6 : Cert.Spec.A2 256 128) (x7 : Cert.Spec.A2 1 128) (x8 : Cert.Spec.A2 128 1) (x9 : Cert.Spec.A2 1 1) := by
  unfold out2_10
  rw [View.canon_unit_zero hz]
  simp only [View.ld_unit_zero (S := S2048x1) hz, View.ld_unit_zero (S := S2048x64) hz, View.ld_unit_zero (S := S64x256) hz,
    View.ld_unit_zero (S := S1x256) hz, View.ld_unit_zero (S := S256x128) hz, View.ld_unit_zero (S := S1x128) hz,
    View.ld_unit_zero (S := S128x1) hz, View.ld_unit_zero (S := S1x1) hz]
  exact pay1_eq x0 x1 x2 x3 x4 x5 x6 x7 x8 x9

end Cert.KernelIdeal.Bridge

end
-- ==== Proof.MlpKernelArray.lean ====
import proofs.«124065_j91044716740748_2_alg».proof.Proof.Gen.KernelIdeal.Frame
import proofs.«124065_j91044716740748_2_alg».proof.Proof.Spec
import proofs.«124065_j91044716740748_2_alg».proof.Proof.MlpKernelLayers
import Idealize.ShloMosaic.Lib.ValueIdx
import Idealize.ShloMosaic.Lib.Pipeline.Value
import Idealize.ShloMosaic.Lib.Tactic

/-
  The prediction network's kernel over its whole arrays.

  The region runs the body at sixteen points; point `t` reads rows `2048 t … 2048 t + 2047` of the four row tables
  and the whole of the six weight and bias arrays, and writes back rows `2048 t … 2048 t + 2047` of the result. The
  body leaves the specification's network of the blocks it read, and a row of the network's output depends only on
  the same row of the four row tables; so what point `t` writes back is block `t` of the network over the whole
  arrays, the sixteen blocks cover the result, and the result array ends holding that network.
-/

set_option maxRecDepth 16384

noncomputable section

open scoped BigOperators

namespace Cert.KernelIdeal.Bridge

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-! ## The specification's rows -/

/-- A row of one layer's output depends on the same row of its input only. -/
theorem layer_row {B B' n m : ℕ} (A : Cert.Spec.A2 B n) (A' : Cert.Spec.A2 B' n) (W : Cert.Spec.A2 n m) (b : Cert.Spec.A2 1 m)
    (r : Fin B) (r' : Fin B') (q : Fin m) (hA : ∀ k : Fin n, A (ix2 r k) = A' (ix2 r' k)) :
    Cert.Spec.layer A W b (ix2 r q) = Cert.Spec.layer A' W b (ix2 r' q) := by
  show Ideal.logistic ((∑ k : Fin n, A (ix2 r k) * max (W (ix2 k q)) Cert.Spec.zeroF) + b (ix2 0 q))
    = Ideal.logistic ((∑ k : Fin n, A' (ix2 r' k) * max (W (ix2 k q)) Cert.Spec.zeroF) + b (ix2 0 q))
  simp only [hA]

/-- A row of the network's output depends only on the same row of the four row tables. -/
theorem mlpOut_row {B B' n h1 h2 : ℕ} (sg dg kn : Cert.Spec.A2 B n) (dr : Cert.Spec.A2 B 1) (sg' dg' kn' : Cert.Spec.A2 B' n) (dr' : Cert.Spec.A2 B' 1)
    (W1 W1' : Cert.Spec.A2 n h1) (b1 b1' : Cert.Spec.A2 1 h1) (W2 W2' : Cert.Spec.A2 h1 h2) (b2 b2' : Cert.Spec.A2 1 h2)
    (W3 W3' : Cert.Spec.A2 h2 1) (b3 b3' : Cert.Spec.A2 1 1)
    (i : (⟨2, ![B, 1]⟩ : Shape).Idx) (i' : (⟨2, ![B', 1]⟩ : Shape).Idx)
    (hsg : ∀ k : Fin n, sg (ix2 (i 0) k) = sg' (ix2 (i' 0) k)) (hdg : ∀ k : Fin n, dg (ix2 (i 0) k) = dg' (ix2 (i' 0) k))
    (hkn : ∀ k : Fin n, kn (ix2 (i 0) k) = kn' (ix2 (i' 0) k)) (hdr : ∀ k : Fin 1, dr (ix2 (i 0) k) = dr' (ix2 (i' 0) k))
    (hW1 : W1 = W1') (hb1 : b1 = b1') (hW2 : W2 = W2') (hb2 : b2 = b2') (hW3 : W3 = W3') (hb3 : b3 = b3') :
    Cert.Spec.mlpOut sg dg kn dr W1 b1 W2 b2 W3 b3 i = Cert.Spec.mlpOut sg' dg' kn' dr' W1' b1' W2' b2' W3' b3' i' := by
  subst hW1 hb1 hW2 hb2 hW3 hb3
  obtain ⟨r, q, rfl⟩ : ∃ (r : Fin B) (q : Fin 1), i = ix2 r q := ⟨i 0, i 1, eq_ix2 i⟩
  obtain ⟨r', q', rfl⟩ : ∃ (r' : Fin B') (q' : Fin 1), i' = ix2 r' q' := ⟨i' 0, i' 1, eq_ix2 i'⟩
  obtain rfl : q = q' := Subsingleton.elim q q'
  unfold Cert.Spec.mlpOut
  refine layer_row _ _ W3 b3 r r' q fun k3 => ?_
  refine layer_row _ _ W2 b2 r r' k3 fun k2 => ?_
  refine layer_row _ _ W1 b1 r r' k2 fun k1 => ?_
  show (Ideal.logistic (dr (ix2 r 0)) * (sg (ix2 r k1) - dg (ix2 r k1))) * kn (ix2 r k1)
    = (Ideal.logistic (dr' (ix2 r' 0)) * (sg' (ix2 r' k1) - dg' (ix2 r' k1))) * kn' (ix2 r' k1)
  have e1 : sg (ix2 r k1) = sg' (ix2 r' k1) := hsg k1
  have e2 : dg (ix2 r k1) = dg' (ix2 r' k1) := hdg k1
  have e3 : kn (ix2 r k1) = kn' (ix2 r' k1) := hkn k1
  have e4 : dr (ix2 r 0) = dr' (ix2 r' 0) := hdr 0
  rw [e1, e2, e3, e4]

/-! ## The blocks of the ten operands -/

/-- The printed index maps, decided over the sixteen grid points: the four row tables and the result move by one block
    of rows per point and do not move along the columns; the weights and biases are whole arrays, block (0, 0). -/
theorem idx_facts : ∀ t : Fin cfg2.N, (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = t.val ∧ win2_2.index t (1 : Fin 2) = 0)
    ∧ (win2_3.index t (0 : Fin 2) = t.val ∧ win2_3.index t (1 : Fin 2) = 0)
    ∧ (win2_10.index t (0 : Fin 2) = t.val ∧ win2_10.index t (1 : Fin 2) = 0)
    ∧ (win2_4.index t (0 : Fin 2) = 0 ∧ win2_4.index t (1 : Fin 2) = 0)
    ∧ (win2_5.index t (0 : Fin 2) = 0 ∧ win2_5.index t (1 : Fin 2) = 0)
    ∧ (win2_6.index t (0 : Fin 2) = 0 ∧ win2_6.index t (1 : Fin 2) = 0)
    ∧ (win2_7.index t (0 : Fin 2) = 0 ∧ win2_7.index t (1 : Fin 2) = 0)
    ∧ (win2_8.index t (0 : Fin 2) = 0 ∧ win2_8.index t (1 : Fin 2) = 0)
    ∧ (win2_9.index t (0 : Fin 2) = 0 ∧ win2_9.index t (1 : Fin 2) = 0) :=
  (by decide +kernel : ∀ t : Fin grid2.N, _)

/-- Row `y` of operand 0's block at point `t` is row `2048 t + y` of its array. -/
theorem blk_row0 (c : Dev nD) (t : Fin cfg2.N) (y : Fin 2048) (k : Fin 64) (r : Fin 32768) (hr : r.val = 2048 * t.val + y.val) :
    (iblk2 V c 0 t : Vec Ideal S2048x64 .f32) (ix2 y k) = (V c main_v63 : Vec Ideal S32768x64 .f32) (ix2 r k) := by
  have hi := (idx_facts t).1
  unfold iblk2
  rw [View.read_apply]
  show V c main_v63 _ = V c main_v63 _
  congr 1
  funext a
  apply Fin.ext
  match a with
  | ⟨0, _⟩ => show win2_0.index t (0 : Fin 2) * 2048 + 1 * y.val = r.val; rw [hi.1, hr]; omega
  | ⟨1, _⟩ => show win2_0.index t (1 : Fin 2) * 64 + 1 * k.val = k.val; rw [hi.2]; omega

/-- Row `y` of operand 1's block at point `t` is row `2048 t + y` of its array. -/
theorem blk_row1 (c : Dev nD) (t : Fin cfg2.N) (y : Fin 2048) (k : Fin 64) (r : Fin 32768) (hr : r.val = 2048 * t.val + y.val) :
    (iblk2 V c 1 t : Vec Ideal S2048x64 .f32) (ix2 y k) = (V c main_v70 : Vec Ideal S32768x64 .f32) (ix2 r k) := by
  have hi := (idx_facts t).2.1
  unfold iblk2
  rw [View.read_apply]
  show V c main_v70 _ = V c main_v70 _
  congr 1
  funext a
  apply Fin.ext
  match a with
  | ⟨0, _⟩ => show win2_1.index t (0 : Fin 2) * 2048 + 1 * y.val = r.val; rw [hi.1, hr]; omega
  | ⟨1, _⟩ => show win2_1.index t (1 : Fin 2) * 64 + 1 * k.val = k.val; rw [hi.2]; omega

/-- Row `y` of operand 2's block at point `t` is row `2048 t + y` of its array. -/
theorem blk_row2 (c : Dev nD) (t : Fin cfg2.N) (y : Fin 2048) (k : Fin 64) (r : Fin 32768) (hr : r.val = 2048 * t.val + y.val) :
    (iblk2 V c 2 t : Vec Ideal S2048x64 .f32) (ix2 y k) = (V c main_arg18 : Vec Ideal S32768x64 .f32) (ix2 r k) := by
  have hi := (idx_facts t).2.2.1
  unfold iblk2
  rw [View.read_apply]
  show V c main_arg18 _ = V c main_arg18 _
  congr 1
  funext a
  apply Fin.ext
  match a with
  | ⟨0, _⟩ => show win2_2.index t (0 : Fin 2) * 2048 + 1 * y.val = r.val; rw [hi.1, hr]; omega
  | ⟨1, _⟩ => show win2_2.index t (1 : Fin 2) * 64 + 1 * k.val = k.val; rw [hi.2]; omega

/-- Row `y` of operand 3's block at point `t` is row `2048 t + y` of its array. -/
theorem blk_row3 (c : Dev nD) (t : Fin cfg2.N) (y : Fin 2048) (k : Fin 1) (r : Fin 32768) (hr : r.val = 2048 * t.val + y.val) :
    (iblk2 V c 3 t : Vec Ideal S2048x1 .f32) (ix2 y k) = (V c main_v77 : Vec Ideal S32768x1 .f32) (ix2 r k) := by
  have hi := (idx_facts t).2.2.2.1
  unfold iblk2
  rw [View.read_apply]
  show V c main_v77 _ = V c main_v77 _
  congr 1
  funext a
  apply Fin.ext
  match a with
  | ⟨0, _⟩ => show win2_3.index t (0 : Fin 2) * 2048 + 1 * y.val = r.val; rw [hi.1, hr]; omega
  | ⟨1, _⟩ => show win2_3.index t (1 : Fin 2) * 1 + 1 * k.val = k.val; rw [hi.2]; omega

/-- Operand 4's block at every point is its whole array. -/
theorem blk_whole4 (c : Dev nD) (t : Fin cfg2.N) :
    (iblk2 V c 4 t : Vec Ideal S64x256 .f32) = (V c main_arg4 : Vec Ideal S64x256 .f32) := by
  have hi := (idx_facts t).2.2.2.2.2.1
  funext y
  unfold iblk2
  rw [View.read_apply]
  show V c main_arg4 _ = V c main_arg4 _
  congr 1
  funext a
  apply Fin.ext
  match a with
  | ⟨0, _⟩ => show win2_4.index t (0 : Fin 2) * 64 + 1 * (y 0).val = (y 0).val; rw [hi.1]; omega
  | ⟨1, _⟩ => show win2_4.index t (1 : Fin 2) * 256 + 1 * (y 1).val = (y 1).val; rw [hi.2]; omega

/-- Operand 5's block at every point is its whole array. -/
theorem blk_whole5 (c : Dev nD) (t : Fin cfg2.N) :
    (iblk2 V c 5 t : Vec Ideal S1x256 .f32) = (V c main_v78 : Vec Ideal S1x256 .f32) := by
  have hi := (idx_facts t).2.2.2.2.2.2.1
  funext y
  unfold iblk2
  rw [View.read_apply]
  show V c main_v78 _ = V c main_v78 _
  congr 1
  funext a
  apply Fin.ext
  match a with
  | ⟨0, _⟩ => show win2_5.index t (0 : Fin 2) * 1 + 1 * (y 0).val = (y 0).val; rw [hi.1]; omega
  | ⟨1, _⟩ => show win2_5.index t (1 : Fin 2) * 256 + 1 * (y 1).val = (y 1).val; rw [hi.2]; omega

/-- Operand 6's block at every point is its whole array. -/
theorem blk_whole6 (c : Dev nD) (t : Fin cfg2.N) :
    (iblk2 V c 6 t : Vec Ideal S256x128 .f32) = (V c main_arg6 : Vec Ideal S256x128 .f32) := by
  have hi := (idx_facts t).2.2.2.2.2.2.2.1
  funext y
  unfold iblk2
  rw [View.read_apply]
  show V c main_arg6 _ = V c main_arg6 _
  congr 1
  funext a
  apply Fin.ext
  match a with
  | ⟨0, _⟩ => show win2_6.index t (0 : Fin 2) * 256 + 1 * (y 0).val = (y 0).val; rw [hi.1]; omega
  | ⟨1, _⟩ => show win2_6.index t (1 : Fin 2) * 128 + 1 * (y 1).val = (y 1).val; rw [hi.2]; omega

/-- Operand 7's block at every point is its whole array. -/
theorem blk_whole7 (c : Dev nD) (t : Fin cfg2.N) :
    (iblk2 V c 7 t : Vec Ideal S1x128 .f32) = (V c main_v79 : Vec Ideal S1x128 .f32) := by
  have hi := (idx_facts t).2.2.2.2.2.2.2.2.1
  funext y
  unfold iblk2
  rw [View.read_apply]
  show V c main_v79 _ = V c main_v79 _
  congr 1
  funext a
  apply Fin.ext
  match a with
  | ⟨0, _⟩ => show win2_7.index t (0 : Fin 2) * 1 + 1 * (y 0).val = (y 0).val; rw [hi.1]; omega
  | ⟨1, _⟩ => show win2_7.index t (1 : Fin 2) * 128 + 1 * (y 1).val = (y 1).val; rw [hi.2]; omega

/-- Operand 8's block at every point is its whole array. -/
theorem blk_whole8 (c : Dev nD) (t : Fin cfg2.N) :
    (iblk2 V c 8 t : Vec Ideal S128x1 .f32) = (V c main_arg8 : Vec Ideal S128x1 .f32) := by
  have hi := (idx_facts t).2.2.2.2.2.2.2.2.2.1
  funext y
  unfold iblk2
  rw [View.read_apply]
  show V c main_arg8 _ = V c main_arg8 _
  congr 1
  funext a
  apply Fin.ext
  match a with
  | ⟨0, _⟩ => show win2_8.index t (0 : Fin 2) * 128 + 1 * (y 0).val = (y 0).val; rw [hi.1]; omega
  | ⟨1, _⟩ => show win2_8.index t (1 : Fin 2) * 1 + 1 * (y 1).val = (y 1).val; rw [hi.2]; omega

/-- Operand 9's block at every point is its whole array. -/
theorem blk_whole9 (c : Dev nD) (t : Fin cfg2.N) :
    (iblk2 V c 9 t : Vec Ideal S1x1 .f32) = (V c main_v80 : Vec Ideal S1x1 .f32) := by
  have hi := (idx_facts t).2.2.2.2.2.2.2.2.2.2
  funext y
  unfold iblk2
  rw [View.read_apply]
  show V c main_v80 _ = V c main_v80 _
  congr 1
  funext a
  apply Fin.ext
  match a with
  | ⟨0, _⟩ => show win2_9.index t (0 : Fin 2) * 1 + 1 * (y 0).val = (y 0).val; rw [hi.1]; omega
  | ⟨1, _⟩ => show win2_9.index t (1 : Fin 2) * 1 + 1 * (y 1).val = (y 1).val; rw [hi.2]; omega

/-! ## From the blocks to the array -/

/-- The network over the whole arrays the region finds. -/
abbrev netOut (c : Dev nD) : Cert.Spec.A2 32768 1 :=
  Cert.Spec.mlpOut (B := 32768) (n := 64) (h1 := 256) (h2 := 128) (V c main_v63) (V c main_v70) (V c main_arg18) (V c main_v77)
    (V c main_arg4) (V c main_v78) (V c main_arg6) (V c main_v79) (V c main_arg8) (V c main_v80)

/-- WHAT POINT `t` WRITES BACK is block `t` of the network over the whole arrays: the body leaves the network of the
    operands' blocks, whose row `y` is row `2048 t + y` of the whole arrays' network. -/
theorem flushed_eq (c : Dev nD) (t : Fin cfg2.N) :
    (dat2 (F := Ideal) V c).flushed 10 t = ((cfg2.win 10).blk t).view.read (Elt Ideal) (netOut V c) := by
  show (cfg2.win 10).cut (grid2.coords t) ((dat2 V c).after 10 t) = _
  rw [after2_10]
  rw [out_eq (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t)]
  have h10 := (idx_facts t).2.2.2.2.1
  funext j
  have hrow : ((((cfg2.win 10).blk t).view.emb j) 0).val = 2048 * t.val + (((cfg2.win 10).xinj (grid2.coords t) j) 0).val := by
    show win2_10.index t (0 : Fin 2) * 2048 + 1 * (j 0).val = 2048 * t.val + (j 0).val
    rw [h10.1]; omega
  refine mlpOut_row (B := 2048) (B' := 32768) (n := 64) (h1 := 256) (h2 := 128)
    (iblk2 V c 0 t) (iblk2 V c 1 t) (iblk2 V c 2 t) (iblk2 V c 3 t) (V c main_v63) (V c main_v70) (V c main_arg18) (V c main_v77)
    (iblk2 V c 4 t) (V c main_arg4) (iblk2 V c 5 t) (V c main_v78) (iblk2 V c 6 t) (V c main_arg6) (iblk2 V c 7 t) (V c main_v79)
    (iblk2 V c 8 t) (V c main_arg8) (iblk2 V c 9 t) (V c main_v80)
    ((cfg2.win 10).xinj (grid2.coords t) j) (((cfg2.win 10).blk t).view.emb j)
    (fun k => blk_row0 V c t _ k _ hrow) (fun k => blk_row1 V c t _ k _ hrow) (fun k => blk_row2 V c t _ k _ hrow) (fun k => blk_row3 V c t _ k _ hrow)
    (blk_whole4 V c t) (blk_whole5 V c t) (blk_whole6 V c t) (blk_whole7 V c t) (blk_whole8 V c t) (blk_whole9 V c t)

/-- An index of the result array is in point `t`'s block iff each coordinate is in the block's range on its axis. -/
theorem mem_blk (t : Fin cfg2.N) (i : S32768x1.Idx) :
    i ∈ ((cfg2.win 10).blk t).view.set ↔ ∀ a : Fin 2, win2_10.index t a * S2048x1.size a ≤ (i a).val ∧ (i a).val < win2_10.index t a * S2048x1.size a + S2048x1.size a := by
  show i ∈ ((View.whole main_v81).slice (win2_10.rect t)).set ↔ _
  rw [View.set_slice_whole, Rect.mem_set_unit]
  exact Iff.rfl

/-- Every row of the result is in some point's block: row `r` in point `r / 2048`'s. -/
theorem cover (i : S32768x1.Idx) : ∃ t : Fin cfg2.N, (cfg2.win 10).flush t = true ∧ i ∈ ((cfg2.win 10).blk t).view.set := by
  have hi0 : (i 0).val < 32768 := (i 0).isLt
  have hi1 : (i 1).val < 1 := (i 1).isLt
  have hN : grid2.N = 16 := N_2
  refine ⟨⟨(i 0).val / 2048, by show (i 0).val / 2048 < grid2.N; omega⟩, flush2_10 _, ?_⟩
  rw [mem_blk]
  have h10 := (idx_facts ⟨(i 0).val / 2048, by show (i 0).val / 2048 < grid2.N; omega⟩).2.2.2.2.1
  intro a
  match a with
  | ⟨0, _⟩ =>
    show win2_10.index _ (0 : Fin 2) * 2048 ≤ (i 0).val ∧ (i 0).val < win2_10.index _ (0 : Fin 2) * 2048 + 2048
    rw [h10.1]; show (i 0).val / 2048 * 2048 ≤ (i 0).val ∧ (i 0).val < (i 0).val / 2048 * 2048 + 2048; omega
  | ⟨1, _⟩ =>
    show win2_10.index _ (1 : Fin 2) * 1 ≤ (i 1).val ∧ (i 1).val < win2_10.index _ (1 : Fin 2) * 1 + 1
    rw [h10.2]; omega

/-- THE RESULT ARRAY after the region is the specification's network over the arrays the region finds. -/
theorem mlp_array (c : Dev nD) :
    (dat2 (F := Ideal) V c).arrAt 10 cfg2.N = Cert.Spec.mlpOut (B := 32768) (n := 64) (h1 := 256) (h2 := 128) (V c main_v63) (V c main_v70) (V c main_arg18) (V c main_v77)
      (V c main_arg4) (V c main_v78) (V c main_arg6) (V c main_v79) (V c main_arg8) (V c main_v80) :=
  (dat2 V c).arrAt_eq_of_cover 10 (netOut V c) (fun t _ => flushed_eq V c t) (cover)

end Cert.KernelIdeal.Bridge

end
-- ==== Proof.KernelValue.lean ====
/-
  What the idealized kernel's result buffer holds after the run, as a function of the launch arguments: the
  reference's own last stage.

  The last boundary's contents at the result buffer are the reshape of the prediction region's output array; that
  array is the three-layer network over the region's ten input arrays; those arrays are what the aggregation stretch
  leaves: rows, by student and exercise id, of the two aggregated tables — each the reference's aggregated table, because one
  accumulating scatter over both relations' edges is the sum of the two relations' scatters — and of the raw
  discrimination column, whose logistic function the network takes where the reference took it before gathering;
  the projection regions' output arrays are the reference's two logistic projections.
-/
import proofs.«124065_j91044716740748_2_alg».proof.Proof.KernelRun
import proofs.«124065_j91044716740748_2_alg».proof.Proof.KernelFoldProj
import proofs.«124065_j91044716740748_2_alg».proof.Proof.KernelFoldAgg
import proofs.«124065_j91044716740748_2_alg».proof.Proof.AggStat
import proofs.«124065_j91044716740748_2_alg».proof.Proof.AggDiff
import proofs.«124065_j91044716740748_2_alg».proof.Proof.RowReads
import proofs.«124065_j91044716740748_2_alg».proof.Proof.MlpKernelArray
import proofs.«124065_j91044716740748_2_alg».proof.Proof.MlpRef
import Idealize.ShloMosaic.Lib.StableHlo.Run

set_option maxRecDepth 16384

noncomputable section

namespace Cert.KernelIdeal.Bridge

open Cert.KernelIdeal Cert.KernelIdeal.Gen
open Idealize.ShloMosaic Idealize.ShloMosaic.TcCoe Idealize.ShloMosaic.Tactic Idealize.SL.Sem Idealize.ShloMosaic.StableHlo
open Idealize.ShloMosaic.ValueIdx

variable (m : (ℓ : Loc nD τ sig) → Buf (Elt Ideal) ℓ) (ρ : Dev nD → PrngReg) (c : Dev nD)

/-- The result buffer ends as the reshape of the prediction region's output column. -/
theorem W6_result : W6 (F := Ideal) m ρ c (Proc.devRef .tc main_v82)
    = shapeCast S32768 (W5 m ρ c (Proc.devRef .tc main_v81)) shapeCasts_S32768x1_S32768 := by
  show StableHlo.after hostOps3 (W5 m ρ c) (Proc.devRef .tc main_v82) = _
  after_results
  rfl

/-- The prediction region's output column is the three-layer network over the arrays the region finds. -/
theorem W5_column : W5 (F := Ideal) m ρ c (Proc.devRef .tc main_v81)
    = Cert.Spec.mlpOut (B := 32768) (n := 64) (h1 := 256) (h2 := 128) (V4 m ρ c main_v63) (V4 m ρ c main_v70) (V4 m ρ c main_arg18)
        (V4 m ρ c main_v77) (V4 m ρ c main_arg4) (V4 m ρ c main_v78) (V4 m ρ c main_arg6) (V4 m ρ c main_v79) (V4 m ρ c main_arg8)
        (V4 m ρ c main_v80) :=
  (W5_arr m ρ c 10).trans (mlp_array (V4 m ρ) c)

/-- The gathered proficiency rows the prediction region finds are the reference's. -/
theorem stat_rows : V4 (F := Ideal) m ρ c main_v63
    = Cert.ReferenceIdeal.Read.val_main_v109 (F := Ideal) (m ((c : Thread nD τ).loc main_arg0)) (m ((c : Thread nD τ).loc main_arg1)) (m ((c : Thread nD τ).loc main_arg2)) (m ((c : Thread nD τ).loc main_arg10)) (m ((c : Thread nD τ).loc main_arg11)) (m ((c : Thread nD τ).loc main_arg12)) (m ((c : Thread nD τ).loc main_arg13)) (m ((c : Thread nD τ).loc main_arg19)) := by
  rw [V4_main_v63, W3_main_v1, W3_main_v2, W3_main_arg10, W3_main_arg11, W3_main_arg12, W3_main_arg13, W3_main_arg19, aggS_ref]
  exact rowsS_ref ..

/-- The gathered difficulty rows the prediction region finds are the reference's. -/
theorem diff_rows : V4 (F := Ideal) m ρ c main_v70
    = Cert.ReferenceIdeal.Read.val_main_v116 (F := Ideal) (m ((c : Thread nD τ).loc main_arg0)) (m ((c : Thread nD τ).loc main_arg1)) (m ((c : Thread nD τ).loc main_arg2)) (m ((c : Thread nD τ).loc main_arg14)) (m ((c : Thread nD τ).loc main_arg15)) (m ((c : Thread nD τ).loc main_arg16)) (m ((c : Thread nD τ).loc main_arg17)) (m ((c : Thread nD τ).loc main_arg20)) := by
  rw [V4_main_v70, W3_main_v1, W3_main_v2, W3_main_arg14, W3_main_arg15, W3_main_arg16, W3_main_arg17, W3_main_arg20, aggD_ref]
  exact rowsD_ref ..

/-- The raw discrimination rows the prediction region finds. -/
theorem disc_rows : V4 (F := Ideal) m ρ c main_v77 = Cert.ReferenceIdeal.Bridge.DRAW (m ((c : Thread nD τ).loc main_arg3)) (m ((c : Thread nD τ).loc main_arg20)) := by
  rw [V4_main_v77, W3_main_arg3, W3_main_arg20]
  exact rowsDisc_eq ..

/-- The three bias rows the prediction region finds. -/
theorem bias1_row : V4 (F := Ideal) m ρ c main_v78 = (fun i => (m ((c : Thread nD τ).loc main_arg5)) (ix1 (i 1)) : Cert.Spec.A2 1 256) := by
  rw [V4_main_v78, W3_main_arg5]; exact biasRow256 _
theorem bias2_row : V4 (F := Ideal) m ρ c main_v79 = (fun i => (m ((c : Thread nD τ).loc main_arg7)) (ix1 (i 1)) : Cert.Spec.A2 1 128) := by
  rw [V4_main_v79, W3_main_arg7]; exact biasRow128 _
theorem bias3_row : V4 (F := Ideal) m ρ c main_v80 = (fun i => (m ((c : Thread nD τ).loc main_arg9)) (ix1 (i 1)) : Cert.Spec.A2 1 1) := by
  rw [V4_main_v80, W3_main_arg9]; exact biasRow1 _

/-- The mask and the three weight tables reach the prediction region as launched. -/
theorem mask_arr : V4 (F := Ideal) m ρ c main_arg18 = m ((c : Thread nD τ).loc main_arg18) := (V4_main_arg18 m ρ c).trans (W3_main_arg18 m ρ c)
theorem w1_arr : V4 (F := Ideal) m ρ c main_arg4 = m ((c : Thread nD τ).loc main_arg4) := (V4_main_arg4 m ρ c).trans (W3_main_arg4 m ρ c)
theorem w2_arr : V4 (F := Ideal) m ρ c main_arg6 = m ((c : Thread nD τ).loc main_arg6) := (V4_main_arg6 m ρ c).trans (W3_main_arg6 m ρ c)
theorem w3_arr : V4 (F := Ideal) m ρ c main_arg8 = m ((c : Thread nD τ).loc main_arg8) := (V4_main_arg8 m ρ c).trans (W3_main_arg8 m ρ c)

/-- The result buffer ends at the reference's result, read at the launch arguments. -/
theorem kernel_value : W6 (F := Ideal) m ρ c (Proc.devRef .tc main_v82)
    = Cert.ReferenceIdeal.Read.val_main_v154 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) := by
  rw [W6_result, W5_column, stat_rows, diff_rows, disc_rows, bias1_row, bias2_row, bias3_row, mask_arr, w1_arr, w2_arr, w3_arr]
  unfold Cert.ReferenceIdeal.Read.val_main_v154
  rw [Cert.ReferenceIdeal.Bridge.v153_mlpOut]

end Cert.KernelIdeal.Bridge

end
-- ==== Proof.lean ====
/-
  The certificate of one knowledge-tracing network written two ways.

  Both programs project the student and exercise embedding tables onto the knowledge directions through a logistic
  function, add to each table the weighted rows its neighbours send along two relations' edge lists, divide by
  three, read rows of the batch by student and exercise id, and run a three-layer network with weights clipped at
  zero on  logistic(discrimination) · (proficiency − difficulty) · mask.  The kernel does the projections and the
  network in three tiled regions and merges the two relations into one accumulating scatter over the concatenated
  edge lists; the reference is plain host operations with one scatter per relation and takes the logistic function
  of the discrimination column before gathering its rows.

  On the extended reals the two are one function of the arguments: a tile's rows are the whole table's rows; a sum
  over the concatenated edge list is the sum of the two lists' sums (addition there is commutative and associative,
  infinities included, so no finiteness is used); a gather of rows commutes with a function applied entry by entry;
  a change of float format is the identity. So the kernel's result buffer ends at the reference's last stage read at
  the launch arguments (`Bridge.kernel_value`), which is what the reference's own run leaves in its result.

  The three frames are the generated ones (the reference's is its generated run with the result dropped), and the
  idealization rewrote nothing, so there is nothing to preserve.
-/
import proofs.«124065_j91044716740748_2_alg».proof.Defs
import proofs.«124065_j91044716740748_2_alg».proof.Proof.Gen.Kernel
import proofs.«124065_j91044716740748_2_alg».proof.Proof.Gen.Kernel.Frame
import proofs.«124065_j91044716740748_2_alg».proof.Proof.Gen.KernelIdeal
import proofs.«124065_j91044716740748_2_alg».proof.Proof.Gen.KernelIdeal.Frame
import proofs.«124065_j91044716740748_2_alg».proof.Proof.Gen.ReferenceIdeal
import proofs.«124065_j91044716740748_2_alg».proof.Proof.Gen.Pre_finite_inputs
import proofs.«124065_j91044716740748_2_alg».proof.Proof.Gen.ReferenceIdeal.Run
import proofs.«124065_j91044716740748_2_alg».proof.Proof.Gen.ReferenceIdeal.Read
import proofs.«124065_j91044716740748_2_alg».proof.Proof.KernelRun
import proofs.«124065_j91044716740748_2_alg».proof.Proof.KernelValue
import Idealize.ShloMosaic.Adequacy
import Idealize.ShloMosaic.Init

set_option maxRecDepth 16384

noncomputable section

namespace Cert.KernelIdeal.Bridge

open Cert.KernelIdeal Cert.KernelIdeal.Gen
open Idealize.ShloMosaic Idealize.ShloMosaic.TcCoe Idealize.SL.Sem

/-- The idealized kernel's run: it terminates, its result buffer ends at the reference's last stage read at the
    launch arguments, and its arguments end as launched. -/
theorem run_value (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c : Thread nD τ).loc main_v82)
        = Cert.ReferenceIdeal.Read.val_main_v154 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20)) :=
  (θ_run defs _ _).mono (fun r h c =>
    ⟨(h c _ main_v82_mem).trans (kernel_value m ρ c),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c),
     (h c _ (mem_uc main_arg7 (by decide))).trans (W6_main_arg7 m ρ c),
     (h c _ (mem_uc main_arg8 (by decide))).trans (W6_main_arg8 m ρ c),
     (h c _ (mem_uc main_arg9 (by decide))).trans (W6_main_arg9 m ρ c),
     (h c _ (mem_uc main_arg10 (by decide))).trans (W6_main_arg10 m ρ c),
     (h c _ (mem_uc main_arg11 (by decide))).trans (W6_main_arg11 m ρ c),
     (h c _ (mem_uc main_arg12 (by decide))).trans (W6_main_arg12 m ρ c),
     (h c _ (mem_uc main_arg13 (by decide))).trans (W6_main_arg13 m ρ c),
     (h c _ (mem_uc main_arg14 (by decide))).trans (W6_main_arg14 m ρ c),
     (h c _ (mem_uc main_arg15 (by decide))).trans (W6_main_arg15 m ρ c),
     (h c _ (mem_uc main_arg16 (by decide))).trans (W6_main_arg16 m ρ c),
     (h c _ (mem_uc main_arg17 (by decide))).trans (W6_main_arg17 m ρ c),
     (h c _ (mem_uc main_arg18 (by decide))).trans (W6_main_arg18 m ρ c),
     (h c _ (mem_uc main_arg19 (by decide))).trans (W6_main_arg19 m ρ c),
     (h c _ (mem_uc main_arg20 (by decide))).trans (W6_main_arg20 m ρ c)⟩)
    (run_all m ρ)

end Cert.KernelIdeal.Bridge

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both runs end with the reference's last stage, read at the same
    arguments, in their result buffers. -/
theorem algebraic : Cert.algebraic_KernelIdeal_ReferenceIdeal := by
  intro m ρ m' ρ' _ hagree
  refine ⟨_, Cert.KernelIdeal.Bridge.run_value m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14, h15, h16, h17, h18, h19, h20⟩ := hagree c
  rw [Cert.ReferenceIdeal.Read.val_main_v154_eq, h0, h1, h2, h3, h4, h5, h6, h7, h8, h9, h10, h11, h12, h13, h14, h15, h16, h17,
    h18, h19, h20]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
